-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S64x4096 : Shape := ⟨2, ![64, 4096]⟩
abbrev S64 : Shape := ⟨1, ![64]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part3 {F : FTy → Type} [FloatOps F] (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  main_v53

def fn_part2 {F : FTy → Type} [FloatOps F] (main_arg7 : FVec F S4096 .f32) (main_arg8 : FVec F S4096 .f32) (main_arg9 : FVec F S4096x4096 .f32) (main_arg10 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096x4096 .f32 := Host.absf main_arg9
  let main_cst_16 : FVec F S_ .f32 := constant S_ .f32 0x7F800000#32
  let main_v45 : FVec F S4096x4096 .f32 := broadcastInDim S4096x4096 ![] bcast_S_S4096x4096 main_cst_16
  let main_v46 : IVec S4096x4096 1 := cmpf .olt main_v44 main_v45
  let main_c_17 : IVec S_ 1 := constantI S_ 1 1#1
  let main_v47 : IVec S_ 1 := (fun x v => Host.reduce IntOp.andi x v reducesTo_S4096x4096_S_d0_1 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_v48 main_v49 main_v50

def fn_part1 {F : FTy → Type} [FloatOps F] (main_arg4 : FVec F S64 .f32) (main_arg5 : FVec F S4096x4096 .f32) (main_arg6 : FVec F S4096 .f32) (main_arg7 : FVec F S4096 .f32) (main_arg8 : FVec F S4096 .f32) (main_arg9 : FVec F S4096x4096 .f32) (main_arg10 : FVec F S4096 .f32) (main_v13 : IVec S_ 1) (main_v16 : IVec S64x4096 1) : IVec S_ 1 :=
  let main_c_5 : IVec S_ 1 := constantI S_ 1 1#1
  let main_v17 : IVec S_ 1 := (fun x v => Host.reduce IntOp.andi x v reducesTo_S64x4096_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x4096 .f32) (main_arg1 : FVec F S64x4096 .f32) (main_arg2 : FVec F S64 .f32) (main_arg3 : FVec F S64x4096 .f32) (main_arg4 : FVec F S64 .f32) (main_arg5 : FVec F S4096x4096 .f32) (main_arg6 : FVec F S4096 .f32) (main_arg7 : FVec F S4096 .f32) (main_arg8 : FVec F S4096 .f32) (main_arg9 : FVec F S4096x4096 .f32) (main_arg10 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x4096 .f32 := Host.absf main_arg3
  let main_cst_4 : FVec F S_ .f32 := constant S_ .f32 0x7F800000#32
  let main_v15 : FVec F S64x4096 .f32 := broadcastInDim S64x4096 ![] bcast_S_S64x4096 main_cst_4
  let main_v16 : IVec S64x4096 1 := cmpf .olt main_v14 main_v15
  fn_part1 (F := F) main_arg4 main_arg5 main_arg6 main_arg7 main_arg8 main_arg9 main_arg10 main_v13 main_v16
-- ==== Kernel.lean ====
abbrev S8192x4096 : Shape := ⟨2, ![8192, 4096]⟩
abbrev S64x4096 : Shape := ⟨2, ![64, 4096]⟩
abbrev S64 : Shape := ⟨1, ![64]⟩
abbrev S4096x4096 : Shape := ⟨2, ![4096, 4096]⟩
abbrev S4096 : Shape := ⟨1, ![4096]⟩
abbrev S512x512 : Shape := ⟨2, ![512, 512]⟩
abbrev S64x512 : Shape := ⟨2, ![64, 512]⟩
abbrev S4096x512 : Shape := ⟨2, ![4096, 512]⟩
abbrev S512x4096 : Shape := ⟨2, ![512, 4096]⟩
abbrev S512x64 : Shape := ⟨2, ![512, 64]⟩
abbrev S1x64 : Shape := ⟨2, ![1, 64]⟩
abbrev S512 : Shape := ⟨1, ![512]⟩
abbrev S512x1 : Shape := ⟨2, ![512, 1]⟩
abbrev S512x1024 : Shape := ⟨2, ![512, 1024]⟩
abbrev S1024 : Shape := ⟨1, ![1024]⟩
abbrev S1x1024 : Shape := ⟨2, ![1, 1024]⟩
abbrev S1024x1024 : Shape := ⟨2, ![1024, 1024]⟩

abbrev nBuf : Space → Nat
  | .hbm => 17
  | .vmem => 29
  | .smem => 0
  | _ => 0

abbrev bufTy : (tb : Table) → Fin (tcTables nBuf tb) → BufTy
  | .hbm, ⟨0, _⟩ => ⟨S8192x4096, .f32⟩
  | .hbm, ⟨1, _⟩ => ⟨S64x4096, .f32⟩
  | .hbm, ⟨2, _⟩ => ⟨S64, .f32⟩
  | .hbm, ⟨3, _⟩ => ⟨S64x4096, .f32⟩
  | .hbm, ⟨4, _⟩ => ⟨S64, .f32⟩
  | .hbm, ⟨5, _⟩ => ⟨S4096x4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S4096x4096, .f32⟩
  | .hbm, ⟨10, _⟩ => ⟨S4096, .f32⟩
  | .hbm, ⟨11, _⟩ => ⟨S64x4096, .bf16⟩
  | .hbm, ⟨12, _⟩ => ⟨S64x4096, .bf16⟩
  | .hbm, ⟨13, _⟩ => ⟨S4096x4096, .bf16⟩
  | .hbm, ⟨14, _⟩ => ⟨S4096x4096, .bf16⟩
  | .hbm, ⟨15, _⟩ => ⟨S8192x4096, .bf16⟩
  | .hbm, ⟨16, _⟩ => ⟨S8192x4096, .f32⟩
  | .local _ .vmem, ⟨0, _⟩ => ⟨S512x512, .f32⟩
  | .local _ .vmem, ⟨1, _⟩ => ⟨S512x512, .f32⟩
  | .local _ .vmem, ⟨2, _⟩ => ⟨S64x512, .bf16⟩
  | .local _ .vmem, ⟨3, _⟩ => ⟨S64x512, .bf16⟩
  | .local _ .vmem, ⟨4, _⟩ => ⟨S64x512, .bf16⟩
  | .local _ .vmem, ⟨5, _⟩ => ⟨S64x512, .bf16⟩
  | .local _ .vmem, ⟨6, _⟩ => ⟨S4096x512, .bf16⟩
  | .local _ .vmem, ⟨7, _⟩ => ⟨S4096x512, .bf16⟩
  | .local _ .vmem, ⟨8, _⟩ => ⟨S64, .f32⟩
  | .local _ .vmem, ⟨9, _⟩ => ⟨S64, .f32⟩
  | .local _ .vmem, ⟨10, _⟩ => ⟨S4096, .f32⟩
  | .local _ .vmem, ⟨11, _⟩ => ⟨S4096, .f32⟩
  | .local _ .vmem, ⟨12, _⟩ => ⟨S4096, .f32⟩
  | .local _ .vmem, ⟨13, _⟩ => ⟨S512x4096, .bf16⟩
  | .local _ .vmem, ⟨14, _⟩ => ⟨S512x4096, .bf16⟩
  | .local _ .vmem, ⟨15, _⟩ => ⟨S512x4096, .f32⟩
  | .local _ .vmem, ⟨16, _⟩ => ⟨S512x64, .f32⟩
  | .local _ .vmem, ⟨17, _⟩ => ⟨S512x64, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024, .f32⟩
  | .local _ .vmem, ⟨23, _⟩ => ⟨S1024, .f32⟩
  | .local _ .vmem, ⟨24, _⟩ => ⟨S1024x1024, .f32⟩
  | .local _ .vmem, ⟨25, _⟩ => ⟨S1024x1024, .f32⟩
  | .local _ .vmem, ⟨26, _⟩ => ⟨S1024x1024, .f32⟩
  | .local _ .vmem, ⟨27, _⟩ => ⟨S1024x1024, .f32⟩
  | .local _ .vmem, ⟨28, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_22 : BitVec 32 := 0#32
  let v31 : BitVec 1 := Scalar.cmpi .ne v30 c0_i32_22
  v31

def k0_mult1 : BitVec 32 :=
  let c0_i32_39 : BitVec 32 := 0#32
  let c1024_i32 : BitVec 32 := 1024#32
  let v75 : BitVec 32 := Scalar.muli c0_i32_39 c1024_i32
  v75
def k0_off1 (c0_i32_39 : BitVec 32) : Fin 2 → Nat :=
  let c0_40 : Index := 0#32
  let c1024_i32 : BitVec 32 := 1024#32
  let v75 : BitVec 32 := Scalar.muli c0_i32_39 c1024_i32
  let v76 : BitVec 32 := v75
  let v77 : Index := Scalar.indexCast v76
  ![0, v77.toNat]
def k0_off2 (c0_i32_39 : BitVec 32) : Fin 1 → Nat :=
  let c1024_i32 : BitVec 32 := 1024#32
  let v75 : BitVec 32 := Scalar.muli c0_i32_39 c1024_i32
  let v76 : BitVec 32 := v75
  let v79 : Index := Scalar.indexCast v76
  ![v79.toNat]
def k0_mult2 : BitVec 32 :=
  let c1_i32 : BitVec 32 := 1#32
  let c1024_i32_43 : BitVec 32 := 1024#32
  let v93 : BitVec 32 := Scalar.muli c1_i32 c1024_i32_43
  v93
def k0_mult3 : BitVec 32 :=
  let c2_i32 : BitVec 32 := 2#32
  let c1024_i32_47 : BitVec 32 := 1024#32
  let v111 : BitVec 32 := Scalar.muli c2_i32 c1024_i32_47
  v111
def k0_mult4 : BitVec 32 :=
  let c3_i32 : BitVec 32 := 3#32
  let c1024_i32_51 : BitVec 32 := 1024#32
  let v129 : BitVec 32 := Scalar.muli c3_i32 c1024_i32_51
  v129
def k0_mult5 : BitVec 32 :=
  let c0_i32_58 : BitVec 32 := 0#32
  let c1024_i32_59 : BitVec 32 := 1024#32
  let v156 : BitVec 32 := Scalar.muli c0_i32_58 c1024_i32_59
  v156
def k0_mult6 : BitVec 32 :=
  let c1_i32_62 : BitVec 32 := 1#32
  let c1024_i32_63 : BitVec 32 := 1024#32
  let v184 : BitVec 32 := Scalar.muli c1_i32_62 c1024_i32_63
  v184
def k0_mult7 : BitVec 32 :=
  let c2_i32_66 : BitVec 32 := 2#32
  let c1024_i32_67 : BitVec 32 := 1024#32
  let v212 : BitVec 32 := Scalar.muli c2_i32_66 c1024_i32_67
  v212
def k0_mult8 : BitVec 32 :=
  let c3_i32_70 : BitVec 32 := 3#32
  let c1024_i32_71 : BitVec 32 := 1024#32
  let v240 : BitVec 32 := Scalar.muli c3_i32_70 c1024_i32_71
  v240
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x512_S512x512_0_0 : ∀ a, (![0, 0] : Fin 2 → Nat) a + S512x512.size a ≤ S512x512.size a
  h_S512x512 : 0 < S512x512.numel
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  reduces_S512x64_S512 : S512x64.Reduces [1] S512
  shapeCasts_S512_S512x1 : S512.ShapeCasts S512x1
  h_S512x1024 : 0 < S512x1024.numel
  h_S1024 : 0 < S1024.numel
  shapeCasts_S1024_S1x1024 : S1024.ShapeCasts S1x1024
  broadcasts_S1x1024_S512x1024 : S1x1024.Broadcasts S512x1024
  broadcasts_S512x1_S512x1024 : S512x1.Broadcasts S512x1024
  reduces_S512x1024_S512 : S512x1024.Reduces [1] S512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  broadcasts_S1x1024_S1024x1024 : S1x1024.Broadcasts S1024x1024
  dot_S512x512_S64x512_S512x64_1_1_0_0_n_n_wf : DotDims.WF S512x512 S64x512 S512x64 [1] [1] [0] [0] [] []
  dot_S512x512_S4096x512_S512x4096_1_1_0_0_n_n_wf : DotDims.WF S512x512 S4096x512 S512x4096 [1] [1] [0] [0] [] []
  dot_S1024x1024_S1024x1024_S1024x1024_1_1_0_0_n_n_wf : DotDims.WF S1024x1024 S1024x1024 S1024x1024 [1] [1] [0] [0] [] []
  hrank0 : 0 < grid0.rank
  k0_mult1_dvd : ∀ i : grid0.Coords, ∀ (k0_h2 : k0_cond2 i = 1#1), 1024 ∣ k0_mult1.toNat
  k0_off1_inb : ∀ i : grid0.Coords, ∀ (k0_h2 : k0_cond2 i = 1#1), ∀ (r : Fin 4), ∀ a, (k0_off1 (BitVec.ofNat 32 r.val)) a + S512x1024.size a ≤ S512x4096.size a
  k0_off2_inb : ∀ i : grid0.Coords, ∀ (k0_h2 : k0_cond2 i = 1#1), ∀ (r : Fin 4), ∀ a, (k0_off2 (BitVec.ofNat 32 r.val)) a + S1024.size a ≤ S4096.size a
  k0_mult2_dvd : ∀ i : grid0.Coords, ∀ (k0_h2 : k0_cond2 i = 1#1), 1024 ∣ k0_mult2.toNat
  k0_mult3_dvd : ∀ i : grid0.Coords, ∀ (k0_h2 : k0_cond2 i = 1#1), 1024 ∣ k0_mult3.toNat
  k0_mult4_dvd : ∀ i : grid0.Coords, ∀ (k0_h2 : k0_cond2 i = 1#1), 1024 ∣ k0_mult4.toNat
  k0_mult5_dvd : ∀ i : grid0.Coords, ∀ (k0_h2 : k0_cond2 i = 1#1), 1024 ∣ k0_mult5.toNat
  k0_off1_packedbf16 : ∀ i : grid0.Coords, ∀ (k0_h2 : k0_cond2 i = 1#1), ∀ (r : Fin 4), (Rect.unit (s := S512x4096) (k0_off1 (BitVec.ofNat 32 r.val)) S512x1024.size (k0_off1_inb i k0_h2 r)).PackedRows (EltTy.packing .bf16)
  k0_mult6_dvd : ∀ i : grid0.Coords, ∀ (k0_h2 : k0_cond2 i = 1#1), 1024 ∣ k0_mult6.toNat
  k0_mult7_dvd : ∀ i : grid0.Coords, ∀ (k0_h2 : k0_cond2 i = 1#1), 1024 ∣ k0_mult7.toNat
  k0_mult8_dvd : ∀ i : grid0.Coords, ∀ (k0_h2 : k0_cond2 i = 1#1), 1024 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x4096.size a
  hwx0_0 : ∀ i : grid0.Coords, EltTy.bits .f32 = 32 ∨ (Rect.block (s := S8192x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x4096.size a
  hwx0_1 : ∀ i : grid0.Coords, EltTy.bits .bf16 = 32 ∨ (Rect.block (s := S64x4096) S64x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x4096.size a
  hwx0_2 : ∀ i : grid0.Coords, EltTy.bits .bf16 = 32 ∨ (Rect.block (s := S64x4096) S64x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x4096.size a
  hwx0_3 : ∀ i : grid0.Coords, EltTy.bits .bf16 = 32 ∨ (Rect.block (s := S4096x4096) S4096x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096.size a ≤ S4096.size a
  hwx0_6 : ∀ i : grid0.Coords, EltTy.bits .f32 = 32 ∨ (Rect.block (s := S4096) S4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4096.size a ≤ S4096.size a
  hwx0_7 : ∀ i : grid0.Coords, EltTy.bits .f32 = 32 ∨ (Rect.block (s := S4096) S4096.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4096.size a ≤ S4096.size a
  hwx0_8 : ∀ i : grid0.Coords, EltTy.bits .f32 = 32 ∨ (Rect.block (s := S4096) S4096.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x4096.size a ≤ S8192x4096.size a
  hwx0_9 : ∀ i : grid0.Coords, EltTy.bits .bf16 = 32 ∨ (Rect.block (s := S8192x4096) S512x4096.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .bf16 = 32 ∨ (Rect.block (s := S8192x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S4096.size a
  hwx1_2 : ∀ i : grid1.Coords, EltTy.bits .f32 = 32 ∨ (Rect.block (s := S4096) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S8192x4096.size a
  hwx1_4 : ∀ i : grid1.Coords, EltTy.bits .f32 = 32 ∨ (Rect.block (s := S8192x4096) S1024x1024.size (cc1_transform_4 i) (hinb1_4 i)).WholeWords (EltTy.packing .f32)

variable [Facts₀]

def dot_S512x512_S64x512_S512x64_1_1_0_0_n_n : DotDims S512x512 S64x512 S512x64 where
  lhsContracting := [1]
  rhsContracting := [1]
  lhsNonContracting := [0]
  rhsNonContracting := [0]
  lhsBatch := []
  rhsBatch := []
  wf := dot_S512x512_S64x512_S512x64_1_1_0_0_n_n_wf
def dot_S512x512_S4096x512_S512x4096_1_1_0_0_n_n : DotDims S512x512 S4096x512 S512x4096 where
  lhsContracting := [1]
  rhsContracting := [1]
  lhsNonContracting := [0]
  rhsNonContracting := [0]
  lhsBatch := []
  rhsBatch := []
  wf := dot_S512x512_S4096x512_S512x4096_1_1_0_0_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S512x4096.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

abbrev win1_0 : Pipeline.Window sig grid1 :=
  Pipeline.Window.ofSpec (Memref.whole main_v4) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S64x4096 : Shape := ⟨2, ![64, 4096]⟩
abbrev S64 : Shape := ⟨1, ![64]⟩
abbrev S4096x4096 : Shape := ⟨2, ![4096, 4096]⟩
abbrev S4096 : Shape := ⟨1, ![4096]⟩
abbrev S4096x64 : Shape := ⟨2, ![4096, 64]⟩
abbrev S8192x64 : Shape := ⟨2, ![8192, 64]⟩
abbrev S1x64 : Shape := ⟨2, ![1, 64]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 101
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S64x4096, .f32⟩
  | .hbm, ⟨2, _⟩ => ⟨S64, .f32⟩
  | .hbm, ⟨3, _⟩ => ⟨S64x4096, .f32⟩
  | .hbm, ⟨4, _⟩ => ⟨S64, .f32⟩
  | .hbm, ⟨5, _⟩ => ⟨S4096x4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S4096x4096, .f32⟩
  | .hbm, ⟨10, _⟩ => ⟨S4096, .f32⟩
  | .hbm, ⟨11, _⟩ => ⟨S4096x64, .f32⟩
  | .hbm, ⟨12, _⟩ => ⟨S8192x64, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S_, .f32⟩
  | .hbm, ⟨18, _⟩ => ⟨S8192x64, .f32⟩
  | .hbm, ⟨19, _⟩ => ⟨S8192x64, .f32⟩
  | .hbm, ⟨20, _⟩ => ⟨S4096x64, .f32⟩
  | .hbm, ⟨21, _⟩ => ⟨S8192x64, .f32⟩
  | .hbm, ⟨22, _⟩ => ⟨S1x64, .f32⟩
  | .hbm, ⟨23, _⟩ => ⟨S8192x64, .f32⟩
  | .hbm, ⟨24, _⟩ => ⟨S8192x64, .f32⟩
  | .hbm, ⟨25, _⟩ => ⟨S8192x64, .f32⟩
  | .hbm, ⟨26, _⟩ => ⟨S_, .f32⟩
  | .hbm, ⟨27, _⟩ => ⟨S8192x64, .f32⟩
  | .hbm, ⟨28, _⟩ => ⟨S8192x64, .f32⟩
  | .hbm, ⟨29, _⟩ => ⟨S8192x64, .f32⟩
  | .hbm, ⟨30, _⟩ => ⟨S8192x64, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S4096x4096, .f32⟩
  | .hbm, ⟨35, _⟩ => ⟨S8192x4096, .f32⟩
  | .hbm, ⟨36, _⟩ => ⟨S1x4096, .f32⟩
  | .hbm, ⟨37, _⟩ => ⟨S8192x4096, .f32⟩
  | .hbm, ⟨38, _⟩ => ⟨S8192x4096, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x1, .i1⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S8192x4096, .f32⟩
  | .hbm, ⟨60, _⟩ => ⟨S8192x4096, .f32⟩
  | .hbm, ⟨61, _⟩ => ⟨S8192x4096, .f32⟩
  | .hbm, ⟨62, _⟩ => ⟨S8192x4096, .f32⟩
  | .hbm, ⟨63, _⟩ => ⟨S_, .f32⟩
  | .hbm, ⟨64, _⟩ => ⟨S8192x4096, .f32⟩
  | .hbm, ⟨65, _⟩ => ⟨S8192x4096, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S8192x4096, .f32⟩
  | .hbm, ⟨73, _⟩ => ⟨S8192x4096, .f32⟩
  | .hbm, ⟨74, _⟩ => ⟨S8192x4096, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S8192x4096, .f32⟩
  | .hbm, ⟨82, _⟩ => ⟨S8192x4096, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S8192x1, .f32⟩
  | .hbm, ⟨87, _⟩ => ⟨S8192x4096, .f32⟩
  | .hbm, ⟨88, _⟩ => ⟨S8192x4096, .f32⟩
  | .hbm, ⟨89, _⟩ => ⟨S1x4096, .f32⟩
  | .hbm, ⟨90, _⟩ => ⟨S8192x4096, .f32⟩
  | .hbm, ⟨91, _⟩ => ⟨S8192x4096, .f32⟩
  | .hbm, ⟨92, _⟩ => ⟨S1x4096, .f32⟩
  | .hbm, ⟨93, _⟩ => ⟨S8192x4096, .f32⟩
  | .hbm, ⟨94, _⟩ => ⟨S8192x4096, .f32⟩
  | .hbm, ⟨95, _⟩ => ⟨S4096x4096, .f32⟩
  | .hbm, ⟨96, _⟩ => ⟨S8192x4096, .f32⟩
  | .hbm, ⟨97, _⟩ => ⟨S8192x4096, .f32⟩
  | .hbm, ⟨98, _⟩ => ⟨S1x4096, .f32⟩
  | .hbm, ⟨99, _⟩ => ⟨S8192x4096, .f32⟩
  | .hbm, ⟨100, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_4 : Ref sig .tc := ⟨.hbm, 63, rfl⟩
abbrev main_v34 : Ref sig .tc := ⟨.hbm, 64, rfl⟩
abbrev main_v35 : Ref sig .tc := ⟨.hbm, 65, rfl⟩
abbrev main_cst_5 : Ref sig .tc := ⟨.hbm, 66, rfl⟩
abbrev main_v36 : Ref sig .tc := ⟨.hbm, 67, rfl⟩
abbrev main_v37 : Ref sig .tc := ⟨.hbm, 68, rfl⟩
abbrev main_cst_6 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_7 : Ref sig .tc := ⟨.hbm, 75, rfl⟩
abbrev main_v43 : Ref sig .tc := ⟨.hbm, 76, rfl⟩
abbrev main_v44 : Ref sig .tc := ⟨.hbm, 77, rfl⟩
abbrev main_cst_8 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_9 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩

abbrev nD : Nat := 1
abbrev τ : Topo := Topo.v7x

variable {F : FTy → Type} [FloatOps F]

class Facts₀ : Prop where
  transposes_S64x4096_S4096x64_1_0 : S64x4096.Transposes [1, 0] S4096x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  reducesTo_S8192x4096_S8192_d1 : S8192x4096.ReducesTo [1] S8192
  dot_S8192x4096_S4096x64_S8192x64_1_0_0_1_n_n_wf : DotDims.WF S8192x4096 S4096x64 S8192x64 [1] [0] [0] [1] [] []
  dot_S8192x4096_S4096x4096_S8192x4096_1_0_0_1_n_n_wf : DotDims.WF S8192x4096 S4096x4096 S8192x4096 [1] [0] [0] [1] [] []

variable [Facts₀]

def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.KR0Base.lean ====
import proofs.«112781_j3195455668476_2_alg».proof.Proof.Gen.Kernel.Launch
import proofs.«112781_j3195455668476_2_alg».proof.Proof.Gen.Kernel.Skeleton
import proofs.«112781_j3195455668476_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`: the block's rectangle read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or kept it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, whether the pipeline fetched it there or kept it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, whether the pipeline fetched it there or kept it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, whether the pipeline fetched it there or kept it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, whether the pipeline fetched it there or kept it. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, whether the pipeline fetched it there or kept it. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, whether the pipeline fetched it there or kept it. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, whether the pipeline fetched it there or kept it. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, whether the pipeline fetched it there or kept it. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

end

/-- The body's first branch (the accumulators are reset): taken when the reduction coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The body's last branch (the epilogue stores the output block): taken at the last reduction step. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem idleAt0_9_A : ∀ t : Fin cfg0.N, cond0_0 (grid0.coords t) → ¬cond0_1 (grid0.coords t) → cfg0.idle 9 (grid0.coords t) = true := by decide +kernel
theorem noFlush0_9_A : ∀ t : Fin cfg0.N, cond0_0 (grid0.coords t) → ¬cond0_1 (grid0.coords t) → (cfg0.win 9).flush t = false := by decide +kernel
theorem idleAt0_9_B : ∀ t : Fin cfg0.N, ¬cond0_0 (grid0.coords t) → ¬cond0_1 (grid0.coords t) → cfg0.idle 9 (grid0.coords t) = true := by decide +kernel
theorem noFlush0_9_B : ∀ t : Fin cfg0.N, ¬cond0_0 (grid0.coords t) → ¬cond0_1 (grid0.coords t) → (cfg0.win 9).flush t = false := by decide +kernel
theorem liveAt0_9_C : ∀ t : Fin cfg0.N, ¬cond0_0 (grid0.coords t) → cond0_1 (grid0.coords t) → cfg0.idle 9 (grid0.coords t) = false := by decide +kernel

/-- One staging buffer of the output window, through which its contents are stated. -/
abbrev VO0_9 : View sig .tc .vmem S512x4096 .bf16 := (Memref.whole cc0_stg9_0 : Memref sig .tc .vmem S512x4096 .bf16).view
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4096 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x4096 .bf16 := win0_9.stage (cfg0.slots t 9)
abbrev hs0_9 (t : Fin cfg0.N) : (ms0_9 t).IsWhole := hstage0_9 ((cfg0.slots t 9).cast nbuf0_9)
abbrev scM0_0 : Memref sig .tc .vmem S512x4096 .f32 := Memref.whole cc0_scratch0
abbrev VS0_0 : View sig .tc .vmem S512x4096 .f32 := scM0_0.view
abbrev scM0_1 : Memref sig .tc .vmem S512x64 .f32 := Memref.whole cc0_scratch1
abbrev VS0_1 : View sig .tc .vmem S512x64 .f32 := scM0_1.view
abbrev scM0_2 : Memref sig .tc .vmem S512x64 .f32 := Memref.whole cc0_scratch2
abbrev VS0_2 : View sig .tc .vmem S512x64 .f32 := scM0_2.view

/-- The region's invariant with the kernel's scratch operands at given resources `S·`: those, the core's other scoped buffers
    (the other region's staging buffers and scratch, each whole at some contents) and the generator register at some state. -/
def RR0 (c : Dev nD) (S0 : sProp 𝕄) (S1 : sProp 𝕄) (S2 : sProp 𝕄) : sProp 𝕄 :=
  iprop(iprop(S0 ∗ S1 ∗ S2 ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f)) ∗ (∃ r, prngReg c r))

/-- Before the first point the invariant is the launch's: every scratch operand at some contents. -/
theorem PhiA0_eq (c : Dev nD) :
    (Pipeline.ΦA spec0 c : sProp 𝕄) = RR0 (F := F) c (iprop(∃ d, owns (c : Thread nD τ) scM0_0 fullShare d)) (iprop(∃ d, owns (c : Thread nD τ) scM0_1 fullShare d)) (iprop(∃ d, owns (c : Thread nD τ) scM0_2 fullShare d)) := by
  unfold Pipeline.ΦA RR0; rw [scopedRest0_eq]; simp only [scM0_0, scM0_1, scM0_2, owns_whole]; try rfl

end Cert.Kernel.Hand

end
-- ==== Proof.KR0RunA.lean ====
import proofs.«112781_j3195455668476_2_alg».proof.Proof.KR0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The kernel body in case A (first reduction step: the accumulators are reset, then added to), on whole staging
    memrefs: the inputs at their contents, the output untouched, each scratch accumulator at anything; it runs to the
    continuation with the inputs as they were and each buffer it stored into holding its pieces (found by the symbolic run). -/
noncomputable def kernelRun0_A (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) :
    Σ' (L9 : List (View.Piece (Elt F) S512x4096 .bf16)), Σ' (LS0 : List (View.Piece (Elt F) S512x4096 .f32)), Σ' (LS1 : List (View.Piece (Elt F) S512x64 .f32)), { LS2 : List (View.Piece (Elt F) S512x64 .f32) //
      ∀ (xi9 : Vec F S512x4096 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0__phasor_kernel i arg2 harg2 arg3 harg3 arg4 harg4 arg5 harg5 arg6 harg6 arg7 harg7 arg8 harg8 arg9 harg9 arg10 harg10 arg11 harg11 arg12 harg12 arg13 harg13 arg14 harg14) K } := by
  refine ⟨[], ?_, ?_, ?_, fun xi9 E K => ?run⟩
  case run =>
    simp only [cc0__phasor_kernel_eq_skeleton, k0_part1_eq_skeleton, k0_part2_eq_skeleton, k0_part3_eq_skeleton, k0_part4_eq_skeleton, k0_part5_eq_skeleton, k0_part6_eq_skeleton]; unfold cc0__phasor_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fo, %hfo, HO⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HO]
    · iexists _; isplitr; · ipureintro; exact harg11.read_unread _
      iexact HO
    isplitl [HS0]; · iexists _; iexact HS0
    isplitl [HS1]; · iexists _; iexact HS1
    iexists _; iexact HS2

end Cert.Kernel.Hand

end
-- ==== Proof.KR0RunB.lean ====
import proofs.«112781_j3195455668476_2_alg».proof.Proof.KR0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The kernel body in case B (a middle reduction step: the accumulators are added to), on whole staging
    memrefs: the inputs at their contents, the output untouched, each scratch accumulator at what the step before left; it runs to the
    continuation with the inputs as they were and each buffer it stored into holding its pieces (found by the symbolic run). -/
noncomputable def kernelRun0_B (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) :
    Σ' (L9 : List (View.Piece (Elt F) S512x4096 .bf16)), Σ' (LS0 : List (View.Piece (Elt F) S512x4096 .f32)), Σ' (LS1 : List (View.Piece (Elt F) S512x64 .f32)), { LS2 : List (View.Piece (Elt F) S512x64 .f32) //
      ∀ (xi9 : Vec F S512x4096 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0__phasor_kernel i arg2 harg2 arg3 harg3 arg4 harg4 arg5 harg5 arg6 harg6 arg7 harg7 arg8 harg8 arg9 harg9 arg10 harg10 arg11 harg11 arg12 harg12 arg13 harg13 arg14 harg14) K } := by
  refine ⟨[], ?_, ?_, ?_, fun xi9 E K => ?run⟩
  case run =>
    simp only [cc0__phasor_kernel_eq_skeleton, k0_part1_eq_skeleton, k0_part2_eq_skeleton, k0_part3_eq_skeleton, k0_part4_eq_skeleton, k0_part5_eq_skeleton, k0_part6_eq_skeleton]; unfold cc0__phasor_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fo, %hfo, HO⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfo; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HO]
    · iexists _; isplitr; · ipureintro; exact harg11.read_unread _
      iexact HO
    isplitl [HS0]; · iexists _; iexact HS0
    isplitl [HS1]; · iexists _; iexact HS1
    iexists _; iexact HS2

end Cert.Kernel.Hand

end
-- ==== Proof.KR0RunC.lean ====
import proofs.«112781_j3195455668476_2_alg».proof.Proof.KR0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The kernel body in case C (the last reduction step: the accumulators are added to and the epilogue stores the output block), on whole staging
    memrefs: the inputs at their contents, the output at anything, each scratch accumulator at what the step before left; it runs to the
    continuation with the inputs as they were and each buffer it stored into holding its pieces (found by the symbolic run). -/
noncomputable def kernelRun0_C (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) :
    Σ' (L9 : List (View.Piece (Elt F) S512x4096 .bf16)), Σ' (LS0 : List (View.Piece (Elt F) S512x4096 .f32)), Σ' (LS1 : List (View.Piece (Elt F) S512x64 .f32)), { LS2 : List (View.Piece (Elt F) S512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0__phasor_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0__phasor_kernel_eq_skeleton, k0_part1_eq_skeleton, k0_part2_eq_skeleton, k0_part3_eq_skeleton, k0_part4_eq_skeleton, k0_part5_eq_skeleton, k0_part6_eq_skeleton]; unfold cc0__phasor_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%dq, %fo, -, HO⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HO]
    · iexists _; iexact HO
    isplitl [HS0]; · iexists _; iexact HS0
    isplitl [HS1]; · iexists _; iexact HS1
    iexists _; iexact HS2

end Cert.Kernel.Hand

end
-- ==== Proof.KR0.lean ====
import proofs.«112781_j3195455668476_2_alg».proof.Proof.KR0RunA
import proofs.«112781_j3195455668476_2_alg».proof.Proof.KR0RunB
import proofs.«112781_j3195455668476_2_alg».proof.Proof.KR0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer: its pieces read back over junk (no piece: a placeholder nothing consults, the window being idle and not written back at these points). -/
def out0_A_9 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) : Vec F S512x4096 .bf16 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1)

/-- Case A's pieces for scratch accumulator 0 tile it, so they cover it. -/
theorem scover0_A_0 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (y : S512x4096.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1 S512x4096.size (by sl_kernel_rfl) y

/-- What case A leaves in scratch accumulator 0: its pieces read back over junk. -/
def sout0_A_0 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) : Vec F S512x4096 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1)

/-- Case A's pieces for scratch accumulator 1 tile it, so they cover it. -/
theorem scover0_A_1 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (y : S512x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1 S512x64.size (by sl_kernel_rfl) y

/-- What case A leaves in scratch accumulator 1: its pieces read back over junk. -/
def sout0_A_1 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) : Vec F S512x64 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1)

/-- Case A's pieces for scratch accumulator 2 tile it, so they cover it. -/
theorem scover0_A_2 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (y : S512x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1 S512x64.size (by sl_kernel_rfl) y

/-- What case A leaves in scratch accumulator 2: its pieces read back over junk. -/
def sout0_A_2 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) : Vec F S512x64 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1)

/-- What case B leaves in the output's staging buffer: its pieces read back over junk (no piece: a placeholder nothing consults, the window being idle and not written back at these points). -/
def out0_B_9 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) : Vec F S512x4096 .bf16 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1)

/-- Case B's pieces for scratch accumulator 0 tile it, so they cover it. -/
theorem scover0_B_0 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) (y : S512x4096.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.1 S512x4096.size (by sl_kernel_rfl) y

/-- What case B leaves in scratch accumulator 0: its pieces read back over junk. -/
def sout0_B_0 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) : Vec F S512x4096 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.1)

/-- Case B's pieces for scratch accumulator 1 tile it, so they cover it. -/
theorem scover0_B_1 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) (y : S512x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1 S512x64.size (by sl_kernel_rfl) y

/-- What case B leaves in scratch accumulator 1: its pieces read back over junk. -/
def sout0_B_1 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) : Vec F S512x64 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1)

/-- Case B's pieces for scratch accumulator 2 tile it, so they cover it. -/
theorem scover0_B_2 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) (y : S512x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1 S512x64.size (by sl_kernel_rfl) y

/-- What case B leaves in scratch accumulator 2: its pieces read back over junk. -/
def sout0_B_2 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) : Vec F S512x64 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1)

/-- Case C's pieces for the output tile its block, so they cover it. -/
theorem cover0_C_9 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) (y : S512x4096.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1 S512x1024.size (by sl_kernel_rfl) y

/-- What case C leaves in the output's staging buffer: its pieces read back over junk. -/
def out0_C_9 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) : Vec F S512x4096 .bf16 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1)

/-- Case C's pieces for scratch accumulator 0 tile it, so they cover it. -/
theorem scover0_C_0 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) (y : S512x4096.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.1 S512x4096.size (by sl_kernel_rfl) y

/-- What case C leaves in scratch accumulator 0: its pieces read back over junk. -/
def sout0_C_0 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) : Vec F S512x4096 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.1)

/-- Case C's pieces for scratch accumulator 1 tile it, so they cover it. -/
theorem scover0_C_1 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) (y : S512x64.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1 S512x64.size (by sl_kernel_rfl) y

/-- What case C leaves in scratch accumulator 1: its pieces read back over junk. -/
def sout0_C_1 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) : Vec F S512x64 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1)

/-- Case C's pieces for scratch accumulator 2 tile it, so they cover it. -/
theorem scover0_C_2 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) (y : S512x64.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1 S512x64.size (by sl_kernel_rfl) y

/-- What case C leaves in scratch accumulator 2: its pieces read back over junk. -/
def sout0_C_2 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) : Vec F S512x64 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1)

/-- THE ACCUMULATION: what the output's staging buffer and the scratch accumulators hold after the body at position `n`
    (a tuple: the output, then the accumulators), by recursion on the position: the case the closed forms select, run at the
    point's memrefs and input blocks, the accumulators from what position `n - 1` left. -/
def outsAt0 (c : Dev nD) : (n : ℕ) → n < cfg0.N → Vec F S512x4096 .bf16 × Vec F S512x4096 .f32 × Vec F S512x64 .f32 × Vec F S512x64 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩))
  | n + 1, hn =>
    if h0 : (n + 1) % 8 = 0 then
      if h1 : (n + 1) % 8 = 7 then
        False.elim (by omega)
      else
        (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩))
    else
      if h1 : (n + 1) % 8 = 7 then
        (out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.1 (outsAt0 c n (Nat.lt_of_succ_lt hn)).2.2.1 (outsAt0 c n (Nat.lt_of_succ_lt hn)).2.2.2)

theorem outsAt0_A (c : Dev nD) (t : Fin cfg0.N) (h0 : t.val % 8 = 0) (h1 : ¬t.val % 8 = 7) :
    outsAt0 V c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the launch's (every scratch at anything); afterwards
    each scratch accumulator at what the point before left in it, the core's other scoped buffers and the generator register. -/
def PhiS0 (c : Dev nD) : (n : ℕ) → n ≤ cfg0.N → sProp 𝕄
  | 0, _ => Pipeline.ΦA spec0 c
  | n + 1, hn => RR0 c (owns (c : Thread nD τ) scM0_0 fullShare ((outsAt0 V c n hn).2.1)) (owns (c : Thread nD τ) scM0_1 fullShare ((outsAt0 V c n hn).2.2.1)) (owns (c : Thread nD τ) scM0_2 fullShare ((outsAt0 V c n hn).2.2.2))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = RR0 c (owns (c : Thread nD τ) scM0_0 fullShare ((outsAt0 V c n hn).2.1)) (owns (c : Thread nD τ) scM0_1 fullShare ((outsAt0 V c n hn).2.2.1)) (owns (c : Thread nD τ) scM0_2 fullShare ((outsAt0 V c n hn).2.2.2)) := rfl
theorem PhiS0_pos (c : Dev nD) (n : ℕ) (h : n ≤ cfg0.N) (hz : n ≠ 0) :
    PhiS0 V c n h = RR0 c (owns (c : Thread nD τ) scM0_0 fullShare ((outsAt0 V c (n - 1) (by omega)).2.1)) (owns (c : Thread nD τ) scM0_1 fullShare ((outsAt0 V c (n - 1) (by omega)).2.2.1)) (owns (c : Thread nD τ) scM0_2 fullShare ((outsAt0 V c (n - 1) (by omega)).2.2.2)) := by
  cases n with
  | zero => exact absurd rfl hz
  | succ n => rfl

/-- The proof data of this region's pipeline on core `c`: the arrays as the region finds them; after the body at point `t`
    each input's buffer at its block and the output's at the accumulation's first component; the invariant `PhiS0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 16000000 in
/-- The body at any point: the inputs' memrefs hold their blocks; the closed forms of the two branch conditions say which
    case the point is in; the invariant hands the body each scratch accumulator at what the point before left (at anything
    before the first point) and takes it back at this point's contents; nothing is owed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  by_cases h0 : t.val % 8 = 0
  · by_cases h1 : t.val % 8 = 7
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [Dat.leavesExact_idle (dat0 V c) 9 t (idleAt0_9_A t ((hcond0_0 t).mpr h0) (fun h => h1 ((hcond0_1 t).mp h))) (noFlush0_9_A t ((hcond0_0 t).mpr h0) (fun h => h1 ((hcond0_1 t).mp h)))]
      rw [outsAt0_A V c t h0 h1]
      unfold sout0_A_0 sout0_A_1 sout0_A_2; (try dsimp only)
      by_cases hz : t.val = 0
      · rw [PhiS0_castSucc V c t, PhiS0_zero V c _ _ hz, PhiA0_eq]; unfold RR0
        iintro ⟨⟨⟨HS0, HS1, HS2, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%dq, HO⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HO]; · iexact HO
        isplitl [HS0]; · iexact HS0
        isplitl [HS1]; · iexact HS1
        isplitl [HS2]; · iexact HS2
        iintro ⟨H0, H1, H2, H3, H4, H5, H6, H7, H8, HO, ⟨%es0, HS0⟩, ⟨%es1, HS1⟩, ⟨%es2, HS2⟩⟩
        isplitl [HS0 HS1 HS2 HB Hg]
        · isplitl [HS0 HS1 HS2 HB]
          · isplitl [HS0]
            ·
              unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _)
            isplitl [HS1]
            ·
              unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _)
            isplitl [HS2]
            ·
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact HO
      · rw [PhiS0_castSucc V c t, PhiS0_pos V c _ _ hz]; unfold RR0
        iintro ⟨⟨⟨HS0, HS1, HS2, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%dq, HO⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HO]; · iexact HO
        isplitl [HS0]; · iexists _; iexact HS0
        isplitl [HS1]; · iexists _; iexact HS1
        isplitl [HS2]; · iexists _; iexact HS2
        iintro ⟨H0, H1, H2, H3, H4, H5, H6, H7, H8, HO, ⟨%es0, HS0⟩, ⟨%es1, HS1⟩, ⟨%es2, HS2⟩⟩
        isplitl [HS0 HS1 HS2 HB Hg]
        · isplitl [HS0 HS1 HS2 HB]
          · isplitl [HS0]
            ·
              unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _)
            isplitl [HS1]
            ·
              unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _)
            isplitl [HS2]
            ·
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact HO

  · by_cases h1 : t.val % 8 = 7
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [show (dat0 V c).leavesExact 9 t = owns (c : Thread nD τ) (ms0_9 t) fullShare ((dat0 V c).after 9 t) from by
        unfold Dat.leavesExact; rw [liveAt0_9_C t (fun h => h0 ((hcond0_0 t).mp h)) ((hcond0_1 t).mpr h1)], after0_9]
      rw [outsAt0_C V c t h0 h1]
      unfold out0_C_9 sout0_C_0 sout0_C_1 sout0_C_2; (try dsimp only)
      by_cases hz : t.val = 0
      · exfalso; omega
      · rw [PhiS0_castSucc V c t, PhiS0_pos V c _ _ hz]; unfold RR0
        iintro ⟨⟨⟨HS0, HS1, HS2, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%dq, HO⟩⟩
        iapply ((kernelRun0_C c (grid0.coords t) _ _ _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HO]; · iexists _; iexact HO
        isplitl [HS0]; · iexact HS0
        isplitl [HS1]; · iexact HS1
        isplitl [HS2]; · iexact HS2
        iintro ⟨H0, H1, H2, H3, H4, H5, H6, H7, H8, ⟨%eo, HO⟩, ⟨%es0, HS0⟩, ⟨%es1, HS1⟩, ⟨%es2, HS2⟩⟩
        isplitl [HS0 HS1 HS2 HB Hg]
        · isplitl [HS0 HS1 HS2 HB]
          · isplitl [HS0]
            ·
              unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _)
            isplitl [HS1]
            ·
              unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _ _ _ _)
            isplitl [HS2]
            ·
              unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        unfold owns; iexists _; isplitr
        swap; · iexact HO
        ipureintro; exact View.read_writes_of_cover _ _ _ _ _ (cover0_C_9 c _ _ _ _ _ _ _ _ _ _ _ _ _ _ _ _ _ _ _ _ _ _ _ _ _ _ _ _ _ _ _ _ _ _ _ _ _ _ _ _ _)

    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [Dat.leavesExact_idle (dat0 V c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      rw [outsAt0_B V c t h0 h1]
      unfold sout0_B_0 sout0_B_1 sout0_B_2; (try dsimp only)
      by_cases hz : t.val = 0
      · exfalso; omega
      · rw [PhiS0_castSucc V c t, PhiS0_pos V c _ _ hz]; unfold RR0
        iintro ⟨⟨⟨HS0, HS1, HS2, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%dq, HO⟩⟩
        iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HO]; · iexact HO
        isplitl [HS0]; · iexact HS0
        isplitl [HS1]; · iexact HS1
        isplitl [HS2]; · iexact HS2
        iintro ⟨H0, H1, H2, H3, H4, H5, H6, H7, H8, HO, ⟨%es0, HS0⟩, ⟨%es1, HS1⟩, ⟨%es2, HS2⟩⟩
        isplitl [HS0 HS1 HS2 HB Hg]
        · isplitl [HS0 HS1 HS2 HB]
          · isplitl [HS0]
            ·
              unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _)
            isplitl [HS1]
            ·
              unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _)
            isplitl [HS2]
            ·
              unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact HO

/-- The library's body obligation, at every point. -/
theorem body_obligation0 (c : Dev nD) : BodyObligation (dat0 (F := F) V c) (defs₀ (F := F)) Variants.none () Set.univ := fun t => by
  rw [bigSep_W0, bigSep_W0]
  exact sound_body0 V c t

set_option maxHeartbeats 4000000 in
/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

set_option maxHeartbeats 4000000 in
/-- After the last point the invariant gives the launch's back: the accumulators' named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  unfold RR0
  iintro ⟨⟨HS0, HS1, HS2, HB⟩, Hg⟩
  isplitl [HS0 HS1 HS2 HB]
  · isplitl [HS0]; · iexists _; iexact HS0
    isplitl [HS1]; · iexists _; iexact HS1
    isplitl [HS2]; · iexists _; iexact HS2
    iexact HB
  iexact Hg

end Cert.Kernel.Hand

end
-- ==== Proof.KR1Base.lean ====
import proofs.«112781_j3195455668476_2_alg».proof.Proof.Gen.Kernel.Launch
import proofs.«112781_j3195455668476_2_alg».proof.Proof.Gen.Kernel.Skeleton
import proofs.«112781_j3195455668476_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`: the block's rectangle read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it there or kept it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, whether the pipeline fetched it there or kept it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, whether the pipeline fetched it there or kept it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, whether the pipeline fetched it there or kept it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-- The body's first branch (the accumulators are reset): taken when the reduction coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The body's last branch (the epilogue stores the output block): taken at the last reduction step. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel

/-- One staging buffer of the output window, through which its contents are stated. -/
abbrev VO1_4 : View sig .tc .vmem S1024x1024 .f32 := (Memref.whole cc1_stg4_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)
abbrev scM1_0 : Memref sig .tc .vmem S1024x1024 .f32 := Memref.whole cc1_scratch0
abbrev VS1_0 : View sig .tc .vmem S1024x1024 .f32 := scM1_0.view

/-- The region's invariant with the kernel's scratch operands at given resources `S·`: those, the core's other scoped buffers
    (the other region's staging buffers and scratch, each whole at some contents) and the generator register at some state. -/
def RR1 (c : Dev nD) (S0 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ S0) ∗ (∃ r, prngReg c r))

/-- Before the first point the invariant is the launch's: every scratch operand at some contents. -/
theorem PhiA1_eq (c : Dev nD) :
    (Pipeline.ΦA spec1 c : sProp 𝕄) = RR1 (F := F) c (iprop(∃ d, owns (c : Thread nD τ) scM1_0 fullShare d)) := by
  unfold Pipeline.ΦA RR1; rw [scopedRest1_eq]; simp only [scM1_0, owns_whole]; try rfl

end Cert.Kernel.Hand

end
-- ==== Proof.KR1RunA.lean ====
import proofs.«112781_j3195455668476_2_alg».proof.Proof.KR1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The kernel body in case A (first reduction step: the accumulators are reset, then added to), on whole staging
    memrefs: the inputs at their contents, the output untouched, each scratch accumulator at anything; it runs to the
    continuation with the inputs as they were and each buffer it stored into holding its pieces (found by the symbolic run). -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024 .f32) (x3 : Vec F S1024x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__output_kernel i arg3 harg3 arg4 harg4 arg5 harg5 arg6 harg6 arg7 harg7 arg8 harg8) K } := by
  refine ⟨[], ?_, fun xi4 E K => ?run⟩
  case run =>
    simp only [cc1__output_kernel_eq_skeleton]; unfold cc1__output_kernel_skel
    unfold owns
    iintro ⟨⟨%f0, %hf0, H0⟩, ⟨%f1, %hf1, H1⟩, ⟨%f2, %hf2, H2⟩, ⟨%f3, %hf3, H3⟩, ⟨%fo, %hfo, HO⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hfo
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    iexists _; iexact HS0

end Cert.Kernel.Hand

end
-- ==== Proof.KR1RunB.lean ====
import proofs.«112781_j3195455668476_2_alg».proof.Proof.KR1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The kernel body in case B (a middle reduction step: the accumulators are added to), on whole staging
    memrefs: the inputs at their contents, the output untouched, each scratch accumulator at what the step before left; it runs to the
    continuation with the inputs as they were and each buffer it stored into holding its pieces (found by the symbolic run). -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024 .f32) (x3 : Vec F S1024x1024 .f32) (xs0 : Vec F S1024x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__output_kernel i arg3 harg3 arg4 harg4 arg5 harg5 arg6 harg6 arg7 harg7 arg8 harg8) K } := by
  refine ⟨[], ?_, fun xi4 E K => ?run⟩
  case run =>
    simp only [cc1__output_kernel_eq_skeleton]; unfold cc1__output_kernel_skel
    unfold owns
    iintro ⟨⟨%f0, %hf0, H0⟩, ⟨%f1, %hf1, H1⟩, ⟨%f2, %hf2, H2⟩, ⟨%f3, %hf3, H3⟩, ⟨%fo, %hfo, HO⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfo; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    iexists _; iexact HS0

end Cert.Kernel.Hand

end
-- ==== Proof.KR1RunC.lean ====
import proofs.«112781_j3195455668476_2_alg».proof.Proof.KR1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The kernel body in case C (the last reduction step: the accumulators are added to and the epilogue stores the output block), on whole staging
    memrefs: the inputs at their contents, the output at anything, each scratch accumulator at what the step before left; it runs to the
    continuation with the inputs as they were and each buffer it stored into holding its pieces (found by the symbolic run). -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024 .f32) (x3 : Vec F S1024x1024 .f32) (xs0 : Vec F S1024x1024 .f32) :
    Σ' (L4 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1__output_kernel i arg3 harg3 arg4 harg4 arg5 harg5 arg6 harg6 arg7 harg7 arg8 harg8) K } := by
  refine ⟨?_, ?_, fun E K => ?run⟩
  case run =>
    simp only [cc1__output_kernel_eq_skeleton]; unfold cc1__output_kernel_skel
    unfold owns
    iintro ⟨⟨%f0, %hf0, H0⟩, ⟨%f1, %hf1, H1⟩, ⟨%f2, %hf2, H2⟩, ⟨%f3, %hf3, H3⟩, ⟨%dq, %fo, -, HO⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; iexact HO
    iexists _; iexact HS0

end Cert.Kernel.Hand

end
-- ==== Proof.KR1.lean ====
import proofs.«112781_j3195455668476_2_alg».proof.Proof.KR1RunA
import proofs.«112781_j3195455668476_2_alg».proof.Proof.KR1RunB
import proofs.«112781_j3195455668476_2_alg».proof.Proof.KR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer: its pieces read back over junk (no piece: a placeholder nothing consults, the window being idle and not written back at these points). -/
def out1_A_4 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024 .f32) (x3 : Vec F S1024x1024 .f32) : Vec F S1024x1024 .f32 :=
  VO1_4.read (Elt F) (VO1_4.writes (Elt F) VO1_4.junk (kernelRun1_A c i arg3 harg3 arg4 harg4 arg5 harg5 arg6 harg6 arg7 harg7 arg8 harg8 hc0 hc1 x0 x1 x2 x3).1)

/-- Case A's pieces for scratch accumulator 0 tile it, so they cover it. -/
theorem scover1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024 .f32) (x3 : Vec F S1024x1024 .f32) (y : S1024x1024.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S1024x1024.size (by sl_kernel_rfl) y

/-- What case A leaves in scratch accumulator 0: its pieces read back over junk. -/
def sout1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024 .f32) (x3 : Vec F S1024x1024 .f32) : Vec F S1024x1024 .f32 :=
  VS1_0.read (Elt F) (VS1_0.writes (Elt F) VS1_0.junk (kernelRun1_A c i arg3 harg3 arg4 harg4 arg5 harg5 arg6 harg6 arg7 harg7 arg8 harg8 hc0 hc1 x0 x1 x2 x3).2.1)

/-- What case B leaves in the output's staging buffer: its pieces read back over junk (no piece: a placeholder nothing consults, the window being idle and not written back at these points). -/
def out1_B_4 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024 .f32) (x3 : Vec F S1024x1024 .f32) (xs0 : Vec F S1024x1024 .f32) : Vec F S1024x1024 .f32 :=
  VO1_4.read (Elt F) (VO1_4.writes (Elt F) VO1_4.junk (kernelRun1_B c i arg3 harg3 arg4 harg4 arg5 harg5 arg6 harg6 arg7 harg7 arg8 harg8 hc0 hc1 x0 x1 x2 x3 xs0).1)

/-- Case B's pieces for scratch accumulator 0 tile it, so they cover it. -/
theorem scover1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024 .f32) (x3 : Vec F S1024x1024 .f32) (xs0 : Vec F S1024x1024 .f32) (y : S1024x1024.Idx) :
    ∃ pc ∈ (kernelRun1_B c i arg3 harg3 arg4 harg4 arg5 harg5 arg6 harg6 arg7 harg7 arg8 harg8 hc0 hc1 x0 x1 x2 x3 xs0).2.1, y ∈ pc.1.set :=
  View.cover_of_tiledL (kernelRun1_B c i arg3 harg3 arg4 harg4 arg5 harg5 arg6 harg6 arg7 harg7 arg8 harg8 hc0 hc1 x0 x1 x2 x3 xs0).2.1 S1024x1024.size (by sl_kernel_rfl) y

/-- What case B leaves in scratch accumulator 0: its pieces read back over junk. -/
def sout1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024 .f32) (x3 : Vec F S1024x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 arg8 harg8 hc0 hc1 x0 x1 x2 x3 xs0).2.1)

/-- Case C's pieces for the output tile its block, so they cover it. -/
theorem cover1_C_4 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024 .f32) (x3 : Vec F S1024x1024 .f32) (xs0 : Vec F S1024x1024 .f32) (y : S1024x1024.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1024x1024.size (by sl_kernel_rfl) y

/-- What case C leaves in the output's staging buffer: its pieces read back over junk. -/
def out1_C_4 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024 .f32) (x3 : Vec F S1024x1024 .f32) (xs0 : Vec F S1024x1024 .f32) : Vec F S1024x1024 .f32 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)

/-- Case C's pieces for scratch accumulator 0 tile it, so they cover it. -/
theorem scover1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024 .f32) (x3 : Vec F S1024x1024 .f32) (xs0 : Vec F S1024x1024 .f32) (y : S1024x1024.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S1024x1024.size (by sl_kernel_rfl) y

/-- What case C leaves in scratch accumulator 0: its pieces read back over junk. -/
def sout1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024 .f32) (x3 : Vec F S1024x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 arg8 harg8 hc0 hc1 x0 x1 x2 x3 xs0).2.1)

/-- THE ACCUMULATION: what the output's staging buffer and the scratch accumulators hold after the body at position `n`
    (a tuple: the output, then the accumulators), by recursion on the position: the case the closed forms select, run at the
    point's memrefs and input blocks, the accumulators from what position `n - 1` left. -/
def outsAt1 (c : Dev nD) : (n : ℕ) → n < cfg1.N → Vec F S1024x1024 .f32 × Vec F S1024x1024 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the launch's (every scratch at anything); afterwards
    each scratch accumulator at what the point before left in it, the core's other scoped buffers and the generator register. -/
def PhiS1 (c : Dev nD) : (n : ℕ) → n ≤ cfg1.N → sProp 𝕄
  | 0, _ => Pipeline.ΦA spec1 c
  | n + 1, hn => RR1 c (owns (c : Thread nD τ) scM1_0 fullShare ((outsAt1 V c n hn).2))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = RR1 c (owns (c : Thread nD τ) scM1_0 fullShare ((outsAt1 V c n hn).2)) := rfl
theorem PhiS1_pos (c : Dev nD) (n : ℕ) (h : n ≤ cfg1.N) (hz : n ≠ 0) :
    PhiS1 V c n h = RR1 c (owns (c : Thread nD τ) scM1_0 fullShare ((outsAt1 V c (n - 1) (by omega)).2)) := by
  cases n with
  | zero => exact absurd rfl hz
  | succ n => rfl

/-- The proof data of this region's pipeline on core `c`: the arrays as the region finds them; after the body at point `t`
    each input's buffer at its block and the output's at the accumulation's first component; the invariant `PhiS1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 16000000 in
/-- The body at any point: the inputs' memrefs hold their blocks; the closed forms of the two branch conditions say which
    case the point is in; the invariant hands the body each scratch accumulator at what the point before left (at anything
    before the first point) and takes it back at this point's contents; nothing is owed. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]; unfold RR1
        iintro ⟨⟨⟨HB0, HB1, HB2, HB3, HB4, HB5, HB6, HB7, HB8, HB9, HB10, HB11, HB12, HB13, HB14, HB15, HB16, HB17, HS0⟩, Hg⟩, Ho, ⟨%d0, H0⟩, ⟨%d1, H1⟩, ⟨%d2, H2⟩, ⟨%d3, H3⟩, ⟨%dq, HO⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [HO]; · iexact HO
        isplitl [HS0]; · iexact HS0
        iintro ⟨H0, H1, H2, H3, HO, ⟨%es0, HS0⟩⟩
        isplitl [HB0 HB1 HB2 HB3 HB4 HB5 HB6 HB7 HB8 HB9 HB10 HB11 HB12 HB13 HB14 HB15 HB16 HB17 HS0 Hg]
        · isplitl [HB0 HB1 HB2 HB3 HB4 HB5 HB6 HB7 HB8 HB9 HB10 HB11 HB12 HB13 HB14 HB15 HB16 HB17 HS0]
          · isplitl [HB0]; · iexact HB0
            isplitl [HB1]; · iexact HB1
            isplitl [HB2]; · iexact HB2
            isplitl [HB3]; · iexact HB3
            isplitl [HB4]; · iexact HB4
            isplitl [HB5]; · iexact HB5
            isplitl [HB6]; · iexact HB6
            isplitl [HB7]; · iexact HB7
            isplitl [HB8]; · iexact HB8
            isplitl [HB9]; · iexact HB9
            isplitl [HB10]; · iexact HB10
            isplitl [HB11]; · iexact HB11
            isplitl [HB12]; · iexact HB12
            isplitl [HB13]; · iexact HB13
            isplitl [HB14]; · iexact HB14
            isplitl [HB15]; · iexact HB15
            isplitl [HB16]; · iexact HB16
            isplitl [HB17]; · iexact HB17
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact HO
      · rw [PhiS1_castSucc V c t, PhiS1_pos V c _ _ hz]; unfold RR1
        iintro ⟨⟨⟨HB0, HB1, HB2, HB3, HB4, HB5, HB6, HB7, HB8, HB9, HB10, HB11, HB12, HB13, HB14, HB15, HB16, HB17, HS0⟩, Hg⟩, Ho, ⟨%d0, H0⟩, ⟨%d1, H1⟩, ⟨%d2, H2⟩, ⟨%d3, H3⟩, ⟨%dq, HO⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [HO]; · iexact HO
        isplitl [HS0]; · iexists _; iexact HS0
        iintro ⟨H0, H1, H2, H3, HO, ⟨%es0, HS0⟩⟩
        isplitl [HB0 HB1 HB2 HB3 HB4 HB5 HB6 HB7 HB8 HB9 HB10 HB11 HB12 HB13 HB14 HB15 HB16 HB17 HS0 Hg]
        · isplitl [HB0 HB1 HB2 HB3 HB4 HB5 HB6 HB7 HB8 HB9 HB10 HB11 HB12 HB13 HB14 HB15 HB16 HB17 HS0]
          · isplitl [HB0]; · iexact HB0
            isplitl [HB1]; · iexact HB1
            isplitl [HB2]; · iexact HB2
            isplitl [HB3]; · iexact HB3
            isplitl [HB4]; · iexact HB4
            isplitl [HB5]; · iexact HB5
            isplitl [HB6]; · iexact HB6
            isplitl [HB7]; · iexact HB7
            isplitl [HB8]; · iexact HB8
            isplitl [HB9]; · iexact HB9
            isplitl [HB10]; · iexact HB10
            isplitl [HB11]; · iexact HB11
            isplitl [HB12]; · iexact HB12
            isplitl [HB13]; · iexact HB13
            isplitl [HB14]; · iexact HB14
            isplitl [HB15]; · iexact HB15
            isplitl [HB16]; · iexact HB16
            isplitl [HB17]; · iexact HB17
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact HO

  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      by_cases hz : t.val = 0
      · exfalso; omega
      · rw [PhiS1_castSucc V c t, PhiS1_pos V c _ _ hz]; unfold RR1
        iintro ⟨⟨⟨HB0, HB1, HB2, HB3, HB4, HB5, HB6, HB7, HB8, HB9, HB10, HB11, HB12, HB13, HB14, HB15, HB16, HB17, HS0⟩, Hg⟩, Ho, ⟨%d0, H0⟩, ⟨%d1, H1⟩, ⟨%d2, H2⟩, ⟨%d3, H3⟩, ⟨%dq, HO⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
        isplitl [H0]; · iexact H0
        isplitl [H1]; · iexact H1
        isplitl [H2]; · iexact H2
        isplitl [H3]; · iexact H3
        isplitl [HO]; · iexists _; iexact HO
        isplitl [HS0]; · iexact HS0
        iintro ⟨H0, H1, H2, H3, ⟨%eo, HO⟩, ⟨%es0, HS0⟩⟩
        isplitl [HB0 HB1 HB2 HB3 HB4 HB5 HB6 HB7 HB8 HB9 HB10 HB11 HB12 HB13 HB14 HB15 HB16 HB17 HS0 Hg]
        · isplitl [HB0 HB1 HB2 HB3 HB4 HB5 HB6 HB7 HB8 HB9 HB10 HB11 HB12 HB13 HB14 HB15 HB16 HB17 HS0]
          · isplitl [HB0]; · iexact HB0
            isplitl [HB1]; · iexact HB1
            isplitl [HB2]; · iexact HB2
            isplitl [HB3]; · iexact HB3
            isplitl [HB4]; · iexact HB4
            isplitl [HB5]; · iexact HB5
            isplitl [HB6]; · iexact HB6
            isplitl [HB7]; · iexact HB7
            isplitl [HB8]; · iexact HB8
            isplitl [HB9]; · iexact HB9
            isplitl [HB10]; · iexact HB10
            isplitl [HB11]; · iexact HB11
            isplitl [HB12]; · iexact HB12
            isplitl [HB13]; · iexact HB13
            isplitl [HB14]; · iexact HB14
            isplitl [HB15]; · iexact HB15
            isplitl [HB16]; · iexact HB16
            isplitl [HB17]; · iexact HB17
            unfold owns; iexists _; isplitr
            swap; · iexact HS0
            ipureintro; exact View.read_writes_of_cover _ _ _ _ _ (scover1_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact HO
        ipureintro; exact View.read_writes_of_cover _ _ _ _ _ (cover1_C_4 c _ _ _ _ _ _ _ _ _ _ _ _ _ _ _ _ _ _ _ _)

    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]; unfold RR1
        iintro ⟨⟨⟨HB0, HB1, HB2, HB3, HB4, HB5, HB6, HB7, HB8, HB9, HB10, HB11, HB12, HB13, HB14, HB15, HB16, HB17, HS0⟩, Hg⟩, Ho, ⟨%d0, H0⟩, ⟨%d1, H1⟩, ⟨%d2, H2⟩, ⟨%d3, H3⟩, ⟨%dq, HO⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
        isplitl [H0]; · iexact H0
        isplitl [H1]; · iexact H1
        isplitl [H2]; · iexact H2
        isplitl [H3]; · iexact H3
        isplitl [HO]; · iexact HO
        isplitl [HS0]; · iexact HS0
        iintro ⟨H0, H1, H2, H3, HO, ⟨%es0, HS0⟩⟩
        isplitl [HB0 HB1 HB2 HB3 HB4 HB5 HB6 HB7 HB8 HB9 HB10 HB11 HB12 HB13 HB14 HB15 HB16 HB17 HS0 Hg]
        · isplitl [HB0 HB1 HB2 HB3 HB4 HB5 HB6 HB7 HB8 HB9 HB10 HB11 HB12 HB13 HB14 HB15 HB16 HB17 HS0]
          · isplitl [HB0]; · iexact HB0
            isplitl [HB1]; · iexact HB1
            isplitl [HB2]; · iexact HB2
            isplitl [HB3]; · iexact HB3
            isplitl [HB4]; · iexact HB4
            isplitl [HB5]; · iexact HB5
            isplitl [HB6]; · iexact HB6
            isplitl [HB7]; · iexact HB7
            isplitl [HB8]; · iexact HB8
            isplitl [HB9]; · iexact HB9
            isplitl [HB10]; · iexact HB10
            isplitl [HB11]; · iexact HB11
            isplitl [HB12]; · iexact HB12
            isplitl [HB13]; · iexact HB13
            isplitl [HB14]; · iexact HB14
            isplitl [HB15]; · iexact HB15
            isplitl [HB16]; · iexact HB16
            isplitl [HB17]; · iexact HB17
            unfold owns; iexists _; isplitr
            swap; · iexact HS0
            ipureintro; exact View.read_writes_of_cover _ _ _ _ _ (scover1_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact HO

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's back: the accumulators' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  unfold RR1
  iintro ⟨⟨HB0, HB1, HB2, HB3, HB4, HB5, HB6, HB7, HB8, HB9, HB10, HB11, HB12, HB13, HB14, HB15, HB16, HB17, HS0⟩, Hg⟩
  isplitl [HB0 HB1 HB2 HB3 HB4 HB5 HB6 HB7 HB8 HB9 HB10 HB11 HB12 HB13 HB14 HB15 HB16 HB17 HS0]
  · isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    isplitl [HB7]; · iexact HB7
    isplitl [HB8]; · iexact HB8
    isplitl [HB9]; · iexact HB9
    isplitl [HB10]; · iexact HB10
    isplitl [HB11]; · iexact HB11
    isplitl [HB12]; · iexact HB12
    isplitl [HB13]; · iexact HB13
    isplitl [HB14]; · iexact HB14
    isplitl [HB15]; · iexact HB15
    isplitl [HB16]; · iexact HB16
    isplitl [HB17]; · iexact HB17
    iexists _; iexact HS0
  iexact Hg

end Cert.Kernel.Hand

end
-- ==== Proof.KRun.lean ====
import proofs.«112781_j3195455668476_2_alg».proof.Proof.KR0
import proofs.«112781_j3195455668476_2_alg».proof.Proof.KR1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The buffer contents at each boundary of @main: at launch; after the host conversions; after region 0; after region 1. -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- No host conversion writes an argument: each writes its own result buffer. -/
theorem W1_of_arg (c : Dev nD) (b : Ref sig .tc) (hb : b ∉ ([main_v0, main_v1, main_v2, main_v3] : List (Ref sig .tc))) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    simp only [List.mem_cons, List.not_mem_nil, or_false, not_or] at hb
    exact ⟨StableHlo.devRef_ne_of_ne hb.1, StableHlo.devRef_ne_of_ne hb.2.1, StableHlo.devRef_ne_of_ne hb.2.2.1, StableHlo.devRef_ne_of_ne hb.2.2.2⟩))
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 3).trans (((dat1 (V2 m ρ) c).arrAt_in 3 rfl _).trans (A_eq1 (V2 m ρ) c 3))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_arg m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_arg m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 4).trans (((dat0 (V1 m ρ) c).arrAt_in 4 rfl _).trans (A_eq0 (V1 m ρ) c 4))
    _ = W0 m ρ c (Proc.devRef .tc main_arg2) := W1_of_arg m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_arg m ρ c main_arg3 (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 5).trans (((dat0 (V1 m ρ) c).arrAt_in 5 rfl _).trans (A_eq0 (V1 m ρ) c 5))
    _ = W0 m ρ c (Proc.devRef .tc main_arg4) := W1_of_arg m ρ c main_arg4 (by decide)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of_arg m ρ c main_arg5 (by decide)
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := (W2_arr m ρ c 6).trans (((dat0 (V1 m ρ) c).arrAt_in 6 rfl _).trans (A_eq0 (V1 m ρ) c 6))
    _ = W0 m ρ c (Proc.devRef .tc main_arg6) := W1_of_arg m ρ c main_arg6 (by decide)
    _ = m ((c : Thread nD τ).loc main_arg6) := rfl
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := (W2_arr m ρ c 7).trans (((dat0 (V1 m ρ) c).arrAt_in 7 rfl _).trans (A_eq0 (V1 m ρ) c 7))
    _ = W0 m ρ c (Proc.devRef .tc main_arg7) := W1_of_arg m ρ c main_arg7 (by decide)
    _ = m ((c : Thread nD τ).loc main_arg7) := rfl
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := (W2_arr m ρ c 8).trans (((dat0 (V1 m ρ) c).arrAt_in 8 rfl _).trans (A_eq0 (V1 m ρ) c 8))
    _ = W0 m ρ c (Proc.devRef .tc main_arg8) := W1_of_arg m ρ c main_arg8 (by decide)
    _ = m ((c : Thread nD τ).loc main_arg8) := rfl
theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := W1_of_arg m ρ c main_arg9 (by decide)
    _ = m ((c : Thread nD τ).loc main_arg9) := rfl
theorem W3_main_arg10 (c : Dev nD) : W3 m ρ c (Proc.devRef .tc main_arg10) = m ((c : Thread nD τ).loc main_arg10) :=
  calc W3 m ρ c (Proc.devRef .tc main_arg10)
    _ = W2 m ρ c (Proc.devRef .tc main_arg10) := (W3_arr m ρ c 2).trans (((dat1 (V2 m ρ) c).arrAt_in 2 rfl _).trans (A_eq1 (V2 m ρ) c 2))
    _ = W1 m ρ c (Proc.devRef .tc main_arg10) := W2_of_ne m ρ c main_arg10 (by decide)
    _ = W0 m ρ c (Proc.devRef .tc main_arg10) := W1_of_arg m ρ c main_arg10 (by decide)
    _ = m ((c : Thread nD τ).loc main_arg10) := rfl

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
/-- Region 0 over the thread state "every unscoped buffer at the boundary's contents, the generator register at some state,
    nothing owed": its arrays are split out of the unscoped buffers at entry and put back at the exit contents; the generator
    register goes into the invariant and comes back; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    iintro ⟨Hp, -, Hr⟩
    iapply (hin0 (V1 m ρ) c)
    unfold Pipeline.ΦA
    isplitl [Hr]; · iexact Hr
    iexact Hp
  hout c := by
    rw [Pipeline.ownSems0_none, show (pdats m ρ 0 c).Φ (Fin.last _) = (dat0 (V1 m ρ) c).Φ (Fin.last cfg0.N) from rfl]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some state,
    nothing owed": its arrays are split out of the unscoped buffers at entry and put back at the exit contents; the generator
    register goes into the invariant and comes back; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    iintro ⟨Hp, -, Hr⟩
    iapply (hin1 (V2 m ρ) c)
    unfold Pipeline.ΦA
    isplitl [Hr]; · iexact Hr
    iexact Hp
  hout c := by
    rw [Pipeline.ownSems0_none, show (pdats m ρ 1 c).Φ (Fin.last _) = (dat1 (V2 m ρ) c).Φ (Fin.last cfg1.N) from rfl]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    final state holds each unscoped buffer at the last boundary's contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the argument arrays end as launched (no host conversion writes one; each region only reads them). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c),
     (h c _ (mem_uc main_arg9 (by decide))).trans (W3_main_arg9 m ρ c),
     (h c _ (mem_uc main_arg10 (by decide))).trans (W3_main_arg10 m ρ c)⟩) (run_main m ρ)

end Cert.Kernel.Hand

end
-- ==== Proof.KIR0Base.lean ====
import proofs.«112781_j3195455668476_2_alg».proof.Proof.Gen.KernelIdeal.Launch
import proofs.«112781_j3195455668476_2_alg».proof.Proof.Gen.KernelIdeal.Skeleton
import proofs.«112781_j3195455668476_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`: the block's rectangle read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or kept it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, whether the pipeline fetched it there or kept it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, whether the pipeline fetched it there or kept it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, whether the pipeline fetched it there or kept it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, whether the pipeline fetched it there or kept it. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, whether the pipeline fetched it there or kept it. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, whether the pipeline fetched it there or kept it. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, whether the pipeline fetched it there or kept it. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, whether the pipeline fetched it there or kept it. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

end

/-- The body's first branch (the accumulators are reset): taken when the reduction coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The body's last branch (the epilogue stores the output block): taken at the last reduction step. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem idleAt0_9_A : ∀ t : Fin cfg0.N, cond0_0 (grid0.coords t) → ¬cond0_1 (grid0.coords t) → cfg0.idle 9 (grid0.coords t) = true := by decide +kernel
theorem noFlush0_9_A : ∀ t : Fin cfg0.N, cond0_0 (grid0.coords t) → ¬cond0_1 (grid0.coords t) → (cfg0.win 9).flush t = false := by decide +kernel
theorem idleAt0_9_B : ∀ t : Fin cfg0.N, ¬cond0_0 (grid0.coords t) → ¬cond0_1 (grid0.coords t) → cfg0.idle 9 (grid0.coords t) = true := by decide +kernel
theorem noFlush0_9_B : ∀ t : Fin cfg0.N, ¬cond0_0 (grid0.coords t) → ¬cond0_1 (grid0.coords t) → (cfg0.win 9).flush t = false := by decide +kernel
theorem liveAt0_9_C : ∀ t : Fin cfg0.N, ¬cond0_0 (grid0.coords t) → cond0_1 (grid0.coords t) → cfg0.idle 9 (grid0.coords t) = false := by decide +kernel

/-- One staging buffer of the output window, through which its contents are stated. -/
abbrev VO0_9 : View sig .tc .vmem S512x4096 .bf16 := (Memref.whole cc0_stg9_0 : Memref sig .tc .vmem S512x4096 .bf16).view
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4096 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x4096 .bf16 := win0_9.stage (cfg0.slots t 9)
abbrev hs0_9 (t : Fin cfg0.N) : (ms0_9 t).IsWhole := hstage0_9 ((cfg0.slots t 9).cast nbuf0_9)
abbrev scM0_0 : Memref sig .tc .vmem S512x4096 .f32 := Memref.whole cc0_scratch0
abbrev VS0_0 : View sig .tc .vmem S512x4096 .f32 := scM0_0.view
abbrev scM0_1 : Memref sig .tc .vmem S512x64 .f32 := Memref.whole cc0_scratch1
abbrev VS0_1 : View sig .tc .vmem S512x64 .f32 := scM0_1.view
abbrev scM0_2 : Memref sig .tc .vmem S512x64 .f32 := Memref.whole cc0_scratch2
abbrev VS0_2 : View sig .tc .vmem S512x64 .f32 := scM0_2.view

/-- The region's invariant with the kernel's scratch operands at given resources `S·`: those, the core's other scoped buffers
    (the other region's staging buffers and scratch, each whole at some contents) and the generator register at some state. -/
def RR0 (c : Dev nD) (S0 : sProp 𝕄) (S1 : sProp 𝕄) (S2 : sProp 𝕄) : sProp 𝕄 :=
  iprop(iprop(S0 ∗ S1 ∗ S2 ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f)) ∗ (∃ r, prngReg c r))

/-- Before the first point the invariant is the launch's: every scratch operand at some contents. -/
theorem PhiA0_eq (c : Dev nD) :
    (Pipeline.ΦA spec0 c : sProp 𝕄) = RR0 (F := F) c (iprop(∃ d, owns (c : Thread nD τ) scM0_0 fullShare d)) (iprop(∃ d, owns (c : Thread nD τ) scM0_1 fullShare d)) (iprop(∃ d, owns (c : Thread nD τ) scM0_2 fullShare d)) := by
  unfold Pipeline.ΦA RR0; rw [scopedRest0_eq]; simp only [scM0_0, scM0_1, scM0_2, owns_whole]; try rfl

end Cert.KernelIdeal.Hand

end
-- ==== Proof.KIR0RunA.lean ====
import proofs.«112781_j3195455668476_2_alg».proof.Proof.KIR0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The kernel body in case A (first reduction step: the accumulators are reset, then added to), on whole staging
    memrefs: the inputs at their contents, the output untouched, each scratch accumulator at anything; it runs to the
    continuation with the inputs as they were and each buffer it stored into holding its pieces (found by the symbolic run). -/
noncomputable def kernelRun0_A (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) :
    Σ' (L9 : List (View.Piece (Elt F) S512x4096 .bf16)), Σ' (LS0 : List (View.Piece (Elt F) S512x4096 .f32)), Σ' (LS1 : List (View.Piece (Elt F) S512x64 .f32)), { LS2 : List (View.Piece (Elt F) S512x64 .f32) //
      ∀ (xi9 : Vec F S512x4096 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0__phasor_kernel i arg2 harg2 arg3 harg3 arg4 harg4 arg5 harg5 arg6 harg6 arg7 harg7 arg8 harg8 arg9 harg9 arg10 harg10 arg11 harg11 arg12 harg12 arg13 harg13 arg14 harg14) K } := by
  refine ⟨[], ?_, ?_, ?_, fun xi9 E K => ?run⟩
  case run =>
    simp only [cc0__phasor_kernel_eq_skeleton, k0_part1_eq_skeleton, k0_part2_eq_skeleton, k0_part3_eq_skeleton, k0_part4_eq_skeleton, k0_part5_eq_skeleton, k0_part6_eq_skeleton]; unfold cc0__phasor_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fo, %hfo, HO⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HO]
    · iexists _; isplitr; · ipureintro; exact harg11.read_unread _
      iexact HO
    isplitl [HS0]; · iexists _; iexact HS0
    isplitl [HS1]; · iexists _; iexact HS1
    iexists _; iexact HS2

end Cert.KernelIdeal.Hand

end
-- ==== Proof.KIR0RunB.lean ====
import proofs.«112781_j3195455668476_2_alg».proof.Proof.KIR0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The kernel body in case B (a middle reduction step: the accumulators are added to), on whole staging
    memrefs: the inputs at their contents, the output untouched, each scratch accumulator at what the step before left; it runs to the
    continuation with the inputs as they were and each buffer it stored into holding its pieces (found by the symbolic run). -/
noncomputable def kernelRun0_B (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) :
    Σ' (L9 : List (View.Piece (Elt F) S512x4096 .bf16)), Σ' (LS0 : List (View.Piece (Elt F) S512x4096 .f32)), Σ' (LS1 : List (View.Piece (Elt F) S512x64 .f32)), { LS2 : List (View.Piece (Elt F) S512x64 .f32) //
      ∀ (xi9 : Vec F S512x4096 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0__phasor_kernel i arg2 harg2 arg3 harg3 arg4 harg4 arg5 harg5 arg6 harg6 arg7 harg7 arg8 harg8 arg9 harg9 arg10 harg10 arg11 harg11 arg12 harg12 arg13 harg13 arg14 harg14) K } := by
  refine ⟨[], ?_, ?_, ?_, fun xi9 E K => ?run⟩
  case run =>
    simp only [cc0__phasor_kernel_eq_skeleton, k0_part1_eq_skeleton, k0_part2_eq_skeleton, k0_part3_eq_skeleton, k0_part4_eq_skeleton, k0_part5_eq_skeleton, k0_part6_eq_skeleton]; unfold cc0__phasor_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fo, %hfo, HO⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfo; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HO]
    · iexists _; isplitr; · ipureintro; exact harg11.read_unread _
      iexact HO
    isplitl [HS0]; · iexists _; iexact HS0
    isplitl [HS1]; · iexists _; iexact HS1
    iexists _; iexact HS2

end Cert.KernelIdeal.Hand

end
-- ==== Proof.KIR0RunC.lean ====
import proofs.«112781_j3195455668476_2_alg».proof.Proof.KIR0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The kernel body in case C (the last reduction step: the accumulators are added to and the epilogue stores the output block), on whole staging
    memrefs: the inputs at their contents, the output at anything, each scratch accumulator at what the step before left; it runs to the
    continuation with the inputs as they were and each buffer it stored into holding its pieces (found by the symbolic run). -/
noncomputable def kernelRun0_C (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) :
    Σ' (L9 : List (View.Piece (Elt F) S512x4096 .bf16)), Σ' (LS0 : List (View.Piece (Elt F) S512x4096 .f32)), Σ' (LS1 : List (View.Piece (Elt F) S512x64 .f32)), { LS2 : List (View.Piece (Elt F) S512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0__phasor_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0__phasor_kernel_eq_skeleton, k0_part1_eq_skeleton, k0_part2_eq_skeleton, k0_part3_eq_skeleton, k0_part4_eq_skeleton, k0_part5_eq_skeleton, k0_part6_eq_skeleton]; unfold cc0__phasor_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%dq, %fo, -, HO⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HO]
    · iexists _; iexact HO
    isplitl [HS0]; · iexists _; iexact HS0
    isplitl [HS1]; · iexists _; iexact HS1
    iexists _; iexact HS2

end Cert.KernelIdeal.Hand

end
-- ==== Proof.KIR0.lean ====
import proofs.«112781_j3195455668476_2_alg».proof.Proof.KIR0RunA
import proofs.«112781_j3195455668476_2_alg».proof.Proof.KIR0RunB
import proofs.«112781_j3195455668476_2_alg».proof.Proof.KIR0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer: its pieces read back over junk (no piece: a placeholder nothing consults, the window being idle and not written back at these points). -/
def out0_A_9 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) : Vec F S512x4096 .bf16 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1)

/-- Case A's pieces for scratch accumulator 0 tile it, so they cover it. -/
theorem scover0_A_0 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (y : S512x4096.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1 S512x4096.size (by sl_kernel_rfl) y

/-- What case A leaves in scratch accumulator 0: its pieces read back over junk. -/
def sout0_A_0 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) : Vec F S512x4096 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1)

/-- Case A's pieces for scratch accumulator 1 tile it, so they cover it. -/
theorem scover0_A_1 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (y : S512x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1 S512x64.size (by sl_kernel_rfl) y

/-- What case A leaves in scratch accumulator 1: its pieces read back over junk. -/
def sout0_A_1 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) : Vec F S512x64 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1)

/-- Case A's pieces for scratch accumulator 2 tile it, so they cover it. -/
theorem scover0_A_2 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (y : S512x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1 S512x64.size (by sl_kernel_rfl) y

/-- What case A leaves in scratch accumulator 2: its pieces read back over junk. -/
def sout0_A_2 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) : Vec F S512x64 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1)

/-- What case B leaves in the output's staging buffer: its pieces read back over junk (no piece: a placeholder nothing consults, the window being idle and not written back at these points). -/
def out0_B_9 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) : Vec F S512x4096 .bf16 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1)

/-- Case B's pieces for scratch accumulator 0 tile it, so they cover it. -/
theorem scover0_B_0 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) (y : S512x4096.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.1 S512x4096.size (by sl_kernel_rfl) y

/-- What case B leaves in scratch accumulator 0: its pieces read back over junk. -/
def sout0_B_0 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) : Vec F S512x4096 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.1)

/-- Case B's pieces for scratch accumulator 1 tile it, so they cover it. -/
theorem scover0_B_1 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) (y : S512x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1 S512x64.size (by sl_kernel_rfl) y

/-- What case B leaves in scratch accumulator 1: its pieces read back over junk. -/
def sout0_B_1 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) : Vec F S512x64 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1)

/-- Case B's pieces for scratch accumulator 2 tile it, so they cover it. -/
theorem scover0_B_2 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) (y : S512x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1 S512x64.size (by sl_kernel_rfl) y

/-- What case B leaves in scratch accumulator 2: its pieces read back over junk. -/
def sout0_B_2 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) : Vec F S512x64 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1)

/-- Case C's pieces for the output tile its block, so they cover it. -/
theorem cover0_C_9 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) (y : S512x4096.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1 S512x1024.size (by sl_kernel_rfl) y

/-- What case C leaves in the output's staging buffer: its pieces read back over junk. -/
def out0_C_9 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) : Vec F S512x4096 .bf16 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1)

/-- Case C's pieces for scratch accumulator 0 tile it, so they cover it. -/
theorem scover0_C_0 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) (y : S512x4096.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.1 S512x4096.size (by sl_kernel_rfl) y

/-- What case C leaves in scratch accumulator 0: its pieces read back over junk. -/
def sout0_C_0 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) : Vec F S512x4096 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.1)

/-- Case C's pieces for scratch accumulator 1 tile it, so they cover it. -/
theorem scover0_C_1 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) (y : S512x64.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1 S512x64.size (by sl_kernel_rfl) y

/-- What case C leaves in scratch accumulator 1: its pieces read back over junk. -/
def sout0_C_1 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) : Vec F S512x64 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1)

/-- Case C's pieces for scratch accumulator 2 tile it, so they cover it. -/
theorem scover0_C_2 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) (y : S512x64.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1 S512x64.size (by sl_kernel_rfl) y

/-- What case C leaves in scratch accumulator 2: its pieces read back over junk. -/
def sout0_C_2 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) : Vec F S512x64 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1)

/-- THE ACCUMULATION: what the output's staging buffer and the scratch accumulators hold after the body at position `n`
    (a tuple: the output, then the accumulators), by recursion on the position: the case the closed forms select, run at the
    point's memrefs and input blocks, the accumulators from what position `n - 1` left. -/
def outsAt0 (c : Dev nD) : (n : ℕ) → n < cfg0.N → Vec F S512x4096 .bf16 × Vec F S512x4096 .f32 × Vec F S512x64 .f32 × Vec F S512x64 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩))
  | n + 1, hn =>
    if h0 : (n + 1) % 8 = 0 then
      if h1 : (n + 1) % 8 = 7 then
        False.elim (by omega)
      else
        (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩))
    else
      if h1 : (n + 1) % 8 = 7 then
        (out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2.1 (outsAt0 c n (Nat.lt_of_succ_lt hn)).2.2.1 (outsAt0 c n (Nat.lt_of_succ_lt hn)).2.2.2)

theorem outsAt0_A (c : Dev nD) (t : Fin cfg0.N) (h0 : t.val % 8 = 0) (h1 : ¬t.val % 8 = 7) :
    outsAt0 V c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the launch's (every scratch at anything); afterwards
    each scratch accumulator at what the point before left in it, the core's other scoped buffers and the generator register. -/
def PhiS0 (c : Dev nD) : (n : ℕ) → n ≤ cfg0.N → sProp 𝕄
  | 0, _ => Pipeline.ΦA spec0 c
  | n + 1, hn => RR0 c (owns (c : Thread nD τ) scM0_0 fullShare ((outsAt0 V c n hn).2.1)) (owns (c : Thread nD τ) scM0_1 fullShare ((outsAt0 V c n hn).2.2.1)) (owns (c : Thread nD τ) scM0_2 fullShare ((outsAt0 V c n hn).2.2.2))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = RR0 c (owns (c : Thread nD τ) scM0_0 fullShare ((outsAt0 V c n hn).2.1)) (owns (c : Thread nD τ) scM0_1 fullShare ((outsAt0 V c n hn).2.2.1)) (owns (c : Thread nD τ) scM0_2 fullShare ((outsAt0 V c n hn).2.2.2)) := rfl
theorem PhiS0_pos (c : Dev nD) (n : ℕ) (h : n ≤ cfg0.N) (hz : n ≠ 0) :
    PhiS0 V c n h = RR0 c (owns (c : Thread nD τ) scM0_0 fullShare ((outsAt0 V c (n - 1) (by omega)).2.1)) (owns (c : Thread nD τ) scM0_1 fullShare ((outsAt0 V c (n - 1) (by omega)).2.2.1)) (owns (c : Thread nD τ) scM0_2 fullShare ((outsAt0 V c (n - 1) (by omega)).2.2.2)) := by
  cases n with
  | zero => exact absurd rfl hz
  | succ n => rfl

/-- The proof data of this region's pipeline on core `c`: the arrays as the region finds them; after the body at point `t`
    each input's buffer at its block and the output's at the accumulation's first component; the invariant `PhiS0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 16000000 in
/-- The body at any point: the inputs' memrefs hold their blocks; the closed forms of the two branch conditions say which
    case the point is in; the invariant hands the body each scratch accumulator at what the point before left (at anything
    before the first point) and takes it back at this point's contents; nothing is owed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  by_cases h0 : t.val % 8 = 0
  · by_cases h1 : t.val % 8 = 7
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [Dat.leavesExact_idle (dat0 V c) 9 t (idleAt0_9_A t ((hcond0_0 t).mpr h0) (fun h => h1 ((hcond0_1 t).mp h))) (noFlush0_9_A t ((hcond0_0 t).mpr h0) (fun h => h1 ((hcond0_1 t).mp h)))]
      rw [outsAt0_A V c t h0 h1]
      unfold sout0_A_0 sout0_A_1 sout0_A_2; (try dsimp only)
      by_cases hz : t.val = 0
      · rw [PhiS0_castSucc V c t, PhiS0_zero V c _ _ hz, PhiA0_eq]; unfold RR0
        iintro ⟨⟨⟨HS0, HS1, HS2, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%dq, HO⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HO]; · iexact HO
        isplitl [HS0]; · iexact HS0
        isplitl [HS1]; · iexact HS1
        isplitl [HS2]; · iexact HS2
        iintro ⟨H0, H1, H2, H3, H4, H5, H6, H7, H8, HO, ⟨%es0, HS0⟩, ⟨%es1, HS1⟩, ⟨%es2, HS2⟩⟩
        isplitl [HS0 HS1 HS2 HB Hg]
        · isplitl [HS0 HS1 HS2 HB]
          · isplitl [HS0]
            ·
              unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _)
            isplitl [HS1]
            ·
              unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _)
            isplitl [HS2]
            ·
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact HO
      · rw [PhiS0_castSucc V c t, PhiS0_pos V c _ _ hz]; unfold RR0
        iintro ⟨⟨⟨HS0, HS1, HS2, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%dq, HO⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HO]; · iexact HO
        isplitl [HS0]; · iexists _; iexact HS0
        isplitl [HS1]; · iexists _; iexact HS1
        isplitl [HS2]; · iexists _; iexact HS2
        iintro ⟨H0, H1, H2, H3, H4, H5, H6, H7, H8, HO, ⟨%es0, HS0⟩, ⟨%es1, HS1⟩, ⟨%es2, HS2⟩⟩
        isplitl [HS0 HS1 HS2 HB Hg]
        · isplitl [HS0 HS1 HS2 HB]
          · isplitl [HS0]
            ·
              unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _)
            isplitl [HS1]
            ·
              unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _)
            isplitl [HS2]
            ·
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact HO

  · by_cases h1 : t.val % 8 = 7
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [show (dat0 V c).leavesExact 9 t = owns (c : Thread nD τ) (ms0_9 t) fullShare ((dat0 V c).after 9 t) from by
        unfold Dat.leavesExact; rw [liveAt0_9_C t (fun h => h0 ((hcond0_0 t).mp h)) ((hcond0_1 t).mpr h1)], after0_9]
      rw [outsAt0_C V c t h0 h1]
      unfold out0_C_9 sout0_C_0 sout0_C_1 sout0_C_2; (try dsimp only)
      by_cases hz : t.val = 0
      · exfalso; omega
      · rw [PhiS0_castSucc V c t, PhiS0_pos V c _ _ hz]; unfold RR0
        iintro ⟨⟨⟨HS0, HS1, HS2, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%dq, HO⟩⟩
        iapply ((kernelRun0_C c (grid0.coords t) _ _ _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HO]; · iexists _; iexact HO
        isplitl [HS0]; · iexact HS0
        isplitl [HS1]; · iexact HS1
        isplitl [HS2]; · iexact HS2
        iintro ⟨H0, H1, H2, H3, H4, H5, H6, H7, H8, ⟨%eo, HO⟩, ⟨%es0, HS0⟩, ⟨%es1, HS1⟩, ⟨%es2, HS2⟩⟩
        isplitl [HS0 HS1 HS2 HB Hg]
        · isplitl [HS0 HS1 HS2 HB]
          · isplitl [HS0]
            ·
              unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _)
            isplitl [HS1]
            ·
              unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _ _ _ _)
            isplitl [HS2]
            ·
              unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        unfold owns; iexists _; isplitr
        swap; · iexact HO
        ipureintro; exact View.read_writes_of_cover _ _ _ _ _ (cover0_C_9 c _ _ _ _ _ _ _ _ _ _ _ _ _ _ _ _ _ _ _ _ _ _ _ _ _ _ _ _ _ _ _ _ _ _ _ _ _ _ _ _ _)

    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8 t], after0_8]
      rw [Dat.leavesExact_idle (dat0 V c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      rw [outsAt0_B V c t h0 h1]
      unfold sout0_B_0 sout0_B_1 sout0_B_2; (try dsimp only)
      by_cases hz : t.val = 0
      · exfalso; omega
      · rw [PhiS0_castSucc V c t, PhiS0_pos V c _ _ hz]; unfold RR0
        iintro ⟨⟨⟨HS0, HS1, HS2, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%dq, HO⟩⟩
        iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HO]; · iexact HO
        isplitl [HS0]; · iexact HS0
        isplitl [HS1]; · iexact HS1
        isplitl [HS2]; · iexact HS2
        iintro ⟨H0, H1, H2, H3, H4, H5, H6, H7, H8, HO, ⟨%es0, HS0⟩, ⟨%es1, HS1⟩, ⟨%es2, HS2⟩⟩
        isplitl [HS0 HS1 HS2 HB Hg]
        · isplitl [HS0 HS1 HS2 HB]
          · isplitl [HS0]
            ·
              unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _)
            isplitl [HS1]
            ·
              unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _)
            isplitl [HS2]
            ·
              unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact HO

/-- The library's body obligation, at every point. -/
theorem body_obligation0 (c : Dev nD) : BodyObligation (dat0 (F := F) V c) (defs₀ (F := F)) Variants.none () Set.univ := fun t => by
  rw [bigSep_W0, bigSep_W0]
  exact sound_body0 V c t

set_option maxHeartbeats 4000000 in
/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

set_option maxHeartbeats 4000000 in
/-- After the last point the invariant gives the launch's back: the accumulators' named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  unfold RR0
  iintro ⟨⟨HS0, HS1, HS2, HB⟩, Hg⟩
  isplitl [HS0 HS1 HS2 HB]
  · isplitl [HS0]; · iexists _; iexact HS0
    isplitl [HS1]; · iexists _; iexact HS1
    isplitl [HS2]; · iexists _; iexact HS2
    iexact HB
  iexact Hg

end Cert.KernelIdeal.Hand

end
-- ==== Proof.KIR1Base.lean ====
import proofs.«112781_j3195455668476_2_alg».proof.Proof.Gen.KernelIdeal.Launch
import proofs.«112781_j3195455668476_2_alg».proof.Proof.Gen.KernelIdeal.Skeleton
import proofs.«112781_j3195455668476_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`: the block's rectangle read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it there or kept it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, whether the pipeline fetched it there or kept it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, whether the pipeline fetched it there or kept it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, whether the pipeline fetched it there or kept it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-- The body's first branch (the accumulators are reset): taken when the reduction coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The body's last branch (the epilogue stores the output block): taken at the last reduction step. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel

/-- One staging buffer of the output window, through which its contents are stated. -/
abbrev VO1_4 : View sig .tc .vmem S1024x1024 .f32 := (Memref.whole cc1_stg4_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)
abbrev scM1_0 : Memref sig .tc .vmem S1024x1024 .f32 := Memref.whole cc1_scratch0
abbrev VS1_0 : View sig .tc .vmem S1024x1024 .f32 := scM1_0.view

/-- The region's invariant with the kernel's scratch operands at given resources `S·`: those, the core's other scoped buffers
    (the other region's staging buffers and scratch, each whole at some contents) and the generator register at some state. -/
def RR1 (c : Dev nD) (S0 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ S0) ∗ (∃ r, prngReg c r))

/-- Before the first point the invariant is the launch's: every scratch operand at some contents. -/
theorem PhiA1_eq (c : Dev nD) :
    (Pipeline.ΦA spec1 c : sProp 𝕄) = RR1 (F := F) c (iprop(∃ d, owns (c : Thread nD τ) scM1_0 fullShare d)) := by
  unfold Pipeline.ΦA RR1; rw [scopedRest1_eq]; simp only [scM1_0, owns_whole]; try rfl

end Cert.KernelIdeal.Hand

end
-- ==== Proof.KIR1RunA.lean ====
import proofs.«112781_j3195455668476_2_alg».proof.Proof.KIR1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The kernel body in case A (first reduction step: the accumulators are reset, then added to), on whole staging
    memrefs: the inputs at their contents, the output untouched, each scratch accumulator at anything; it runs to the
    continuation with the inputs as they were and each buffer it stored into holding its pieces (found by the symbolic run). -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024 .f32) (x3 : Vec F S1024x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__output_kernel i arg3 harg3 arg4 harg4 arg5 harg5 arg6 harg6 arg7 harg7 arg8 harg8) K } := by
  refine ⟨[], ?_, fun xi4 E K => ?run⟩
  case run =>
    simp only [cc1__output_kernel_eq_skeleton]; unfold cc1__output_kernel_skel
    unfold owns
    iintro ⟨⟨%f0, %hf0, H0⟩, ⟨%f1, %hf1, H1⟩, ⟨%f2, %hf2, H2⟩, ⟨%f3, %hf3, H3⟩, ⟨%fo, %hfo, HO⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hfo
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    iexists _; iexact HS0

end Cert.KernelIdeal.Hand

end
-- ==== Proof.KIR1RunB.lean ====
import proofs.«112781_j3195455668476_2_alg».proof.Proof.KIR1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The kernel body in case B (a middle reduction step: the accumulators are added to), on whole staging
    memrefs: the inputs at their contents, the output untouched, each scratch accumulator at what the step before left; it runs to the
    continuation with the inputs as they were and each buffer it stored into holding its pieces (found by the symbolic run). -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024 .f32) (x3 : Vec F S1024x1024 .f32) (xs0 : Vec F S1024x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc1__output_kernel i arg3 harg3 arg4 harg4 arg5 harg5 arg6 harg6 arg7 harg7 arg8 harg8) K } := by
  refine ⟨[], ?_, fun xi4 E K => ?run⟩
  case run =>
    simp only [cc1__output_kernel_eq_skeleton]; unfold cc1__output_kernel_skel
    unfold owns
    iintro ⟨⟨%f0, %hf0, H0⟩, ⟨%f1, %hf1, H1⟩, ⟨%f2, %hf2, H2⟩, ⟨%f3, %hf3, H3⟩, ⟨%fo, %hfo, HO⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfo; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    iexists _; iexact HS0

end Cert.KernelIdeal.Hand

end
-- ==== Proof.KIR1RunC.lean ====
import proofs.«112781_j3195455668476_2_alg».proof.Proof.KIR1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The kernel body in case C (the last reduction step: the accumulators are added to and the epilogue stores the output block), on whole staging
    memrefs: the inputs at their contents, the output at anything, each scratch accumulator at what the step before left; it runs to the
    continuation with the inputs as they were and each buffer it stored into holding its pieces (found by the symbolic run). -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024 .f32) (x3 : Vec F S1024x1024 .f32) (xs0 : Vec F S1024x1024 .f32) :
    Σ' (L4 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1__output_kernel i arg3 harg3 arg4 harg4 arg5 harg5 arg6 harg6 arg7 harg7 arg8 harg8) K } := by
  refine ⟨?_, ?_, fun E K => ?run⟩
  case run =>
    simp only [cc1__output_kernel_eq_skeleton]; unfold cc1__output_kernel_skel
    unfold owns
    iintro ⟨⟨%f0, %hf0, H0⟩, ⟨%f1, %hf1, H1⟩, ⟨%f2, %hf2, H2⟩, ⟨%f3, %hf3, H3⟩, ⟨%dq, %fo, -, HO⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; iexact HO
    iexists _; iexact HS0

end Cert.KernelIdeal.Hand

end
-- ==== Proof.KIR1.lean ====
import proofs.«112781_j3195455668476_2_alg».proof.Proof.KIR1RunA
import proofs.«112781_j3195455668476_2_alg».proof.Proof.KIR1RunB
import proofs.«112781_j3195455668476_2_alg».proof.Proof.KIR1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer: its pieces read back over junk (no piece: a placeholder nothing consults, the window being idle and not written back at these points). -/
def out1_A_4 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024 .f32) (x3 : Vec F S1024x1024 .f32) : Vec F S1024x1024 .f32 :=
  VO1_4.read (Elt F) (VO1_4.writes (Elt F) VO1_4.junk (kernelRun1_A c i arg3 harg3 arg4 harg4 arg5 harg5 arg6 harg6 arg7 harg7 arg8 harg8 hc0 hc1 x0 x1 x2 x3).1)

/-- Case A's pieces for scratch accumulator 0 tile it, so they cover it. -/
theorem scover1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024 .f32) (x3 : Vec F S1024x1024 .f32) (y : S1024x1024.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S1024x1024.size (by sl_kernel_rfl) y

/-- What case A leaves in scratch accumulator 0: its pieces read back over junk. -/
def sout1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024 .f32) (x3 : Vec F S1024x1024 .f32) : Vec F S1024x1024 .f32 :=
  VS1_0.read (Elt F) (VS1_0.writes (Elt F) VS1_0.junk (kernelRun1_A c i arg3 harg3 arg4 harg4 arg5 harg5 arg6 harg6 arg7 harg7 arg8 harg8 hc0 hc1 x0 x1 x2 x3).2.1)

/-- What case B leaves in the output's staging buffer: its pieces read back over junk (no piece: a placeholder nothing consults, the window being idle and not written back at these points). -/
def out1_B_4 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024 .f32) (x3 : Vec F S1024x1024 .f32) (xs0 : Vec F S1024x1024 .f32) : Vec F S1024x1024 .f32 :=
  VO1_4.read (Elt F) (VO1_4.writes (Elt F) VO1_4.junk (kernelRun1_B c i arg3 harg3 arg4 harg4 arg5 harg5 arg6 harg6 arg7 harg7 arg8 harg8 hc0 hc1 x0 x1 x2 x3 xs0).1)

/-- Case B's pieces for scratch accumulator 0 tile it, so they cover it. -/
theorem scover1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024 .f32) (x3 : Vec F S1024x1024 .f32) (xs0 : Vec F S1024x1024 .f32) (y : S1024x1024.Idx) :
    ∃ pc ∈ (kernelRun1_B c i arg3 harg3 arg4 harg4 arg5 harg5 arg6 harg6 arg7 harg7 arg8 harg8 hc0 hc1 x0 x1 x2 x3 xs0).2.1, y ∈ pc.1.set :=
  View.cover_of_tiledL (kernelRun1_B c i arg3 harg3 arg4 harg4 arg5 harg5 arg6 harg6 arg7 harg7 arg8 harg8 hc0 hc1 x0 x1 x2 x3 xs0).2.1 S1024x1024.size (by sl_kernel_rfl) y

/-- What case B leaves in scratch accumulator 0: its pieces read back over junk. -/
def sout1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024 .f32) (x3 : Vec F S1024x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 arg8 harg8 hc0 hc1 x0 x1 x2 x3 xs0).2.1)

/-- Case C's pieces for the output tile its block, so they cover it. -/
theorem cover1_C_4 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024 .f32) (x3 : Vec F S1024x1024 .f32) (xs0 : Vec F S1024x1024 .f32) (y : S1024x1024.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1024x1024.size (by sl_kernel_rfl) y

/-- What case C leaves in the output's staging buffer: its pieces read back over junk. -/
def out1_C_4 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024 .f32) (x3 : Vec F S1024x1024 .f32) (xs0 : Vec F S1024x1024 .f32) : Vec F S1024x1024 .f32 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)

/-- Case C's pieces for scratch accumulator 0 tile it, so they cover it. -/
theorem scover1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024 .f32) (x3 : Vec F S1024x1024 .f32) (xs0 : Vec F S1024x1024 .f32) (y : S1024x1024.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S1024x1024.size (by sl_kernel_rfl) y

/-- What case C leaves in scratch accumulator 0: its pieces read back over junk. -/
def sout1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024 .f32) (x3 : Vec F S1024x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 arg8 harg8 hc0 hc1 x0 x1 x2 x3 xs0).2.1)

/-- THE ACCUMULATION: what the output's staging buffer and the scratch accumulators hold after the body at position `n`
    (a tuple: the output, then the accumulators), by recursion on the position: the case the closed forms select, run at the
    point's memrefs and input blocks, the accumulators from what position `n - 1` left. -/
def outsAt1 (c : Dev nD) : (n : ℕ) → n < cfg1.N → Vec F S1024x1024 .f32 × Vec F S1024x1024 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h1 : (n + 1) % 4 = 3 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 4 = 3 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the launch's (every scratch at anything); afterwards
    each scratch accumulator at what the point before left in it, the core's other scoped buffers and the generator register. -/
def PhiS1 (c : Dev nD) : (n : ℕ) → n ≤ cfg1.N → sProp 𝕄
  | 0, _ => Pipeline.ΦA spec1 c
  | n + 1, hn => RR1 c (owns (c : Thread nD τ) scM1_0 fullShare ((outsAt1 V c n hn).2))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = RR1 c (owns (c : Thread nD τ) scM1_0 fullShare ((outsAt1 V c n hn).2)) := rfl
theorem PhiS1_pos (c : Dev nD) (n : ℕ) (h : n ≤ cfg1.N) (hz : n ≠ 0) :
    PhiS1 V c n h = RR1 c (owns (c : Thread nD τ) scM1_0 fullShare ((outsAt1 V c (n - 1) (by omega)).2)) := by
  cases n with
  | zero => exact absurd rfl hz
  | succ n => rfl

/-- The proof data of this region's pipeline on core `c`: the arrays as the region finds them; after the body at point `t`
    each input's buffer at its block and the output's at the accumulation's first component; the invariant `PhiS1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 16000000 in
/-- The body at any point: the inputs' memrefs hold their blocks; the closed forms of the two branch conditions say which
    case the point is in; the invariant hands the body each scratch accumulator at what the point before left (at anything
    before the first point) and takes it back at this point's contents; nothing is owed. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]; unfold RR1
        iintro ⟨⟨⟨HB0, HB1, HB2, HB3, HB4, HB5, HB6, HB7, HB8, HB9, HB10, HB11, HB12, HB13, HB14, HB15, HB16, HB17, HS0⟩, Hg⟩, Ho, ⟨%d0, H0⟩, ⟨%d1, H1⟩, ⟨%d2, H2⟩, ⟨%d3, H3⟩, ⟨%dq, HO⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [HO]; · iexact HO
        isplitl [HS0]; · iexact HS0
        iintro ⟨H0, H1, H2, H3, HO, ⟨%es0, HS0⟩⟩
        isplitl [HB0 HB1 HB2 HB3 HB4 HB5 HB6 HB7 HB8 HB9 HB10 HB11 HB12 HB13 HB14 HB15 HB16 HB17 HS0 Hg]
        · isplitl [HB0 HB1 HB2 HB3 HB4 HB5 HB6 HB7 HB8 HB9 HB10 HB11 HB12 HB13 HB14 HB15 HB16 HB17 HS0]
          · isplitl [HB0]; · iexact HB0
            isplitl [HB1]; · iexact HB1
            isplitl [HB2]; · iexact HB2
            isplitl [HB3]; · iexact HB3
            isplitl [HB4]; · iexact HB4
            isplitl [HB5]; · iexact HB5
            isplitl [HB6]; · iexact HB6
            isplitl [HB7]; · iexact HB7
            isplitl [HB8]; · iexact HB8
            isplitl [HB9]; · iexact HB9
            isplitl [HB10]; · iexact HB10
            isplitl [HB11]; · iexact HB11
            isplitl [HB12]; · iexact HB12
            isplitl [HB13]; · iexact HB13
            isplitl [HB14]; · iexact HB14
            isplitl [HB15]; · iexact HB15
            isplitl [HB16]; · iexact HB16
            isplitl [HB17]; · iexact HB17
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact HO
      · rw [PhiS1_castSucc V c t, PhiS1_pos V c _ _ hz]; unfold RR1
        iintro ⟨⟨⟨HB0, HB1, HB2, HB3, HB4, HB5, HB6, HB7, HB8, HB9, HB10, HB11, HB12, HB13, HB14, HB15, HB16, HB17, HS0⟩, Hg⟩, Ho, ⟨%d0, H0⟩, ⟨%d1, H1⟩, ⟨%d2, H2⟩, ⟨%d3, H3⟩, ⟨%dq, HO⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [HO]; · iexact HO
        isplitl [HS0]; · iexists _; iexact HS0
        iintro ⟨H0, H1, H2, H3, HO, ⟨%es0, HS0⟩⟩
        isplitl [HB0 HB1 HB2 HB3 HB4 HB5 HB6 HB7 HB8 HB9 HB10 HB11 HB12 HB13 HB14 HB15 HB16 HB17 HS0 Hg]
        · isplitl [HB0 HB1 HB2 HB3 HB4 HB5 HB6 HB7 HB8 HB9 HB10 HB11 HB12 HB13 HB14 HB15 HB16 HB17 HS0]
          · isplitl [HB0]; · iexact HB0
            isplitl [HB1]; · iexact HB1
            isplitl [HB2]; · iexact HB2
            isplitl [HB3]; · iexact HB3
            isplitl [HB4]; · iexact HB4
            isplitl [HB5]; · iexact HB5
            isplitl [HB6]; · iexact HB6
            isplitl [HB7]; · iexact HB7
            isplitl [HB8]; · iexact HB8
            isplitl [HB9]; · iexact HB9
            isplitl [HB10]; · iexact HB10
            isplitl [HB11]; · iexact HB11
            isplitl [HB12]; · iexact HB12
            isplitl [HB13]; · iexact HB13
            isplitl [HB14]; · iexact HB14
            isplitl [HB15]; · iexact HB15
            isplitl [HB16]; · iexact HB16
            isplitl [HB17]; · iexact HB17
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact HO

  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      by_cases hz : t.val = 0
      · exfalso; omega
      · rw [PhiS1_castSucc V c t, PhiS1_pos V c _ _ hz]; unfold RR1
        iintro ⟨⟨⟨HB0, HB1, HB2, HB3, HB4, HB5, HB6, HB7, HB8, HB9, HB10, HB11, HB12, HB13, HB14, HB15, HB16, HB17, HS0⟩, Hg⟩, Ho, ⟨%d0, H0⟩, ⟨%d1, H1⟩, ⟨%d2, H2⟩, ⟨%d3, H3⟩, ⟨%dq, HO⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
        isplitl [H0]; · iexact H0
        isplitl [H1]; · iexact H1
        isplitl [H2]; · iexact H2
        isplitl [H3]; · iexact H3
        isplitl [HO]; · iexists _; iexact HO
        isplitl [HS0]; · iexact HS0
        iintro ⟨H0, H1, H2, H3, ⟨%eo, HO⟩, ⟨%es0, HS0⟩⟩
        isplitl [HB0 HB1 HB2 HB3 HB4 HB5 HB6 HB7 HB8 HB9 HB10 HB11 HB12 HB13 HB14 HB15 HB16 HB17 HS0 Hg]
        · isplitl [HB0 HB1 HB2 HB3 HB4 HB5 HB6 HB7 HB8 HB9 HB10 HB11 HB12 HB13 HB14 HB15 HB16 HB17 HS0]
          · isplitl [HB0]; · iexact HB0
            isplitl [HB1]; · iexact HB1
            isplitl [HB2]; · iexact HB2
            isplitl [HB3]; · iexact HB3
            isplitl [HB4]; · iexact HB4
            isplitl [HB5]; · iexact HB5
            isplitl [HB6]; · iexact HB6
            isplitl [HB7]; · iexact HB7
            isplitl [HB8]; · iexact HB8
            isplitl [HB9]; · iexact HB9
            isplitl [HB10]; · iexact HB10
            isplitl [HB11]; · iexact HB11
            isplitl [HB12]; · iexact HB12
            isplitl [HB13]; · iexact HB13
            isplitl [HB14]; · iexact HB14
            isplitl [HB15]; · iexact HB15
            isplitl [HB16]; · iexact HB16
            isplitl [HB17]; · iexact HB17
            unfold owns; iexists _; isplitr
            swap; · iexact HS0
            ipureintro; exact View.read_writes_of_cover _ _ _ _ _ (scover1_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact HO
        ipureintro; exact View.read_writes_of_cover _ _ _ _ _ (cover1_C_4 c _ _ _ _ _ _ _ _ _ _ _ _ _ _ _ _ _ _ _ _)

    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]; unfold RR1
        iintro ⟨⟨⟨HB0, HB1, HB2, HB3, HB4, HB5, HB6, HB7, HB8, HB9, HB10, HB11, HB12, HB13, HB14, HB15, HB16, HB17, HS0⟩, Hg⟩, Ho, ⟨%d0, H0⟩, ⟨%d1, H1⟩, ⟨%d2, H2⟩, ⟨%d3, H3⟩, ⟨%dq, HO⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
        isplitl [H0]; · iexact H0
        isplitl [H1]; · iexact H1
        isplitl [H2]; · iexact H2
        isplitl [H3]; · iexact H3
        isplitl [HO]; · iexact HO
        isplitl [HS0]; · iexact HS0
        iintro ⟨H0, H1, H2, H3, HO, ⟨%es0, HS0⟩⟩
        isplitl [HB0 HB1 HB2 HB3 HB4 HB5 HB6 HB7 HB8 HB9 HB10 HB11 HB12 HB13 HB14 HB15 HB16 HB17 HS0 Hg]
        · isplitl [HB0 HB1 HB2 HB3 HB4 HB5 HB6 HB7 HB8 HB9 HB10 HB11 HB12 HB13 HB14 HB15 HB16 HB17 HS0]
          · isplitl [HB0]; · iexact HB0
            isplitl [HB1]; · iexact HB1
            isplitl [HB2]; · iexact HB2
            isplitl [HB3]; · iexact HB3
            isplitl [HB4]; · iexact HB4
            isplitl [HB5]; · iexact HB5
            isplitl [HB6]; · iexact HB6
            isplitl [HB7]; · iexact HB7
            isplitl [HB8]; · iexact HB8
            isplitl [HB9]; · iexact HB9
            isplitl [HB10]; · iexact HB10
            isplitl [HB11]; · iexact HB11
            isplitl [HB12]; · iexact HB12
            isplitl [HB13]; · iexact HB13
            isplitl [HB14]; · iexact HB14
            isplitl [HB15]; · iexact HB15
            isplitl [HB16]; · iexact HB16
            isplitl [HB17]; · iexact HB17
            unfold owns; iexists _; isplitr
            swap; · iexact HS0
            ipureintro; exact View.read_writes_of_cover _ _ _ _ _ (scover1_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact HO

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's back: the accumulators' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  unfold RR1
  iintro ⟨⟨HB0, HB1, HB2, HB3, HB4, HB5, HB6, HB7, HB8, HB9, HB10, HB11, HB12, HB13, HB14, HB15, HB16, HB17, HS0⟩, Hg⟩
  isplitl [HB0 HB1 HB2 HB3 HB4 HB5 HB6 HB7 HB8 HB9 HB10 HB11 HB12 HB13 HB14 HB15 HB16 HB17 HS0]
  · isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    isplitl [HB7]; · iexact HB7
    isplitl [HB8]; · iexact HB8
    isplitl [HB9]; · iexact HB9
    isplitl [HB10]; · iexact HB10
    isplitl [HB11]; · iexact HB11
    isplitl [HB12]; · iexact HB12
    isplitl [HB13]; · iexact HB13
    isplitl [HB14]; · iexact HB14
    isplitl [HB15]; · iexact HB15
    isplitl [HB16]; · iexact HB16
    isplitl [HB17]; · iexact HB17
    iexists _; iexact HS0
  iexact Hg

end Cert.KernelIdeal.Hand

end
-- ==== Proof.KIRun.lean ====
import proofs.«112781_j3195455668476_2_alg».proof.Proof.KIR0
import proofs.«112781_j3195455668476_2_alg».proof.Proof.KIR1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The buffer contents at each boundary of @main: at launch; after the host conversions; after region 0; after region 1. -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- No host conversion writes an argument: each writes its own result buffer. -/
theorem W1_of_arg (c : Dev nD) (b : Ref sig .tc) (hb : b ∉ ([main_v0, main_v1, main_v2, main_v3] : List (Ref sig .tc))) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    simp only [List.mem_cons, List.not_mem_nil, or_false, not_or] at hb
    exact ⟨StableHlo.devRef_ne_of_ne hb.1, StableHlo.devRef_ne_of_ne hb.2.1, StableHlo.devRef_ne_of_ne hb.2.2.1, StableHlo.devRef_ne_of_ne hb.2.2.2⟩))
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 3).trans (((dat1 (V2 m ρ) c).arrAt_in 3 rfl _).trans (A_eq1 (V2 m ρ) c 3))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_arg m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_arg m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 4).trans (((dat0 (V1 m ρ) c).arrAt_in 4 rfl _).trans (A_eq0 (V1 m ρ) c 4))
    _ = W0 m ρ c (Proc.devRef .tc main_arg2) := W1_of_arg m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_arg m ρ c main_arg3 (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 5).trans (((dat0 (V1 m ρ) c).arrAt_in 5 rfl _).trans (A_eq0 (V1 m ρ) c 5))
    _ = W0 m ρ c (Proc.devRef .tc main_arg4) := W1_of_arg m ρ c main_arg4 (by decide)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of_arg m ρ c main_arg5 (by decide)
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := (W2_arr m ρ c 6).trans (((dat0 (V1 m ρ) c).arrAt_in 6 rfl _).trans (A_eq0 (V1 m ρ) c 6))
    _ = W0 m ρ c (Proc.devRef .tc main_arg6) := W1_of_arg m ρ c main_arg6 (by decide)
    _ = m ((c : Thread nD τ).loc main_arg6) := rfl
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := (W2_arr m ρ c 7).trans (((dat0 (V1 m ρ) c).arrAt_in 7 rfl _).trans (A_eq0 (V1 m ρ) c 7))
    _ = W0 m ρ c (Proc.devRef .tc main_arg7) := W1_of_arg m ρ c main_arg7 (by decide)
    _ = m ((c : Thread nD τ).loc main_arg7) := rfl
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := (W2_arr m ρ c 8).trans (((dat0 (V1 m ρ) c).arrAt_in 8 rfl _).trans (A_eq0 (V1 m ρ) c 8))
    _ = W0 m ρ c (Proc.devRef .tc main_arg8) := W1_of_arg m ρ c main_arg8 (by decide)
    _ = m ((c : Thread nD τ).loc main_arg8) := rfl
theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := W1_of_arg m ρ c main_arg9 (by decide)
    _ = m ((c : Thread nD τ).loc main_arg9) := rfl
theorem W3_main_arg10 (c : Dev nD) : W3 m ρ c (Proc.devRef .tc main_arg10) = m ((c : Thread nD τ).loc main_arg10) :=
  calc W3 m ρ c (Proc.devRef .tc main_arg10)
    _ = W2 m ρ c (Proc.devRef .tc main_arg10) := (W3_arr m ρ c 2).trans (((dat1 (V2 m ρ) c).arrAt_in 2 rfl _).trans (A_eq1 (V2 m ρ) c 2))
    _ = W1 m ρ c (Proc.devRef .tc main_arg10) := W2_of_ne m ρ c main_arg10 (by decide)
    _ = W0 m ρ c (Proc.devRef .tc main_arg10) := W1_of_arg m ρ c main_arg10 (by decide)
    _ = m ((c : Thread nD τ).loc main_arg10) := rfl

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
/-- Region 0 over the thread state "every unscoped buffer at the boundary's contents, the generator register at some state,
    nothing owed": its arrays are split out of the unscoped buffers at entry and put back at the exit contents; the generator
    register goes into the invariant and comes back; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    iintro ⟨Hp, -, Hr⟩
    iapply (hin0 (V1 m ρ) c)
    unfold Pipeline.ΦA
    isplitl [Hr]; · iexact Hr
    iexact Hp
  hout c := by
    rw [Pipeline.ownSems0_none, show (pdats m ρ 0 c).Φ (Fin.last _) = (dat0 (V1 m ρ) c).Φ (Fin.last cfg0.N) from rfl]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some state,
    nothing owed": its arrays are split out of the unscoped buffers at entry and put back at the exit contents; the generator
    register goes into the invariant and comes back; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    iintro ⟨Hp, -, Hr⟩
    iapply (hin1 (V2 m ρ) c)
    unfold Pipeline.ΦA
    isplitl [Hr]; · iexact Hr
    iexact Hp
  hout c := by
    rw [Pipeline.ownSems0_none, show (pdats m ρ 1 c).Φ (Fin.last _) = (dat1 (V2 m ρ) c).Φ (Fin.last cfg1.N) from rfl]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    final state holds each unscoped buffer at the last boundary's contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the argument arrays end as launched (no host conversion writes one; each region only reads them). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c),
     (h c _ (mem_uc main_arg9 (by decide))).trans (W3_main_arg9 m ρ c),
     (h c _ (mem_uc main_arg10 (by decide))).trans (W3_main_arg10 m ρ c)⟩) (run_main m ρ)

end Cert.KernelIdeal.Hand

end
-- ==== Proof.KIBound.lean ====
import proofs.«112781_j3195455668476_2_alg».proof.Proof.KIRun
import Idealize.ShloMosaic.Lib.Pipeline.Value
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-! What each region finds in the buffers it reads, in terms of the launch memory: no host conversion and no region writes
an argument; a conversion to bf16 is the identity on the extended reals; region 0 writes only the normed array. -/

/-- After the host conversions an argument array is as launched. -/
theorem V1_arg (c : Dev nD) (b : Ref sig .tc) (hb : b ∉ ([main_v0, main_v1, main_v2, main_v3] : List (Ref sig .tc))) :
    V1 m ρ c b = m ((c : Thread nD τ).loc b) := W1_of_arg m ρ c b hb

/-- Each host conversion's result is its argument: a change of float format is the identity on the extended reals. -/
theorem V1_main_v0 (c : Dev nD) : V1 m ρ c main_v0 = (m ((c : Thread nD τ).loc main_arg1) : S64x4096.Idx → EReal) := by
  show StableHlo.after hostOps0 (W0 m ρ c) (Proc.devRef .tc main_v0) = _
  after_results; rfl
theorem V1_main_v1 (c : Dev nD) : V1 m ρ c main_v1 = (m ((c : Thread nD τ).loc main_arg3) : S64x4096.Idx → EReal) := by
  show StableHlo.after hostOps0 (W0 m ρ c) (Proc.devRef .tc main_v1) = _
  after_results; rfl
theorem V1_main_v2 (c : Dev nD) : V1 m ρ c main_v2 = (m ((c : Thread nD τ).loc main_arg5) : S4096x4096.Idx → EReal) := by
  show StableHlo.after hostOps0 (W0 m ρ c) (Proc.devRef .tc main_v2) = _
  after_results; rfl
theorem V1_main_v3 (c : Dev nD) : V1 m ρ c main_v3 = (m ((c : Thread nD τ).loc main_arg9) : S4096x4096.Idx → EReal) := by
  show StableHlo.after hostOps0 (W0 m ρ c) (Proc.devRef .tc main_v3) = _
  after_results; rfl

/-- Region 0 leaves every buffer but its output array as it found it. -/
theorem V2_of_ne (c : Dev nD) (b : Ref sig .tc) (hb : ∀ w, Pipeline.arrRef spec0 w ≠ b) : V2 m ρ c b = V1 m ρ c b :=
  W2_of_ne m ρ c b hb
theorem V2_main_arg0 (c : Dev nD) : V2 m ρ c main_arg0 = m ((c : Thread nD τ).loc main_arg0) :=
  ((W2_arr m ρ c 0).trans (((dat0 (V1 m ρ) c).arrAt_in 0 rfl _).trans (A_eq0 (V1 m ρ) c 0))).trans (W1_of_arg m ρ c main_arg0 (by decide))
theorem V2_main_arg10 (c : Dev nD) : V2 m ρ c main_arg10 = m ((c : Thread nD τ).loc main_arg10) :=
  (W2_of_ne m ρ c main_arg10 (by decide)).trans (W1_of_arg m ρ c main_arg10 (by decide))
theorem V2_main_v3 (c : Dev nD) : V2 m ρ c main_v3 = (m ((c : Thread nD τ).loc main_arg9) : S4096x4096.Idx → EReal) :=
  (W2_of_ne m ρ c main_v3 (by decide)).trans (V1_main_v3 m ρ c)
/-- Region 0's output array after the region is what its write-backs leave. -/
theorem V2_main_v4 (c : Dev nD) : V2 m ρ c main_v4 = (dat0 (V1 m ρ) c).arrAt 9 cfg0.N := W2_arr m ρ c 9
/-- The result array after region 1 is what its write-backs leave. -/
theorem W3_main_v5 (c : Dev nD) : W3 m ρ c (Proc.devRef .tc main_v5) = (dat1 (V2 m ρ) c).arrAt 4 cfg1.N := W3_arr m ρ c 4

end Cert.KernelIdeal.Hand

end
-- ==== Proof.KIR1Val.lean ====
import proofs.«112781_j3195455668476_2_alg».proof.Proof.KIR1
import Idealize.ShloMosaic.Lib.Pipeline.Value
import Idealize.ShloMosaic.PureOps.Ideal.Laws
import Idealize.ShloMosaic.Lib.ValueIdx
import Idealize.ShloMosaic.Lib.ValueLayout

/-!
The value of the output region: x + normed · Woᵀ + bo.

The grid is 8 × 4 × 4, point t = 16 i + 4 j + k. At k = 0 the [1024, 1024] accumulator is reset to zero; at every k it
gains the product of the normalised block (i, k) with the weight block (j, k), contracted over their second axes; at
k = 3 the output block (i, j) is stored as residual block (i, j) + accumulator + bias block j.

So the accumulator after the run of four points over k is the sum over the four column blocks of the row-by-row
products, which is the full contraction over the 4096 columns; and the output array, covered by the 8 × 4 blocks
written at the points t % 4 = 3, is x + normed · Woᵀ + bo index by index (`arrAt1_eq`).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## What each control case leaves, as the payloads of its stores -/

theorem zeros2 : (![0, 0] : Fin 2 → Nat) = fun _ => 0 := funext fun a => by fin_cases a <;> rfl
theorem zeros1 : (![0] : Fin 1 → Nat) = fun _ => 0 := funext fun a => by fin_cases a <;> rfl

/-- The last reduction step leaves in the output block: residual block + (accumulator + this step's product) + bias block. -/
theorem out1_C_4_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024 .f32) (x3 : Vec F S1024x1024 .f32) (xs0 : Vec F S1024x1024 .f32) :
    out1_C_4 c i arg3 harg3 arg4 harg4 arg5 harg5 arg6 harg6 arg7 harg7 arg8 harg8 hc0 hc1 x0 x1 x2 x3 xs0 = k1_pay3 x3 (k1_pay2 xs0 x0 x1) x2 := by
  unfold out1_C_4
  rw [View.read_writes_eq_canon _ _ _ (cover1_C_4 c i arg3 harg3 arg4 harg4 arg5 harg5 arg6 harg6 arg7 harg7 arg8 harg8 hc0 hc1 x0 x1 x2 x3 xs0)]
  unfold kernelRun1_C
  dsimp only
  sl_unfold_words
  rw [View.canon_unit_zero zeros2, View.readCov_unit_zero (S := S1024x1024) _ zeros2]
  simp only [View.readAt_eq_ld, harg3.read_unread, harg4.read_unread, harg5.read_unread, harg6.read_unread, harg8.read_unread,
    View.ld_unit_zero (S := S1024x1024) zeros2, View.ld_unit_zero (S := S1024) zeros1]

/-- The last reduction step leaves in the accumulator: what it held + this step's product. -/
theorem sout1_C_0_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : cond1_1 i)
    (x0 : Vec F S1024x1024 .bf16) (x1 : Vec F S1024x1024 .bf16) (x2 : Vec F S1024 .f32) (x3 : Vec F S1024x1024 .f32) (xs0 : Vec F S1024x1024 .f32) :
    sout1_C_0 c i arg3 harg3 arg4 harg4 arg5 harg5 arg6 harg6 arg7 harg7 arg8 harg8 hc0 hc1 x0 x1 x2 x3 xs0 = k1_pay2 xs0 x0 x1 := by
  unfold sout1_C_0
  rw [View.read_writes_eq_canon _ _ _ (scover1_C_0 c i arg3 harg3 arg4 harg4 arg5 harg5 arg6 harg6 arg7 harg7 arg8 harg8 hc0 hc1 x0 x1 x2 x3 xs0)]
  unfold kernelRun1_C
  dsimp only
  sl_unfold_words
  rw [View.canon_unit_zero zeros2]
  simp only [View.readAt_eq_ld, harg3.read_unread, harg4.read_unread, harg8.read_unread,
    View.ld_unit_zero (S := S1024x1024) zeros2]

/-- A middle reduction step leaves in the accumulator: what it held + this step's product. -/
theorem sout1_B_0_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond1_0 i) (hc1 : ¬cond1_1 i)
    (x0 : Vec F S1024x1024 .bf16) (x1 : Vec F S1024x1024 .bf16) (x2 : Vec F S1024 .f32) (x3 : Vec F S1024x1024 .f32) (xs0 : Vec F S1024x1024 .f32) :
    sout1_B_0 c i arg3 harg3 arg4 harg4 arg5 harg5 arg6 harg6 arg7 harg7 arg8 harg8 hc0 hc1 x0 x1 x2 x3 xs0 = k1_pay2 xs0 x0 x1 := by
  unfold sout1_B_0
  rw [View.read_writes_eq_canon _ _ _ (scover1_B_0 c i arg3 harg3 arg4 harg4 arg5 harg5 arg6 harg6 arg7 harg7 arg8 harg8 hc0 hc1 x0 x1 x2 x3 xs0)]
  unfold kernelRun1_B
  dsimp only
  sl_unfold_words
  rw [View.canon_unit_zero zeros2]
  simp only [View.readAt_eq_ld, harg3.read_unread, harg4.read_unread, harg8.read_unread,
    View.ld_unit_zero (S := S1024x1024) zeros2]

/-- The first reduction step leaves in the accumulator: the zero block + this step's product. -/
theorem sout1_A_0_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond1_0 i) (hc1 : ¬cond1_1 i)
    (x0 : Vec F S1024x1024 .bf16) (x1 : Vec F S1024x1024 .bf16) (x2 : Vec F S1024 .f32) (x3 : Vec F S1024x1024 .f32) :
    sout1_A_0 c i arg3 harg3 arg4 harg4 arg5 harg5 arg6 harg6 arg7 harg7 arg8 harg8 hc0 hc1 x0 x1 x2 x3 = k1_pay2 k1_pay1 x0 x1 := by
  unfold sout1_A_0
  rw [View.read_writes_eq_canon _ _ _ (scover1_A_0 c i arg3 harg3 arg4 harg4 arg5 harg5 arg6 harg6 arg7 harg7 arg8 harg8 hc0 hc1 x0 x1 x2 x3)]
  unfold kernelRun1_A
  dsimp only
  sl_unfold_words
  rw [View.canon_cons_unit_zero (S := S1024x1024) zeros2, View.readCov_unit_zero (S := S1024x1024) _ zeros2]
  simp only [View.readAt_eq_ld, harg3.read_unread, harg4.read_unread,
    View.ld_unit_zero (S := S1024x1024) zeros2]

/-! ## The payloads at an index, on the extended reals -/

/-- The reset block is zero. -/
theorem k1_pay1_apply (j : S1024x1024.Idx) : k1_pay1 (F := Ideal) j = 0 := by
  unfold k1_pay1
  simp only [shapeCast_self]
  exact Ideal.ofBits_zero_f32

theorem dotL0 (j : S1024x1024.Idx) (k : dot_S1024x1024_S1024x1024_S1024x1024_1_1_0_0_n_n.contr.Idx) :
    (dot_S1024x1024_S1024x1024_S1024x1024_1_1_0_0_n_n.lhsIdx j k 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem dotL1 (j : S1024x1024.Idx) (k : dot_S1024x1024_S1024x1024_S1024x1024_1_1_0_0_n_n.contr.Idx) :
    (dot_S1024x1024_S1024x1024_S1024x1024_1_1_0_0_n_n.lhsIdx j k 1).val = (k ⟨0, by decide⟩).val :=
  dot_S1024x1024_S1024x1024_S1024x1024_1_1_0_0_n_n.lhsIdx_val_of_single rfl j k
theorem dotR0 (j : S1024x1024.Idx) (k : dot_S1024x1024_S1024x1024_S1024x1024_1_1_0_0_n_n.contr.Idx) :
    (dot_S1024x1024_S1024x1024_S1024x1024_1_1_0_0_n_n.rhsIdx j k 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem dotR1 (j : S1024x1024.Idx) (k : dot_S1024x1024_S1024x1024_S1024x1024_1_1_0_0_n_n.contr.Idx) :
    (dot_S1024x1024_S1024x1024_S1024x1024_1_1_0_0_n_n.rhsIdx j k 1).val = (k ⟨0, by decide⟩).val :=
  dot_S1024x1024_S1024x1024_S1024x1024_1_1_0_0_n_n.rhsIdx_val_of_single rfl j k

/-- A reduction step at an index: the accumulator's entry plus the row of the left block against the row of the right block. -/
theorem k1_pay2_apply (acc : FVec Ideal S1024x1024 .f32) (a b : FVec Ideal S1024x1024 .bf16) (p q : Fin 1024) :
    k1_pay2 (F := Ideal) acc a b (ix2 p q) = acc (ix2 p q) + ∑ d : Fin 1024, a (ix2 p d) * b (ix2 q d) := by
  unfold k1_pay2
  simp only [shapeCast_self]
  show acc (ix2 p q) + _ = _
  refine congrArg (acc (ix2 p q) + ·) ?_
  refine (Ideal.matmul_constant_zero_apply dot_S1024x1024_S1024x1024_S1024x1024_1_1_0_0_n_n none a b (ix2 p q)).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact dotL0 _ _
    | ⟨1, _⟩ => exact (dotL1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact dotR0 _ _
    | ⟨1, _⟩ => exact (dotR1 _ _).trans hk)
  rw [el, er]

/-- The epilogue at an index: residual + accumulator + the bias entry of the column. -/
theorem k1_pay3_apply (x s : FVec Ideal S1024x1024 .f32) (bo : FVec Ideal S1024 .f32) (p q : Fin 1024) :
    k1_pay3 (F := Ideal) x s bo (ix2 p q) = (x (ix2 p q) + s (ix2 p q)) + bo (ix1 q) := by
  unfold k1_pay3
  show (x (ix2 p q) + s (ix2 p q)) + broadcastTo S1024x1024 (shapeCast S1x1024 bo shapeCasts_S1024_S1x1024) broadcasts_S1x1024_S1024x1024 (ix2 p q) = _
  refine congrArg ((x (ix2 p q) + s (ix2 p q)) + ·) ?_
  refine (broadcastTo_1b_ab_apply _ broadcasts_S1x1024_S1024x1024 p q).trans ?_
  exact shapeCast_a_1a_apply bo shapeCasts_S1024_S1x1024 (0 : Fin 1) q

/-! ## Arrays read at natural-number coordinates -/

/-- A rank-2 array read at natural coordinates (zero outside the array). -/
def at2 {m n : ℕ} (X : (⟨2, ![m, n]⟩ : Shape).Idx → EReal) (r e : ℕ) : EReal :=
  if h : r < m ∧ e < n then X (ix2 ⟨r, h.1⟩ ⟨e, h.2⟩) else 0
/-- A rank-1 array read at a natural coordinate (zero outside the array). -/
def at1 {n : ℕ} (X : (⟨1, ![n]⟩ : Shape).Idx → EReal) (e : ℕ) : EReal :=
  if h : e < n then X (ix1 ⟨e, h⟩) else 0

theorem at2_val {m n : ℕ} (X : (⟨2, ![m, n]⟩ : Shape).Idx → EReal) (a : Fin m) (b : Fin n) :
    at2 X a.val b.val = X (ix2 a b) := by
  unfold at2; rw [dif_pos ⟨a.isLt, b.isLt⟩]
theorem at1_val {n : ℕ} (X : (⟨1, ![n]⟩ : Shape).Idx → EReal) (b : Fin n) : at1 X b.val = X (ix1 b) := by
  unfold at1; rw [dif_pos b.isLt]
/-- An entry is the array read at its coordinates' values. -/
theorem at2_of_val {m n : ℕ} (X : (⟨2, ![m, n]⟩ : Shape).Idx → EReal) (i : (⟨2, ![m, n]⟩ : Shape).Idx) (r e : ℕ)
    (h0 : (i 0).val = r) (h1 : (i 1).val = e) : X i = at2 X r e := by
  subst h0 h1
  exact (congrArg X (eq_ix2 i)).trans (at2_val X (i 0) (i 1)).symm
theorem at1_of_val {n : ℕ} (X : (⟨1, ![n]⟩ : Shape).Idx → EReal) (i : (⟨1, ![n]⟩ : Shape).Idx) (e : ℕ)
    (h0 : (i 0).val = e) : X i = at1 X e := by
  subst h0
  exact (congrArg X (eq_ix1 i)).trans (at1_val X (i 0)).symm

/-! ## The blocks the windows read -/

variable (V : (c : Dev nD) → (b : Ref sig .tc) → Buf (Elt Ideal) ((c : Thread nD τ).loc b))

/-- The normalised activations (bf16), the output weight (bf16), the output bias, and the residual input, as the region finds them. -/
abbrev arrN (c : Dev nD) : S8192x4096.Idx → EReal := V c main_v4
abbrev arrW (c : Dev nD) : S4096x4096.Idx → EReal := V c main_v3
abbrev arrB (c : Dev nD) : S4096.Idx → EReal := V c main_arg10
abbrev arrX (c : Dev nD) : S8192x4096.Idx → EReal := V c main_arg0

/-- The block index of each window at point t = 16 i + 4 j + k of the 8 × 4 × 4 grid: (i, k), (j, k), j, (i, j), (i, j). -/
theorem idx1_facts : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 1) = t.val / 4 % 4
    ∧ win1_3.index t (0 : Fin 2) = t.val / 16 ∧ win1_3.index t (1 : Fin 2) = t.val / 4 % 4
    ∧ win1_4.index t (0 : Fin 2) = t.val / 16 ∧ win1_4.index t (1 : Fin 2) = t.val / 4 % 4 :=
  (by decide +kernel : ∀ t : Fin grid1.N, _)

/-- The normalised block at point t: rows 1024 (t / 16) + p, columns 1024 (t % 4) + d. -/
theorem iblk1_0_apply (c : Dev nD) (t : Fin cfg1.N) (p d : Fin 1024) :
    iblk1 V c 0 t (ix2 p d) = at2 (m := 8192) (n := 4096) (arrN V c) (1024 * (t.val / 16) + p.val) (1024 * (t.val % 4) + d.val) := by
  obtain ⟨e0, e1, -⟩ := idx1_facts t
  unfold iblk1
  rw [View.read_apply]
  show arrN V c (((cfg1.win 0).blk t).view.emb (ix2 p d)) = _
  refine at2_of_val (m := 8192) (n := 4096) (arrN V c) _ _ _ ?_ ?_
  · show win1_0.index t (0 : Fin 2) * 1024 + 1 * p.val = _
    rw [e0]; omega
  · show win1_0.index t (1 : Fin 2) * 1024 + 1 * d.val = _
    rw [e1]; omega

/-- The weight block at point t: rows 1024 (t / 4 % 4) + q, columns 1024 (t % 4) + d. -/
theorem iblk1_1_apply (c : Dev nD) (t : Fin cfg1.N) (q d : Fin 1024) :
    iblk1 V c 1 t (ix2 q d) = at2 (m := 4096) (n := 4096) (arrW V c) (1024 * (t.val / 4 % 4) + q.val) (1024 * (t.val % 4) + d.val) := by
  obtain ⟨-, -, e0, e1, -⟩ := idx1_facts t
  unfold iblk1
  rw [View.read_apply]
  show arrW V c (((cfg1.win 1).blk t).view.emb (ix2 q d)) = _
  refine at2_of_val (m := 4096) (n := 4096) (arrW V c) _ _ _ ?_ ?_
  · show win1_1.index t (0 : Fin 2) * 1024 + 1 * q.val = _
    rw [e0]; omega
  · show win1_1.index t (1 : Fin 2) * 1024 + 1 * d.val = _
    rw [e1]; omega

/-- The bias block at point t: entries 1024 (t / 4 % 4) + q. -/
theorem iblk1_2_apply (c : Dev nD) (t : Fin cfg1.N) (q : Fin 1024) :
    iblk1 V c 2 t (ix1 q) = at1 (n := 4096) (arrB V c) (1024 * (t.val / 4 % 4) + q.val) := by
  obtain ⟨-, -, -, -, e0, -⟩ := idx1_facts t
  unfold iblk1
  rw [View.read_apply]
  show arrB V c (((cfg1.win 2).blk t).view.emb (ix1 q)) = _
  refine at1_of_val (n := 4096) (arrB V c) _ _ ?_
  show win1_2.index t (0 : Fin 1) * 1024 + 1 * q.val = _
  rw [e0]; omega

/-- The residual block at point t: rows 1024 (t / 16) + p, columns 1024 (t / 4 % 4) + q. -/
theorem iblk1_3_apply (c : Dev nD) (t : Fin cfg1.N) (p q : Fin 1024) :
    iblk1 V c 3 t (ix2 p q) = at2 (m := 8192) (n := 4096) (arrX V c) (1024 * (t.val / 16) + p.val) (1024 * (t.val / 4 % 4) + q.val) := by
  obtain ⟨-, -, -, -, -, e0, e1, -⟩ := idx1_facts t
  unfold iblk1
  rw [View.read_apply]
  show arrX V c (((cfg1.win 3).blk t).view.emb (ix2 p q)) = _
  refine at2_of_val (m := 8192) (n := 4096) (arrX V c) _ _ _ ?_ ?_
  · show win1_3.index t (0 : Fin 2) * 1024 + 1 * p.val = _
    rw [e0]; omega
  · show win1_3.index t (1 : Fin 2) * 1024 + 1 * q.val = _
    rw [e1]; omega

/-- The second component of a pair known by its components. -/
theorem snd_of_eq {α β : Type} (x : α × β) (a : α) (b b' : β) (hx : x = (a, b)) (hb : b = b') : x.2 = b' := by
  subst hx hb; rfl
/-- The first component, as a function of the second. -/
theorem fst_of_eq {α β : Type} (f : β → α) (x : α × β) (a : α) (b b' : β) (hx : x = (a, b)) (hb : b = b') (ha : a = f b') :
    x.1 = f x.2 := by
  subst hx hb ha; rfl

/-! ## The accumulator over a run of four reduction steps -/

/-- After a first step (t % 4 = 0) the accumulator is the zero block + that step's product. -/
theorem acc_A (c : Dev nD) (t : Fin cfg1.N) (h0 : t.val % 4 = 0) (h1 : ¬t.val % 4 = 3) :
    (outsAt1 V c t.val t.isLt).2 = k1_pay2 (F := Ideal) (k1_pay1 (F := Ideal)) (iblk1 V c 0 t) (iblk1 V c 1 t) := by
  have e := outsAt1_A V c t h0 h1
  exact snd_of_eq _ _ _ _ e (sout1_A_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t))

/-- After a middle step the accumulator is what the step before left + that step's product. -/
theorem acc_B (c : Dev nD) (t : Fin cfg1.N) (h0 : ¬t.val % 4 = 0) (h1 : ¬t.val % 4 = 3) :
    (outsAt1 V c t.val t.isLt).2 = k1_pay2 (F := Ideal) (outsAt1 V c (t.val - 1) (Nat.lt_of_le_of_lt (Nat.sub_le _ _) t.isLt)).2 (iblk1 V c 0 t) (iblk1 V c 1 t) := by
  have e := outsAt1_B V c t h0 h1
  exact snd_of_eq _ _ _ _ e (sout1_B_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2)

/-- After a last step (t % 4 = 3) likewise. -/
theorem acc_C (c : Dev nD) (t : Fin cfg1.N) (h0 : ¬t.val % 4 = 0) (h1 : t.val % 4 = 3) :
    (outsAt1 V c t.val t.isLt).2 = k1_pay2 (F := Ideal) (outsAt1 V c (t.val - 1) (Nat.lt_of_le_of_lt (Nat.sub_le _ _) t.isLt)).2 (iblk1 V c 0 t) (iblk1 V c 1 t) := by
  have e := outsAt1_C V c t h0 h1
  exact snd_of_eq _ _ _ _ e (sout1_C_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2)

/-- The output block a last step stores: residual block + the accumulator it leaves + bias block. -/
theorem out_C (c : Dev nD) (t : Fin cfg1.N) (h0 : ¬t.val % 4 = 0) (h1 : t.val % 4 = 3) :
    (outsAt1 V c t.val t.isLt).1 = k1_pay3 (F := Ideal) (iblk1 V c 3 t) (outsAt1 V c t.val t.isLt).2 (iblk1 V c 2 t) := by
  have e := outsAt1_C V c t h0 h1
  exact fst_of_eq (fun s => k1_pay3 (F := Ideal) (iblk1 V c 3 t) s (iblk1 V c 2 t)) _ _ _ _ e
    (sout1_C_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2)
    (out1_C_4_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2)

/-- The accumulator after point n, read at (p, q). -/
def accv (c : Dev nD) (n : ℕ) (h : n < cfg1.N) : Fin 1024 × Fin 1024 → EReal :=
  fun pq => (outsAt1 V c n h).2 (ix2 pq.1 pq.2)

/-- Point n's addend at (p, q): row p of its normalised block against row q of its weight block. -/
def addend (c : Dev nD) (n : ℕ) : Fin 1024 × Fin 1024 → EReal := fun pq =>
  ∑ d : Fin 1024, at2 (m := 8192) (n := 4096) (arrN V c) (1024 * (n / 16) + pq.1.val) (1024 * (n % 4) + d.val)
    * at2 (m := 4096) (n := 4096) (arrW V c) (1024 * (n / 4 % 4) + pq.2.val) (1024 * (n % 4) + d.val)

/-- One reduction step at (p, q) adds the point's addend. -/
theorem step_apply (c : Dev nD) (t : Fin cfg1.N) (acc : FVec Ideal S1024x1024 .f32) (p q : Fin 1024) :
    k1_pay2 (F := Ideal) acc (iblk1 V c 0 t) (iblk1 V c 1 t) (ix2 p q) = acc (ix2 p q) + addend V c t.val (p, q) := by
  refine (k1_pay2_apply acc (iblk1 V c 0 t) (iblk1 V c 1 t) p q).trans ?_
  refine congrArg (acc (ix2 p q) + ·) (Finset.sum_congr rfl fun d _ => ?_)
  exact congrArg₂ (· * ·) (iblk1_0_apply V c t p d) (iblk1_1_apply V c t q d)

theorem accv_reset (c : Dev nD) (n : ℕ) (h : n < cfg1.N) (h0 : n % 4 = 0) :
    accv V c n h = fun pq => 0 + addend V c n pq := by
  funext pq
  obtain ⟨p, q⟩ := pq
  show (outsAt1 V c n h).2 (ix2 p q) = _
  refine (congrFun (acc_A V c ⟨n, h⟩ h0 (by show ¬n % 4 = 3; omega)) (ix2 p q)).trans ?_
  refine (step_apply V c ⟨n, h⟩ (k1_pay1 (F := Ideal)) p q).trans ?_
  exact congrArg (· + addend V c n (p, q)) (k1_pay1_apply (ix2 p q))

theorem accv_step (c : Dev nD) (n : ℕ) (h : n + 1 < cfg1.N) (h0 : ¬(n + 1) % 4 = 0) :
    accv V c (n + 1) h = fun pq => accv V c n (Nat.lt_of_succ_lt h) pq + addend V c (n + 1) pq := by
  funext pq
  obtain ⟨p, q⟩ := pq
  show (outsAt1 V c (n + 1) h).2 (ix2 p q) = (outsAt1 V c n (Nat.lt_of_succ_lt h)).2 (ix2 p q) + addend V c (n + 1) (p, q)
  by_cases h3 : (n + 1) % 4 = 3
  · refine (congrFun (acc_C V c ⟨n + 1, h⟩ h0 h3) (ix2 p q)).trans ?_
    exact step_apply V c ⟨n + 1, h⟩ (outsAt1 V c n (Nat.lt_of_succ_lt h)).2 p q
  · refine (congrFun (acc_B V c ⟨n + 1, h⟩ h0 h3) (ix2 p q)).trans ?_
    exact step_apply V c ⟨n + 1, h⟩ (outsAt1 V c n (Nat.lt_of_succ_lt h)).2 p q

/-- At a last step the accumulator is the sum of the run's four addends. -/
theorem accv_last (c : Dev nD) (t : ℕ) (ht : t < cfg1.N) (h3 : t % 4 = 3) (pq : Fin 1024 × Fin 1024) :
    accv V c t ht pq = ∑ s : Fin 4, addend V c (4 * (t / 4) + s.val) pq := by
  have hb : 4 * (t / 4) + t % 4 < cfg1.N := by rw [Nat.div_add_mod]; exact ht
  rw [Pipeline.eq_accAt_of_mod (accv V c) 4 (fun n _ pq => 0 + addend V c n pq) (fun n _ acc pq => acc pq + addend V c n pq)
    (accv_reset V c) (accv_step V c) (by decide) t ht hb]
  rw [Pipeline.accAt_add_apply (fun n _ pq => 0 + addend V c n pq) (fun n _ acc pq => acc pq + addend V c n pq)
    (fun _ => (0 : EReal)) (addend V c) (4 * (t / 4)) 3 (fun _ _ => rfl) (fun _ _ _ _ _ _ => rfl) (t % 4) (by omega) hb pq]
  rw [h3, zero_add, Finset.sum_range]

/-! ## From blocks to the array -/

/-- A sum over 4096 is four runs of 1024. -/
theorem sum_four_blocks {M : Type*} [AddCommMonoid M] (f : ℕ → M) :
    ∑ e : Fin 4096, f e.val = ∑ s : Fin 4, ∑ d : Fin 1024, f (1024 * s.val + d.val) := by
  rw [← Equiv.sum_comp (finProdFinEquiv : Fin 4 × Fin 1024 ≃ Fin 4096) (fun e => f e.val), Fintype.sum_prod_type]
  refine Finset.sum_congr rfl fun s _ => Finset.sum_congr rfl fun d _ => congrArg f ?_
  show d.val + 1024 * s.val = 1024 * s.val + d.val
  omega

/-- The output array: x + normed · Woᵀ + bo, index by index. -/
def G1 (c : Dev nD) : S8192x4096.Idx → EReal := fun j =>
  (arrX V c j + ∑ d : Fin 4096, arrN V c (ix2 (j 0) d) * arrW V c (ix2 (j 1) d)) + arrB V c (ix1 (j 1))

/-- The output array at the element (p, q) of the block a last step t covers. -/
theorem G1_at (c : Dev nD) (t : ℕ) (ht : t < cfg1.N) (h3 : t % 4 = 3) (p q : Fin 1024) (i : S8192x4096.Idx)
    (hi0 : (i 0).val = 1024 * (t / 16) + p.val) (hi1 : (i 1).val = 1024 * (t / 4 % 4) + q.val) :
    G1 V c i = (at2 (m := 8192) (n := 4096) (arrX V c) (1024 * (t / 16) + p.val) (1024 * (t / 4 % 4) + q.val) + accv V c t ht (p, q))
      + at1 (n := 4096) (arrB V c) (1024 * (t / 4 % 4) + q.val) := by
  have eX : arrX V c i = at2 (m := 8192) (n := 4096) (arrX V c) (1024 * (t / 16) + p.val) (1024 * (t / 4 % 4) + q.val) :=
    at2_of_val (m := 8192) (n := 4096) (arrX V c) i _ _ hi0 hi1
  have eB : arrB V c (ix1 (i 1)) = at1 (n := 4096) (arrB V c) (1024 * (t / 4 % 4) + q.val) :=
    at1_of_val (n := 4096) (arrB V c) (ix1 (i 1)) _ hi1
  have eS : ∑ d : Fin 4096, arrN V c (ix2 (i 0) d) * arrW V c (ix2 (i 1) d) = accv V c t ht (p, q) := by
    rw [accv_last V c t ht h3]
    refine Eq.trans (b := ∑ e : Fin 4096, (fun r => at2 (m := 8192) (n := 4096) (arrN V c) (1024 * (t / 16) + p.val) r
        * at2 (m := 4096) (n := 4096) (arrW V c) (1024 * (t / 4 % 4) + q.val) r) e.val) ?_ ?_
    · refine Finset.sum_congr rfl fun d _ => ?_
      exact congrArg₂ (· * ·) (at2_of_val (m := 8192) (n := 4096) (arrN V c) (ix2 (i 0) d) _ _ hi0 rfl)
        (at2_of_val (m := 4096) (n := 4096) (arrW V c) (ix2 (i 1) d) _ _ hi1 rfl)
    · refine (sum_four_blocks (fun r => at2 (m := 8192) (n := 4096) (arrN V c) (1024 * (t / 16) + p.val) r
        * at2 (m := 4096) (n := 4096) (arrW V c) (1024 * (t / 4 % 4) + q.val) r)).trans ?_
      refine Finset.sum_congr rfl fun s _ => ?_
      have hs : s.val < 4 := s.isLt
      have a0 : (4 * (t / 4) + s.val) / 16 = t / 16 := by omega
      have a1 : (4 * (t / 4) + s.val) % 4 = s.val := by omega
      have a2 : (4 * (t / 4) + s.val) / 4 % 4 = t / 4 % 4 := by omega
      unfold addend
      rw [a0, a1, a2]
  unfold G1
  rw [eX, eB, eS]

/-- What a last step writes back is its block of the output array. -/
theorem flushed1_4_eq (c : Dev nD) (t : Fin cfg1.N) (hf : (cfg1.win 4).flush t = true) :
    (dat1 (F := Ideal) V c).flushed 4 t = ((cfg1.win 4).blk t).view.read (Elt Ideal) (G1 V c) := by
  have h3 : t.val % 4 = 3 := (flush1_4 t).mp hf
  have h0 : ¬t.val % 4 = 0 := by omega
  obtain ⟨-, -, -, -, -, -, -, e0, e1⟩ := idx1_facts t
  show (cfg1.win 4).cut (grid1.coords t) ((dat1 V c).after 4 t) = _
  rw [after1_4, out_C V c t h0 h3]
  refine @funext S1024x1024.Idx _ _ _ fun y => ?_
  obtain ⟨p, q, rfl⟩ : ∃ (p q : Fin 1024), y = ix2 p q := ⟨y 0, y 1, eq_ix2 y⟩
  rw [View.read_apply]
  show k1_pay3 (F := Ideal) (iblk1 V c 3 t) (outsAt1 V c t.val t.isLt).2 (iblk1 V c 2 t) (ix2 p q) = G1 V c (((cfg1.win 4).blk t).view.emb (ix2 p q))
  refine (k1_pay3_apply (iblk1 V c 3 t) (outsAt1 V c t.val t.isLt).2 (iblk1 V c 2 t) p q).trans ?_
  refine Eq.trans ?_ (G1_at V c t.val t.isLt h3 p q _ ?_ ?_).symm
  · exact congrArg₂ (· + ·) (congrArg (· + accv V c t.val t.isLt (p, q)) (iblk1_3_apply V c t p q)) (iblk1_2_apply V c t q)
  · show win1_4.index t (0 : Fin 2) * 1024 + 1 * p.val = _
    rw [e0]; omega
  · show win1_4.index t (1 : Fin 2) * 1024 + 1 * q.val = _
    rw [e1]; omega

/-- Every element of the output array is in the block of some last step: the one at grid row i₀ / 1024, grid column i₁ / 1024. -/
theorem cover1_4 (i : S8192x4096.Idx) :
    ∃ t : Fin cfg1.N, (cfg1.win 4).flush t = true ∧ i ∈ ((cfg1.win 4).blk t).view.set := by
  have h0 : (i 0).val < 8192 := idx2_lt0 i
  have h1 : (i 1).val < 4096 := idx2_lt1 i
  have hN : cfg1.N = 128 := N_1
  obtain ⟨t, ht⟩ : ∃ t : Fin cfg1.N, t.val = 16 * ((i 0).val / 1024) + 4 * ((i 1).val / 1024) + 3 :=
    ⟨⟨16 * ((i 0).val / 1024) + 4 * ((i 1).val / 1024) + 3, by rw [hN]; omega⟩, rfl⟩
  obtain ⟨-, -, -, -, -, -, -, e0, e1⟩ := idx1_facts t
  refine ⟨t, (flush1_4 t).mpr (by omega), ?_⟩
  show i ∈ ((View.whole main_v5).slice (win1_4.rect t)).set
  rw [View.set_slice_whole, Rect.mem_set_unit]
  intro a
  match a with
  | ⟨0, _⟩ =>
    show win1_4.index t (0 : Fin 2) * 1024 ≤ (i 0).val ∧ (i 0).val < win1_4.index t (0 : Fin 2) * 1024 + 1024
    rw [e0]; omega
  | ⟨1, _⟩ =>
    show win1_4.index t (1 : Fin 2) * 1024 ≤ (i 1).val ∧ (i 1).val < win1_4.index t (1 : Fin 2) * 1024 + 1024
    rw [e1]; omega

/-- THE VALUE OF THE OUTPUT REGION: after its last point the output array holds x + normed · Woᵀ + bo, index by index,
    of the arrays as the region finds them (normed and Wo the bf16 arrays the matmul reads). -/
theorem arrAt1_eq (c : Dev nD) :
    (dat1 (F := Ideal) V c).arrAt 4 cfg1.N = fun j : S8192x4096.Idx =>
      (arrX V c j + ∑ d : Fin 4096, arrN V c (ix2 (j 0) d) * arrW V c (ix2 (j 1) d)) + arrB V c (ix1 (j 1)) :=
  (dat1 (F := Ideal) V c).arrAt_eq_of_cover 4 (G1 V c) (flushed1_4_eq V c) cover1_4

end Cert.KernelIdeal.Hand

end
-- ==== Proof.Spec.lean ====
import Idealize.ShloMosaic.PureOps.Ideal
import Idealize.ShloMosaic.Lib.ValueIdx

/-!
The two programs' results as functions of the eleven argument arrays, index by index, on the extended reals.

Rows `b : Fin 8192`, phase channels `p : Fin 64`, features `d, n, k : Fin 4096`.

Both compute, per row `b`:
* the phases `tanh (x·Wkᵀ + bk) · π`, `tanh (x·Wqᵀ + bq) · π`, their alignment `a b = Σ_p cos (key − query)`;
* the gain `g b = softplus (a b / 64 + 1/2)`, spelt `max t 0 + log1p (exp (−|t − 0|))` behind a guard `t − 0 ≠ t − 0` that never fires on the extended reals;
* the scaled values `o b d = (x·Wvᵀ + bv) · a · g / 64`, layer-normalised over `d` (mean `μ`, variance `σ²`, `ε` the shared literal), times `ln_g` plus `ln_b`;
* the output `x + normed · Woᵀ + bo`.
They differ in three places: the kernel multiplies by the dyadic literals `1/64` and `1/4096` where the reference divides by `64` and `4096`;
the kernel groups the scale as `(a · g) · (1/64)` before multiplying the values, the reference as `((V · a) · g) / 64`;
and the kernel's variance is `mean (o²) − μ²` where the reference's is `mean ((o − μ)²)` — equal when every `o b d` is a real number.
-/

noncomputable section

namespace Cert.Spec

open Idealize.ShloMosaic Idealize.ShloMosaic.ValueIdx

abbrev SBD : Shape := ⟨2, ![8192, 4096]⟩
abbrev SPD : Shape := ⟨2, ![64, 4096]⟩
abbrev SP : Shape := ⟨1, ![64]⟩
abbrev SDD : Shape := ⟨2, ![4096, 4096]⟩
abbrev SD : Shape := ⟨1, ![4096]⟩

/-- The shared literals, kept as their binary words. -/
abbrev cPi : EReal := Ideal.ofBits .f32 0x40490FDB#32
abbrev cHalf : EReal := Ideal.ofBits .f32 0x3F000000#32
abbrev cZero : EReal := Ideal.ofBits .f32 0x00000000#32
abbrev cEps : EReal := Ideal.ofBits .f32 0x3727C5AC#32
abbrev c64 : EReal := Ideal.ofBits .f32 0x42800000#32
abbrev c4096 : EReal := Ideal.ofBits .f32 0x45800000#32
abbrev cInv64 : EReal := Ideal.ofBits .f32 0x3C800000#32
abbrev cInv4096 : EReal := Ideal.ofBits .f32 0x39800000#32

variable (x : FVec Ideal SBD .f32) (Wk : FVec Ideal SPD .f32) (bk : FVec Ideal SP .f32) (Wq : FVec Ideal SPD .f32) (bq : FVec Ideal SP .f32)
  (Wv : FVec Ideal SDD .f32) (bv : FVec Ideal SD .f32) (lng : FVec Ideal SD .f32) (lnb : FVec Ideal SD .f32)
  (Wo : FVec Ideal SDD .f32) (bo : FVec Ideal SD .f32)

/-- Row `b` of `x` against row `p` of a `[64, 4096]` weight. -/
def proj (W : FVec Ideal SPD .f32) (b : Fin 8192) (p : Fin 64) : EReal := ∑ k : Fin 4096, x (ix2 b k) * W (ix2 p k)
/-- A phase: `tanh (x·Wᵀ + bias) · π`. -/
def phase (W : FVec Ideal SPD .f32) (bias : FVec Ideal SP .f32) (b : Fin 8192) (p : Fin 64) : EReal :=
  Ideal.tanh (proj x W b p + bias (ix1 p)) * cPi
/-- The phase alignment summed over the channels. -/
def align (b : Fin 8192) : EReal := ∑ p : Fin 64, Ideal.cos (phase x Wk bk b p - phase x Wq bq b p)
/-- `softplus` as both programs spell it: the guarded `max t 0 + log1p (exp (−|t − 0|))`; `ne` is the comparison's word (0 on the extended reals). -/
def softplusBody (t : EReal) : EReal := max t cZero + Ideal.log1p (Ideal.exp (-(max (t - cZero) (-(t - cZero)))))
/-- The values `x·Wvᵀ + bv`. -/
def vals (b : Fin 8192) (d : Fin 4096) : EReal := (∑ k : Fin 4096, x (ix2 b k) * Wv (ix2 d k)) + bv (ix1 d)

/-! ### The reference's grouping -/
def gainR (b : Fin 8192) : EReal := softplusBody (Ideal.div (align x Wk bk Wq bq b) c64 + cHalf)
def outR (b : Fin 8192) (d : Fin 4096) : EReal :=
  Ideal.div ((vals x Wv bv b d * align x Wk bk Wq bq b) * gainR x Wk bk Wq bq b) c64
def muR (b : Fin 8192) : EReal := Ideal.div (∑ d : Fin 4096, outR x Wk bk Wq bq Wv bv b d) c4096
def varR (b : Fin 8192) : EReal :=
  Ideal.div (∑ d : Fin 4096, (outR x Wk bk Wq bq Wv bv b d - muR x Wk bk Wq bq Wv bv b) * (outR x Wk bk Wq bq Wv bv b d - muR x Wk bk Wq bq Wv bv b)) c4096
def normedR (b : Fin 8192) (d : Fin 4096) : EReal :=
  ((outR x Wk bk Wq bq Wv bv b d - muR x Wk bk Wq bq Wv bv b) * Ideal.rsqrt (varR x Wk bk Wq bq Wv bv b + cEps)) * lng (ix1 d) + lnb (ix1 d)
/-- The reference's result. -/
def GR : FVec Ideal SBD .f32 := fun j =>
  (x (ix2 (j 0) (j 1)) + ∑ d : Fin 4096, normedR x Wk bk Wq bq Wv bv lng lnb (j 0) d * Wo (ix2 (j 1) d)) + bo (ix1 (j 1))

/-! ### The kernel's grouping -/
def gainK (b : Fin 8192) : EReal := softplusBody (align x Wk bk Wq bq b * cInv64 + cHalf)
def scaleK (b : Fin 8192) : EReal := (align x Wk bk Wq bq b * gainK x Wk bk Wq bq b) * cInv64
def outK (b : Fin 8192) (d : Fin 4096) : EReal := vals x Wv bv b d * scaleK x Wk bk Wq bq b
def muK (b : Fin 8192) : EReal := (∑ d : Fin 4096, outK x Wk bk Wq bq Wv bv b d) * cInv4096
def varK (b : Fin 8192) : EReal :=
  (∑ d : Fin 4096, outK x Wk bk Wq bq Wv bv b d * outK x Wk bk Wq bq Wv bv b d) * cInv4096 - muK x Wk bk Wq bq Wv bv b * muK x Wk bk Wq bq Wv bv b
def normedK (b : Fin 8192) (d : Fin 4096) : EReal :=
  ((outK x Wk bk Wq bq Wv bv b d - muK x Wk bk Wq bq Wv bv b) * Ideal.rsqrt (varK x Wk bk Wq bq Wv bv b + cEps)) * lng (ix1 d) + lnb (ix1 d)
/-- The kernel's result. -/
def GK : FVec Ideal SBD .f32 := fun j =>
  (x (ix2 (j 0) (j 1)) + ∑ d : Fin 4096, normedK x Wk bk Wq bq Wv bv lng lnb (j 0) d * Wo (ix2 (j 1) d)) + bo (ix1 (j 1))

end Cert.Spec

end
-- ==== Proof.KIR0Val.lean ====
import proofs.«112781_j3195455668476_2_alg».proof.Proof.KIR0
import Idealize.ShloMosaic.Lib.Pipeline.Value
import Idealize.ShloMosaic.PureOps.Ideal.Laws
import Idealize.ShloMosaic.Lib.ValueIdx
import Idealize.ShloMosaic.Lib.ValueLayout
import proofs.«112781_j3195455668476_2_alg».proof.Proof.Spec

/-!
The value of the phasor region: the layer-normalised, scaled values.

The grid is 16 × 8, point t = 8 i + k. At k = 0 the three accumulators (the values, [512, 4096], and the key and query
projections, [512, 64]) are reset to zero; at every k each gains the product of the x block (i, k) with its weight block
(0, k), contracted over their second axes; at k = 7 the epilogue turns the accumulators into the output block (i, 0): the
phases tanh (· + bias) · π, their alignment summed over the 64 channels, the softplus gain, the row scale
(alignment · gain) · (1/64), the scaled values (values + bias) · scale, their mean and variance over the 4096 columns taken in
four chunks of 1024, and the normalised values times the gain plus the shift, stored chunk by chunk.

So each accumulator after a run of eight points is the sum over the eight column blocks of the row-by-row products, which
is the full contraction over the 4096 columns; the four chunk sums regroup into one sum over the 4096 columns; and the
output array, covered by the 16 blocks written at the points t % 8 = 7, is the specification's kernel-grouped value
`Cert.Spec.normedK` index by index (`arrAt0_eq`).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

theorem dot64_lhs0 (i : S512x64.Idx) (q : dot_S512x512_S64x512_S512x64_1_1_0_0_n_n.contr.Idx) : (dot_S512x512_S64x512_S512x64_1_1_0_0_n_n.lhsIdx i q 0).val = (i 0).val := by
  unfold DotDims.lhsIdx
  rw [dif_neg (show ¬(0 : Fin S512x512.rank) ∈ dot_S512x512_S64x512_S512x64_1_1_0_0_n_n.lhsBatch by decide), dif_pos (show (0 : Fin S512x512.rank) ∈ dot_S512x512_S64x512_S512x64_1_1_0_0_n_n.lhsNonContracting by decide)]
  rfl
theorem dot64_lhs1 (i : S512x64.Idx) (q : dot_S512x512_S64x512_S512x64_1_1_0_0_n_n.contr.Idx) : (dot_S512x512_S64x512_S512x64_1_1_0_0_n_n.lhsIdx i q 1).val = (q ⟨0, by decide⟩).val :=
  dot_S512x512_S64x512_S512x64_1_1_0_0_n_n.lhsIdx_val_of_single rfl i q
theorem dot64_rhs0 (i : S512x64.Idx) (q : dot_S512x512_S64x512_S512x64_1_1_0_0_n_n.contr.Idx) : (dot_S512x512_S64x512_S512x64_1_1_0_0_n_n.rhsIdx i q 0).val = (i 1).val := by
  unfold DotDims.rhsIdx
  rw [dif_neg (show ¬(0 : Fin S64x512.rank) ∈ dot_S512x512_S64x512_S512x64_1_1_0_0_n_n.rhsBatch by decide), dif_pos (show (0 : Fin S64x512.rank) ∈ dot_S512x512_S64x512_S512x64_1_1_0_0_n_n.rhsNonContracting by decide)]
  rfl
theorem dot64_rhs1 (i : S512x64.Idx) (q : dot_S512x512_S64x512_S512x64_1_1_0_0_n_n.contr.Idx) : (dot_S512x512_S64x512_S512x64_1_1_0_0_n_n.rhsIdx i q 1).val = (q ⟨0, by decide⟩).val :=
  dot_S512x512_S64x512_S512x64_1_1_0_0_n_n.rhsIdx_val_of_single rfl i q

/-- A [512,512] block against a [64,512] block, second axes contracted, into the zero splat, at (b, p): the sum over the 512 shared columns. -/
theorem dot64_apply (l : FVec Ideal S512x512 .bf16) (r : FVec Ideal S64x512 .bf16) (b : Fin 512) (p : Fin 64) :
    matmul dot_S512x512_S64x512_S512x64_1_1_0_0_n_n none l r (constant S512x64 .f32 0x00000000#32) (ix2 b p)
      = ∑ k : Fin 512, l (ix2 b k) * r (ix2 p k) := by
  refine (Ideal.matmul_constant_zero_apply dot_S512x512_S64x512_S512x64_1_1_0_0_n_n none l r (ix2 b p)).trans ?_
  rw [← Equiv.sum_comp (contrEquiv1 dot_S512x512_S64x512_S512x64_1_1_0_0_n_n 512 rfl rfl).symm]
  refine Finset.sum_congr rfl fun k _ => ?_
  have hk := contrEquiv1_symm_val dot_S512x512_S64x512_S512x64_1_1_0_0_n_n 512 rfl rfl k
  have el : dot_S512x512_S64x512_S512x64_1_1_0_0_n_n.lhsIdx (ix2 b p) ((contrEquiv1 dot_S512x512_S64x512_S512x64_1_1_0_0_n_n 512 rfl rfl).symm k) = ix2 b k :=
    funext fun a => Fin.ext (by
      match a with
      | ⟨0, _⟩ => exact dot64_lhs0 _ _
      | ⟨1, _⟩ => exact (dot64_lhs1 _ _).trans hk)
  have er : dot_S512x512_S64x512_S512x64_1_1_0_0_n_n.rhsIdx (ix2 b p) ((contrEquiv1 dot_S512x512_S64x512_S512x64_1_1_0_0_n_n 512 rfl rfl).symm k) = ix2 p k :=
    funext fun a => Fin.ext (by
      match a with
      | ⟨0, _⟩ => exact dot64_rhs0 _ _
      | ⟨1, _⟩ => exact (dot64_rhs1 _ _).trans hk)
  rw [el, er]

theorem dot4096_lhs0 (i : S512x4096.Idx) (q : dot_S512x512_S4096x512_S512x4096_1_1_0_0_n_n.contr.Idx) : (dot_S512x512_S4096x512_S512x4096_1_1_0_0_n_n.lhsIdx i q 0).val = (i 0).val := by
  unfold DotDims.lhsIdx
  rw [dif_neg (show ¬(0 : Fin S512x512.rank) ∈ dot_S512x512_S4096x512_S512x4096_1_1_0_0_n_n.lhsBatch by decide), dif_pos (show (0 : Fin S512x512.rank) ∈ dot_S512x512_S4096x512_S512x4096_1_1_0_0_n_n.lhsNonContracting by decide)]
  rfl
theorem dot4096_lhs1 (i : S512x4096.Idx) (q : dot_S512x512_S4096x512_S512x4096_1_1_0_0_n_n.contr.Idx) : (dot_S512x512_S4096x512_S512x4096_1_1_0_0_n_n.lhsIdx i q 1).val = (q ⟨0, by decide⟩).val :=
  dot_S512x512_S4096x512_S512x4096_1_1_0_0_n_n.lhsIdx_val_of_single rfl i q
theorem dot4096_rhs0 (i : S512x4096.Idx) (q : dot_S512x512_S4096x512_S512x4096_1_1_0_0_n_n.contr.Idx) : (dot_S512x512_S4096x512_S512x4096_1_1_0_0_n_n.rhsIdx i q 0).val = (i 1).val := by
  unfold DotDims.rhsIdx
  rw [dif_neg (show ¬(0 : Fin S4096x512.rank) ∈ dot_S512x512_S4096x512_S512x4096_1_1_0_0_n_n.rhsBatch by decide), dif_pos (show (0 : Fin S4096x512.rank) ∈ dot_S512x512_S4096x512_S512x4096_1_1_0_0_n_n.rhsNonContracting by decide)]
  rfl
theorem dot4096_rhs1 (i : S512x4096.Idx) (q : dot_S512x512_S4096x512_S512x4096_1_1_0_0_n_n.contr.Idx) : (dot_S512x512_S4096x512_S512x4096_1_1_0_0_n_n.rhsIdx i q 1).val = (q ⟨0, by decide⟩).val :=
  dot_S512x512_S4096x512_S512x4096_1_1_0_0_n_n.rhsIdx_val_of_single rfl i q

/-- A [512,512] block against a [4096,512] block, second axes contracted, into the zero splat, at (b, p): the sum over the 512 shared columns. -/
theorem dot4096_apply (l : FVec Ideal S512x512 .bf16) (r : FVec Ideal S4096x512 .bf16) (b : Fin 512) (p : Fin 4096) :
    matmul dot_S512x512_S4096x512_S512x4096_1_1_0_0_n_n none l r (constant S512x4096 .f32 0x00000000#32) (ix2 b p)
      = ∑ k : Fin 512, l (ix2 b k) * r (ix2 p k) := by
  refine (Ideal.matmul_constant_zero_apply dot_S512x512_S4096x512_S512x4096_1_1_0_0_n_n none l r (ix2 b p)).trans ?_
  rw [← Equiv.sum_comp (contrEquiv1 dot_S512x512_S4096x512_S512x4096_1_1_0_0_n_n 512 rfl rfl).symm]
  refine Finset.sum_congr rfl fun k _ => ?_
  have hk := contrEquiv1_symm_val dot_S512x512_S4096x512_S512x4096_1_1_0_0_n_n 512 rfl rfl k
  have el : dot_S512x512_S4096x512_S512x4096_1_1_0_0_n_n.lhsIdx (ix2 b p) ((contrEquiv1 dot_S512x512_S4096x512_S512x4096_1_1_0_0_n_n 512 rfl rfl).symm k) = ix2 b k :=
    funext fun a => Fin.ext (by
      match a with
      | ⟨0, _⟩ => exact dot4096_lhs0 _ _
      | ⟨1, _⟩ => exact (dot4096_lhs1 _ _).trans hk)
  have er : dot_S512x512_S4096x512_S512x4096_1_1_0_0_n_n.rhsIdx (ix2 b p) ((contrEquiv1 dot_S512x512_S4096x512_S512x4096_1_1_0_0_n_n 512 rfl rfl).symm k) = ix2 p k :=
    funext fun a => Fin.ext (by
      match a with
      | ⟨0, _⟩ => exact dot4096_rhs0 _ _
      | ⟨1, _⟩ => exact (dot4096_rhs1 _ _).trans hk)
  rw [el, er]

/-- The key-projection accumulator's step at (b, p): what it held plus the blocks' product there. -/
theorem pay22_apply (v3 : Vec Ideal S512x512 .f32) (v5 : Vec Ideal S512x64 .f32) (v6 : Vec Ideal S64x512 .bf16) (b : Fin 512) (p : Fin 64) :
    k0_pay22 (F := Ideal) v3 v5 v6 (ix2 b p) = v5 (ix2 b p) + ∑ k : Fin 512, v3 (ix2 b k) * v6 (ix2 p k) := by
  unfold k0_pay22 k0_pay21
  simp only [shapeCast_self]
  refine (addf_apply _ _ _).trans ?_
  exact congrArg (v5 (ix2 b p) + ·) (dot64_apply _ _ b p)

/-- The query-projection accumulator's step at (b, p). -/
theorem pay23_apply (v3 : Vec Ideal S512x512 .f32) (v13 : Vec Ideal S512x64 .f32) (v14 : Vec Ideal S64x512 .bf16) (b : Fin 512) (p : Fin 64) :
    k0_pay23 (F := Ideal) v3 v13 v14 (ix2 b p) = v13 (ix2 b p) + ∑ k : Fin 512, v3 (ix2 b k) * v14 (ix2 p k) := by
  unfold k0_pay23 k0_pay21
  simp only [shapeCast_self]
  refine (addf_apply _ _ _).trans ?_
  exact congrArg (v13 (ix2 b p) + ·) (dot64_apply _ _ b p)

/-- The value accumulator's step at (b, d). -/
theorem pay24_apply (v3 : Vec Ideal S512x512 .f32) (v21 : Vec Ideal S512x4096 .f32) (v22 : Vec Ideal S4096x512 .bf16) (b : Fin 512) (d : Fin 4096) :
    k0_pay24 (F := Ideal) v3 v21 v22 (ix2 b d) = v21 (ix2 b d) + ∑ k : Fin 512, v3 (ix2 b k) * v22 (ix2 d k) := by
  unfold k0_pay24 k0_pay21
  simp only [shapeCast_self]
  refine (addf_apply _ _ _).trans ?_
  exact congrArg (v21 (ix2 b d) + ·) (dot4096_apply _ _ b d)

/-- The reset stores zero everywhere. -/
theorem pay18_apply (j : S512x4096.Idx) : k0_pay18 (F := Ideal) j = 0 := by
  unfold k0_pay18; simp only [shapeCast_self]; exact Ideal.ofBits_zero_f32
theorem pay19_apply (j : S512x64.Idx) : k0_pay19 (F := Ideal) j = 0 := by
  unfold k0_pay19; simp only [shapeCast_self]; exact Ideal.ofBits_zero_f32
theorem pay20_apply (j : S512x64.Idx) : k0_pay20 (F := Ideal) j = 0 := by
  unfold k0_pay20; simp only [shapeCast_self]; exact Ideal.ofBits_zero_f32

/-! ### Layout forms of a kept reduced axis, and the elementwise functions, read at an index -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

section Unary
variable {s : Shape} {φ : FTy}
theorem tanh_apply (a : FVec Ideal s φ) (i : s.Idx) : tanh a i = Ideal.tanh (a i) := rfl
theorem cos_apply (a : FVec Ideal s φ) (i : s.Idx) : cos a i = Ideal.cos (a i) := rfl
theorem exp_apply (a : FVec Ideal s φ) (i : s.Idx) : exp a i = Ideal.exp (a i) := rfl
theorem log1p_apply (a : FVec Ideal s φ) (i : s.Idx) : log1p a i = Ideal.log1p (a i) := rfl
theorem rsqrt_apply (a : FVec Ideal s φ) (i : s.Idx) : rsqrt a i = Ideal.rsqrt (a i) := rfl
theorem absf_apply (a : FVec Ideal s φ) (i : s.Idx) : absf a i = max (a i) (-(a i)) := rfl
end Unary

/-- "Ordered and not equal" of a value with itself never holds on the extended reals. -/
theorem cmp_one_self (x : EReal) : Ideal.cmp .one x x = 0#1 := by
  simp [Ideal.cmp]

/-- The index over row `b` with lane `p` put back. -/
theorem lift64 (b : Fin 512) (p : Fin 64) : reduces_S512x64_S512.lift (ix1 b) p = ix2 b p :=
  funext fun c => Fin.ext (by
    match c with
    | ⟨0, _⟩ => rfl
    | ⟨1, _⟩ => rfl)
theorem lift1024 (b : Fin 512) (d : Fin 1024) : reduces_S512x1024_S512.lift (ix1 b) d = ix2 b d :=
  funext fun c => Fin.ext (by
    match c with
    | ⟨0, _⟩ => rfl
    | ⟨1, _⟩ => rfl)

/-- A sum over the lanes, at row `b`, with the lane put back as the second coordinate. -/
theorem reduceAdd64 (src : S512x64.Idx → EReal) (b : Fin 512) :
    Ideal.reduceAdd reduces_S512x64_S512 src (ix1 b) = ∑ p : Fin 64, src (ix2 b p) :=
  (Ideal.reduceAdd_single reduces_S512x64_S512 src (ix1 b)).trans (Finset.sum_congr rfl fun p _ => congrArg src (lift64 b p))
theorem reduceAdd1024 (src : S512x1024.Idx → EReal) (b : Fin 512) :
    Ideal.reduceAdd reduces_S512x1024_S512 src (ix1 b) = ∑ d : Fin 1024, src (ix2 b d) :=
  (Ideal.reduceAdd_single reduces_S512x1024_S512 src (ix1 b)).trans (Finset.sum_congr rfl fun d _ => congrArg src (lift1024 b d))

/-! ### The row scale -/

/-- A block row's phase alignment, from the two projection accumulators and the two biases. -/
def alignB (kp : FVec Ideal S512x64 .f32) (bk : FVec Ideal S64 .f32) (qp : FVec Ideal S512x64 .f32) (bq : FVec Ideal S64 .f32) (b : Fin 512) : EReal :=
  ∑ p : Fin 64, Ideal.cos (Ideal.tanh (kp (ix2 b p) + bk (ix1 p)) * Cert.Spec.cPi - Ideal.tanh (qp (ix2 b p) + bq (ix1 p)) * Cert.Spec.cPi)

/-- A block row's scale: alignment times its softplus gain, over 64. -/
def scaleB (kp : FVec Ideal S512x64 .f32) (bk : FVec Ideal S64 .f32) (qp : FVec Ideal S512x64 .f32) (bq : FVec Ideal S64 .f32) (b : Fin 512) : EReal :=
  (alignB kp bk qp bq b * Cert.Spec.softplusBody (alignB kp bk qp bq b * Cert.Spec.cInv64 + Cert.Spec.cHalf)) * Cert.Spec.cInv64

theorem pay1_apply (v32 : Vec Ideal S512x64 .f32) (v33 : Vec Ideal S64 .f32) (v40 : Vec Ideal S512x64 .f32) (v41 : Vec Ideal S64 .f32) (b : Fin 512) (u : Fin 1) :
    k0_pay1 (F := Ideal) v32 v33 v40 v41 (ix2 b u) = scaleB v32 v33 v40 v41 b := by
  unfold k0_pay1 scaleB alignB Cert.Spec.softplusBody
  simp only [mulf_apply, addf_apply, subf_apply, maximumf_apply, broadcast_apply, select_apply, cmpf_apply, Ideal.cmpf_def,
    cmp_one_self, select_zero, shapeCast_a_a1_apply, multiReduction, Ideal.reduceAdd_def, reduceAdd64, tanh_apply, cos_apply, exp_apply, log1p_apply, absf_apply,
    broadcastTo_1b_ab_apply, shapeCast_a_1a_apply, Ideal.ofBits_def, Ideal.ofBits_zero_f32, zero_sub, Cert.Spec.cPi, Cert.Spec.cInv64, Cert.Spec.cHalf, Cert.Spec.cZero]

/-! ### The epilogue's chunks -/

/-- The two running sums start from zero. -/
theorem pay2_apply (j : S512x1.Idx) : k0_pay2 (F := Ideal) j = 0 := by
  unfold k0_pay2; exact Ideal.ofBits_zero_f32
theorem pay3_apply (j : S512x1.Idx) : k0_pay3 (F := Ideal) j = 0 := by
  unfold k0_pay3; exact Ideal.ofBits_zero_f32

theorem pay4_apply (v72 : FVec Ideal S512x1 .f32) (v78 : Vec Ideal S512x1024 .f32) (v80 : Vec Ideal S1024 .f32) (b : Fin 512) (d : Fin 1024) :
    k0_pay4 (F := Ideal) v72 v78 v80 (ix2 b d) = (v78 (ix2 b d) + v80 (ix1 d)) * v72 (ix2 b (0 : Fin 1)) := by
  unfold k0_pay4
  simp only [mulf_apply, addf_apply, subf_apply, broadcast_apply, shapeCast_a_a1_apply, multiReduction, Ideal.reduceAdd_def, reduceAdd1024, rsqrt_apply, broadcastTo_1b_ab_apply, broadcastTo_a1_ab_apply, shapeCast_a_1a_apply, truncf_apply, Ideal.ofBits_def]

theorem pay5_apply (v72 : FVec Ideal S512x1 .f32) (v96 : Vec Ideal S512x1024 .f32) (v98 : Vec Ideal S1024 .f32) (b : Fin 512) (d : Fin 1024) :
    k0_pay5 (F := Ideal) v72 v96 v98 (ix2 b d) = (v96 (ix2 b d) + v98 (ix1 d)) * v72 (ix2 b (0 : Fin 1)) := by
  unfold k0_pay5
  simp only [mulf_apply, addf_apply, subf_apply, broadcast_apply, shapeCast_a_a1_apply, multiReduction, Ideal.reduceAdd_def, reduceAdd1024, rsqrt_apply, broadcastTo_1b_ab_apply, broadcastTo_a1_ab_apply, shapeCast_a_1a_apply, truncf_apply, Ideal.ofBits_def]

theorem pay8_apply (v72 : FVec Ideal S512x1 .f32) (v114 : Vec Ideal S512x1024 .f32) (v116 : Vec Ideal S1024 .f32) (b : Fin 512) (d : Fin 1024) :
    k0_pay8 (F := Ideal) v72 v114 v116 (ix2 b d) = (v114 (ix2 b d) + v116 (ix1 d)) * v72 (ix2 b (0 : Fin 1)) := by
  unfold k0_pay8
  simp only [mulf_apply, addf_apply, subf_apply, broadcast_apply, shapeCast_a_a1_apply, multiReduction, Ideal.reduceAdd_def, reduceAdd1024, rsqrt_apply, broadcastTo_1b_ab_apply, broadcastTo_a1_ab_apply, shapeCast_a_1a_apply, truncf_apply, Ideal.ofBits_def]

theorem pay9_apply (v72 : FVec Ideal S512x1 .f32) (v132 : Vec Ideal S512x1024 .f32) (v134 : Vec Ideal S1024 .f32) (b : Fin 512) (d : Fin 1024) :
    k0_pay9 (F := Ideal) v72 v132 v134 (ix2 b d) = (v132 (ix2 b d) + v134 (ix1 d)) * v72 (ix2 b (0 : Fin 1)) := by
  unfold k0_pay9
  simp only [mulf_apply, addf_apply, subf_apply, broadcast_apply, shapeCast_a_a1_apply, multiReduction, Ideal.reduceAdd_def, reduceAdd1024, rsqrt_apply, broadcastTo_1b_ab_apply, broadcastTo_a1_ab_apply, shapeCast_a_1a_apply, truncf_apply, Ideal.ofBits_def]

/-- The sum after the first two chunks. -/
theorem pay6_apply (v72 v73 : FVec Ideal S512x1 .f32) (v78 : Vec Ideal S512x1024 .f32) (v80 : Vec Ideal S1024 .f32) (v96 : Vec Ideal S512x1024 .f32) (v98 : Vec Ideal S1024 .f32) (b : Fin 512) (u : Fin 1) :
    k0_pay6 (F := Ideal) v72 v73 v78 v80 v96 v98 (ix2 b u)
      = (v73 (ix2 b u) + ∑ d : Fin 1024, (v78 (ix2 b d) + v80 (ix1 d)) * v72 (ix2 b (0 : Fin 1))) + ∑ d : Fin 1024, (v96 (ix2 b d) + v98 (ix1 d)) * v72 (ix2 b (0 : Fin 1)) := by
  unfold k0_pay6
  simp only [mulf_apply, addf_apply, subf_apply, broadcast_apply, shapeCast_a_a1_apply, multiReduction, Ideal.reduceAdd_def, reduceAdd1024, rsqrt_apply, broadcastTo_1b_ab_apply, broadcastTo_a1_ab_apply, shapeCast_a_1a_apply, truncf_apply, Ideal.ofBits_def, pay4_apply, pay5_apply]

/-- The sum of squares after the first two chunks. -/
theorem pay7_apply (v72 v74 : FVec Ideal S512x1 .f32) (v78 : Vec Ideal S512x1024 .f32) (v80 : Vec Ideal S1024 .f32) (v96 : Vec Ideal S512x1024 .f32) (v98 : Vec Ideal S1024 .f32) (b : Fin 512) (u : Fin 1) :
    k0_pay7 (F := Ideal) v72 v74 v78 v80 v96 v98 (ix2 b u)
      = (v74 (ix2 b u) + ∑ d : Fin 1024, ((v78 (ix2 b d) + v80 (ix1 d)) * v72 (ix2 b (0 : Fin 1))) * ((v78 (ix2 b d) + v80 (ix1 d)) * v72 (ix2 b (0 : Fin 1)))) + ∑ d : Fin 1024, ((v96 (ix2 b d) + v98 (ix1 d)) * v72 (ix2 b (0 : Fin 1))) * ((v96 (ix2 b d) + v98 (ix1 d)) * v72 (ix2 b (0 : Fin 1))) := by
  unfold k0_pay7
  simp only [mulf_apply, addf_apply, subf_apply, broadcast_apply, shapeCast_a_a1_apply, multiReduction, Ideal.reduceAdd_def, reduceAdd1024, rsqrt_apply, broadcastTo_1b_ab_apply, broadcastTo_a1_ab_apply, shapeCast_a_1a_apply, truncf_apply, Ideal.ofBits_def, pay4_apply, pay5_apply]

/-- The mean: the sum over the four chunks, over 4096. -/
theorem pay10_apply (v72 v106 : FVec Ideal S512x1 .f32) (v121 : FVec Ideal S512x1024 .f32) (v132 : Vec Ideal S512x1024 .f32) (v134 : Vec Ideal S1024 .f32) (b : Fin 512) (u : Fin 1) :
    k0_pay10 (F := Ideal) v72 v106 v121 v132 v134 (ix2 b u)
      = ((v106 (ix2 b u) + ∑ d : Fin 1024, v121 (ix2 b d)) + ∑ d : Fin 1024, (v132 (ix2 b d) + v134 (ix1 d)) * v72 (ix2 b (0 : Fin 1))) * Cert.Spec.cInv4096 := by
  unfold k0_pay10
  simp only [mulf_apply, addf_apply, subf_apply, broadcast_apply, shapeCast_a_a1_apply, multiReduction, Ideal.reduceAdd_def, reduceAdd1024, rsqrt_apply, broadcastTo_1b_ab_apply, broadcastTo_a1_ab_apply, shapeCast_a_1a_apply, truncf_apply, Ideal.ofBits_def, pay9_apply, Cert.Spec.cInv4096]

/-- The reciprocal standard deviation. -/
theorem pay11_apply (v72 v106 v110 : FVec Ideal S512x1 .f32) (v121 : FVec Ideal S512x1024 .f32) (v132 : Vec Ideal S512x1024 .f32) (v134 : Vec Ideal S1024 .f32) (b : Fin 512) (u : Fin 1) :
    k0_pay11 (F := Ideal) v72 v106 v110 v121 v132 v134 (ix2 b u)
      = Ideal.rsqrt ((((v110 (ix2 b u) + ∑ d : Fin 1024, v121 (ix2 b d) * v121 (ix2 b d)) + ∑ d : Fin 1024, ((v132 (ix2 b d) + v134 (ix1 d)) * v72 (ix2 b (0 : Fin 1))) * ((v132 (ix2 b d) + v134 (ix1 d)) * v72 (ix2 b (0 : Fin 1)))) * Cert.Spec.cInv4096
          - k0_pay10 (F := Ideal) v72 v106 v121 v132 v134 (ix2 b u) * k0_pay10 (F := Ideal) v72 v106 v121 v132 v134 (ix2 b u)) + Cert.Spec.cEps) := by
  unfold k0_pay11
  simp only [mulf_apply, addf_apply, subf_apply, broadcast_apply, shapeCast_a_a1_apply, multiReduction, Ideal.reduceAdd_def, reduceAdd1024, rsqrt_apply, broadcastTo_1b_ab_apply, broadcastTo_a1_ab_apply, shapeCast_a_1a_apply, truncf_apply, Ideal.ofBits_def, pay9_apply, Cert.Spec.cInv4096, Cert.Spec.cEps]

/-- The first chunk, centred. -/
theorem pay12_apply (v72 v106 : FVec Ideal S512x1 .f32) (v121 : FVec Ideal S512x1024 .f32) (v132 : Vec Ideal S512x1024 .f32) (v134 : Vec Ideal S1024 .f32) (v159 : Vec Ideal S512x1024 .f32) (v161 : Vec Ideal S1024 .f32) (b : Fin 512) (d : Fin 1024) :
    k0_pay12 (F := Ideal) v72 v106 v121 v132 v134 v159 v161 (ix2 b d)
      = (v159 (ix2 b d) + v161 (ix1 d)) * v72 (ix2 b (0 : Fin 1)) - k0_pay10 (F := Ideal) v72 v106 v121 v132 v134 (ix2 b (0 : Fin 1)) := by
  unfold k0_pay12
  simp only [mulf_apply, addf_apply, subf_apply, broadcast_apply, shapeCast_a_a1_apply, multiReduction, Ideal.reduceAdd_def, reduceAdd1024, rsqrt_apply, broadcastTo_1b_ab_apply, broadcastTo_a1_ab_apply, shapeCast_a_1a_apply, truncf_apply, Ideal.ofBits_def]

/-- The first output chunk. -/
theorem pay13_apply (v155 : FVec Ideal S512x1 .f32) (v168 : FVec Ideal S512x1024 .f32) (v172 v177 : Vec Ideal S1024 .f32) (b : Fin 512) (d : Fin 1024) :
    k0_pay13 (F := Ideal) v155 v168 v172 v177 (ix2 b d) = ((v168 (ix2 b d) * v155 (ix2 b (0 : Fin 1))) * v172 (ix1 d)) + v177 (ix1 d) := by
  unfold k0_pay13
  simp only [mulf_apply, addf_apply, subf_apply, broadcast_apply, shapeCast_a_a1_apply, multiReduction, Ideal.reduceAdd_def, reduceAdd1024, rsqrt_apply, broadcastTo_1b_ab_apply, broadcastTo_a1_ab_apply, shapeCast_a_1a_apply, truncf_apply, Ideal.ofBits_def]

theorem pay15_apply (v217 : Vec Ideal S1024 .f32) (d : Fin 1024) : k0_pay15 (F := Ideal) v217 (ix2 (0 : Fin 1) d) = v217 (ix1 d) := by
  unfold k0_pay15
  simp only [mulf_apply, addf_apply, subf_apply, broadcast_apply, shapeCast_a_a1_apply, multiReduction, Ideal.reduceAdd_def, reduceAdd1024, rsqrt_apply, broadcastTo_1b_ab_apply, broadcastTo_a1_ab_apply, shapeCast_a_1a_apply, truncf_apply, Ideal.ofBits_def]

theorem pay14_apply (v72 : FVec Ideal S512x1 .f32) (v148 : FVec Ideal S512x1 .f32) (v155 : FVec Ideal S512x1 .f32) (v187 : Vec Ideal S512x1024 .f32) (v189 : Vec Ideal S1024 .f32) (v200 : Vec Ideal S1024 .f32) (v205 : Vec Ideal S1024 .f32) (b : Fin 512) (d : Fin 1024) :
    k0_pay14 (F := Ideal) v72 v148 v155 v187 v189 v200 v205 (ix2 b d)
      = ((((v187 (ix2 b d) + v189 (ix1 d)) * v72 (ix2 b (0 : Fin 1)) - v148 (ix2 b (0 : Fin 1))) * v155 (ix2 b (0 : Fin 1))) * v200 (ix1 d)) + v205 (ix1 d) := by
  unfold k0_pay14
  simp only [mulf_apply, addf_apply, subf_apply, broadcast_apply, shapeCast_a_a1_apply, multiReduction, Ideal.reduceAdd_def, reduceAdd1024, rsqrt_apply, broadcastTo_1b_ab_apply, broadcastTo_a1_ab_apply, shapeCast_a_1a_apply, truncf_apply, Ideal.ofBits_def]

theorem pay16_apply (v72 : FVec Ideal S512x1 .f32) (v148 : FVec Ideal S512x1 .f32) (v155 : FVec Ideal S512x1 .f32) (v215 : Vec Ideal S512x1024 .f32) (v218 : FVec Ideal S1x1024 .f32) (v228 : Vec Ideal S1024 .f32) (v233 : Vec Ideal S1024 .f32) (b : Fin 512) (d : Fin 1024) :
    k0_pay16 (F := Ideal) v72 v148 v155 v215 v218 v228 v233 (ix2 b d)
      = ((((v215 (ix2 b d) + v218 (ix2 (0 : Fin 1) d)) * v72 (ix2 b (0 : Fin 1)) - v148 (ix2 b (0 : Fin 1))) * v155 (ix2 b (0 : Fin 1))) * v228 (ix1 d)) + v233 (ix1 d) := by
  unfold k0_pay16
  simp only [mulf_apply, addf_apply, subf_apply, broadcast_apply, shapeCast_a_a1_apply, multiReduction, Ideal.reduceAdd_def, reduceAdd1024, rsqrt_apply, broadcastTo_1b_ab_apply, broadcastTo_a1_ab_apply, shapeCast_a_1a_apply, truncf_apply, Ideal.ofBits_def]

theorem pay17_apply (v72 : FVec Ideal S512x1 .f32) (v148 : FVec Ideal S512x1 .f32) (v155 : FVec Ideal S512x1 .f32) (v243 : Vec Ideal S512x1024 .f32) (v245 : Vec Ideal S1024 .f32) (v256 : Vec Ideal S1024 .f32) (v261 : Vec Ideal S1024 .f32) (b : Fin 512) (d : Fin 1024) :
    k0_pay17 (F := Ideal) v72 v148 v155 v243 v245 v256 v261 (ix2 b d)
      = ((((v243 (ix2 b d) + v245 (ix1 d)) * v72 (ix2 b (0 : Fin 1)) - v148 (ix2 b (0 : Fin 1))) * v155 (ix2 b (0 : Fin 1))) * v256 (ix1 d)) + v261 (ix1 d) := by
  unfold k0_pay17
  simp only [mulf_apply, addf_apply, subf_apply, broadcast_apply, shapeCast_a_a1_apply, multiReduction, Ideal.reduceAdd_def, reduceAdd1024, rsqrt_apply, broadcastTo_1b_ab_apply, broadcastTo_a1_ab_apply, shapeCast_a_1a_apply, truncf_apply, Ideal.ofBits_def]

/-! ### The epilogue on one row block, from the three accumulators and the five parameter vectors -/

/-- The scaled values of a block row. -/
def oB (kp : FVec Ideal S512x64 .f32) (bk : FVec Ideal S64 .f32) (qp : FVec Ideal S512x64 .f32) (bq : FVec Ideal S64 .f32)
    (va : FVec Ideal S512x4096 .f32) (bv : FVec Ideal S4096 .f32) (b : Fin 512) (d : Fin 4096) : EReal :=
  (va (ix2 b d) + bv (ix1 d)) * scaleB kp bk qp bq b

/-- A sum over the 4096 columns as the kernel takes it: chunk by chunk, from zero. -/
def sumB (f : Fin 4096 → EReal) : EReal :=
  (((0 + ∑ d : Fin 1024, f ⟨0 + d.val, by omega⟩) + ∑ d : Fin 1024, f ⟨1024 + d.val, by omega⟩) + ∑ d : Fin 1024, f ⟨2048 + d.val, by omega⟩)
    + ∑ d : Fin 1024, f ⟨3072 + d.val, by omega⟩

def muB (kp : FVec Ideal S512x64 .f32) (bk : FVec Ideal S64 .f32) (qp : FVec Ideal S512x64 .f32) (bq : FVec Ideal S64 .f32)
    (va : FVec Ideal S512x4096 .f32) (bv : FVec Ideal S4096 .f32) (b : Fin 512) : EReal :=
  sumB (fun d => oB kp bk qp bq va bv b d) * Cert.Spec.cInv4096

def rsB (kp : FVec Ideal S512x64 .f32) (bk : FVec Ideal S64 .f32) (qp : FVec Ideal S512x64 .f32) (bq : FVec Ideal S64 .f32)
    (va : FVec Ideal S512x4096 .f32) (bv : FVec Ideal S4096 .f32) (b : Fin 512) : EReal :=
  Ideal.rsqrt ((sumB (fun d => oB kp bk qp bq va bv b d * oB kp bk qp bq va bv b d) * Cert.Spec.cInv4096
    - muB kp bk qp bq va bv b * muB kp bk qp bq va bv b) + Cert.Spec.cEps)

def normB (kp : FVec Ideal S512x64 .f32) (bk : FVec Ideal S64 .f32) (qp : FVec Ideal S512x64 .f32) (bq : FVec Ideal S64 .f32)
    (va : FVec Ideal S512x4096 .f32) (bv lng lnb : FVec Ideal S4096 .f32) (b : Fin 512) (d : Fin 4096) : EReal :=
  (((oB kp bk qp bq va bv b d - muB kp bk qp bq va bv b) * rsB kp bk qp bq va bv b) * lng (ix1 d)) + lnb (ix1 d)

/-- A chunk of a parameter vector, at d: the vector at offset + d. -/
theorem ld1_apply {Val : EltTy → Type} {e : EltTy} (X : S4096.Idx → Val e) (o : ℕ) (inb : ∀ a, (![o] : Fin 1 → ℕ) a + S1024.size a ≤ S4096.size a) (d : Fin 1024) (h : o + d.val < 4096) :
    View.ld (S := S4096) X (Rect.unit (s := S4096) ![o] S1024.size inb) (ix1 d) = X (ix1 ⟨o + d.val, h⟩) := by
  refine congrArg X (funext fun a => Fin.ext ?_)
  match a with
  | ⟨0, _⟩ => show o + 1 * d.val = o + d.val; omega

/-! ### From the chunked and blocked sums to the specification -/

/-- Four chunks of 1024, from zero, are the sum over 4096. -/
theorem sumB_eq (f : Fin 4096 → EReal) : sumB f = ∑ j : Fin 4096, f j := by
  unfold sumB
  rw [← Equiv.sum_comp (finProdFinEquiv : Fin 4 × Fin 1024 ≃ Fin 4096) f, Fintype.sum_prod_type, Fin.sum_univ_four, zero_add]
  refine congrArg₂ (· + ·) (congrArg₂ (· + ·) (congrArg₂ (· + ·) ?_ ?_) ?_) ?_
  · exact Finset.sum_congr rfl fun d _ => congrArg f (Fin.ext (by show 0 + d.val = d.val + 1024 * 0; omega))
  · exact Finset.sum_congr rfl fun d _ => congrArg f (Fin.ext (by show 1024 + d.val = d.val + 1024 * 1; omega))
  · exact Finset.sum_congr rfl fun d _ => congrArg f (Fin.ext (by show 2048 + d.val = d.val + 1024 * 2; omega))
  · exact Finset.sum_congr rfl fun d _ => congrArg f (Fin.ext (by show 3072 + d.val = d.val + 1024 * 3; omega))

/-- A sum over 4096 is eight runs of 512. -/
theorem sum_eight_blocks {M : Type*} [AddCommMonoid M] (f : ℕ → M) :
    ∑ e : Fin 4096, f e.val = ∑ s : Fin 8, ∑ k : Fin 512, f (512 * s.val + k.val) := by
  rw [← Equiv.sum_comp (finProdFinEquiv : Fin 8 × Fin 512 ≃ Fin 4096) (fun e => f e.val), Fintype.sum_prod_type]
  refine Finset.sum_congr rfl fun s _ => Finset.sum_congr rfl fun k _ => congrArg f ?_
  show k.val + 512 * s.val = 512 * s.val + k.val
  omega

open Cert.Spec in
/-- The epilogue on a block row whose accumulators hold the row's three full contractions is the specification's row. -/
theorem normB_eq (kp : FVec Ideal S512x64 .f32) (qp : FVec Ideal S512x64 .f32) (va : FVec Ideal S512x4096 .f32)
    (x : FVec Ideal SBD .f32) (Wk : FVec Ideal SPD .f32) (bk : FVec Ideal SP .f32) (Wq : FVec Ideal SPD .f32) (bq : FVec Ideal SP .f32)
    (Wv : FVec Ideal SDD .f32) (bv lng lnb : FVec Ideal SD .f32) (R : Fin 8192) (b : Fin 512)
    (hkp : ∀ p : Fin 64, kp (ix2 b p) = proj x Wk R p) (hqp : ∀ p : Fin 64, qp (ix2 b p) = proj x Wq R p)
    (hva : ∀ d : Fin 4096, va (ix2 b d) = ∑ k : Fin 4096, x (ix2 R k) * Wv (ix2 d k)) (d : Fin 4096) :
    normB kp bk qp bq va bv lng lnb b d = normedK x Wk bk Wq bq Wv bv lng lnb R d := by
  have hal : alignB kp bk qp bq b = align x Wk bk Wq bq R := by
    unfold alignB align phase
    exact Finset.sum_congr rfl fun p _ => by rw [hkp p, hqp p]
  have hsc : scaleB kp bk qp bq b = scaleK x Wk bk Wq bq R := by
    unfold scaleB scaleK gainK; rw [hal]
  have ho : ∀ d : Fin 4096, oB kp bk qp bq va bv b d = outK x Wk bk Wq bq Wv bv R d := fun d => by
    unfold oB outK vals; rw [hva d, hsc]
  have hmu : muB kp bk qp bq va bv b = muK x Wk bk Wq bq Wv bv R := by
    unfold muB muK; rw [sumB_eq]
    exact congrArg (· * cInv4096) (Finset.sum_congr rfl fun d _ => ho d)
  have hrs : rsB kp bk qp bq va bv b = Ideal.rsqrt (varK x Wk bk Wq bq Wv bv R + cEps) := by
    unfold rsB varK; rw [sumB_eq, hmu]
    exact congrArg (fun z => Ideal.rsqrt ((z * cInv4096 - muK x Wk bk Wq bq Wv bv R * muK x Wk bk Wq bq Wv bv R) + cEps))
      (Finset.sum_congr rfl fun d _ => by rw [ho d])
  unfold normB normedK
  rw [ho d, hmu, hrs]

variable {F : FTy → Type} [FloatOps F]

theorem hz2 : (![0, 0] : Fin 2 → Nat) = fun _ => 0 := funext fun a => by fin_cases a <;> rfl

/-! ### What each case leaves in the three accumulators: one step of the three products -/

theorem sout_A_0 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay24 x0 (k0_pay18 (F := F)) x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_cons_unit_zero (S := S512x4096) hz2, View.readCov_unit_zero (S := S512x4096) _ hz2]
  simp only [View.readAt_eq_ld, harg2.read_unread, harg5.read_unread, View.ld_unit_zero (S := S512x512) hz2, View.ld_unit_zero (S := S4096x512) hz2]

theorem sout_A_1 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay22 x0 (k0_pay19 (F := F)) x1 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_cons_unit_zero (S := S512x64) hz2, View.readCov_unit_zero (S := S512x64) _ hz2]
  simp only [View.readAt_eq_ld, harg2.read_unread, harg3.read_unread, View.ld_unit_zero (S := S512x512) hz2, View.ld_unit_zero (S := S64x512) hz2]

theorem sout_A_2 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) :
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay23 x0 (k0_pay20 (F := F)) x2 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_cons_unit_zero (S := S512x64) hz2, View.readCov_unit_zero (S := S512x64) _ hz2]
  simp only [View.readAt_eq_ld, harg2.read_unread, harg4.read_unread, View.ld_unit_zero (S := S512x512) hz2, View.ld_unit_zero (S := S64x512) hz2]

theorem sout_B_0 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay24 x0 xs0 x3 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_B
  dsimp only
  rw [View.canon_unit_zero hz2]
  simp only [View.readAt_eq_ld, harg2.read_unread, harg5.read_unread, harg12.read_unread, View.ld_unit_zero (S := S512x512) hz2, View.ld_unit_zero (S := S4096x512) hz2, View.ld_unit_zero (S := S512x4096) hz2]

theorem sout_B_1 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay22 x0 xs1 x1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_B
  dsimp only
  rw [View.canon_unit_zero hz2]
  simp only [View.readAt_eq_ld, harg2.read_unread, harg3.read_unread, harg13.read_unread, View.ld_unit_zero (S := S512x512) hz2, View.ld_unit_zero (S := S64x512) hz2, View.ld_unit_zero (S := S512x64) hz2]

theorem sout_B_2 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : ¬cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) :
    sout0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay23 x0 xs2 x2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_B
  dsimp only
  rw [View.canon_unit_zero hz2]
  simp only [View.readAt_eq_ld, harg2.read_unread, harg4.read_unread, harg14.read_unread, View.ld_unit_zero (S := S512x512) hz2, View.ld_unit_zero (S := S64x512) hz2, View.ld_unit_zero (S := S512x64) hz2]

theorem sout_C_0 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay24 x0 xs0 x3 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_C
  dsimp only
  sl_unfold_words
  rw [View.canon_unit_zero hz2]
  simp only [View.readAt_eq_ld, harg2.read_unread, harg5.read_unread, harg12.read_unread, View.ld_unit_zero (S := S512x512) hz2, View.ld_unit_zero (S := S4096x512) hz2, View.ld_unit_zero (S := S512x4096) hz2]

theorem sout_C_1 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) :
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay22 x0 xs1 x1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_C
  dsimp only
  sl_unfold_words
  rw [View.canon_unit_zero hz2]
  simp only [View.readAt_eq_ld, harg2.read_unread, harg3.read_unread, harg13.read_unread, View.ld_unit_zero (S := S512x512) hz2, View.ld_unit_zero (S := S64x512) hz2, View.ld_unit_zero (S := S512x64) hz2]

theorem sout_C_2 (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) :
    sout0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay23 x0 xs2 x2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_C
  dsimp only
  sl_unfold_words
  rw [View.canon_unit_zero hz2]
  simp only [View.readAt_eq_ld, harg2.read_unread, harg4.read_unread, harg14.read_unread, View.ld_unit_zero (S := S512x512) hz2, View.ld_unit_zero (S := S64x512) hz2, View.ld_unit_zero (S := S512x64) hz2]

/-! ### The last step's loads of what it has just stored -/

theorem hz1 : (![0] : Fin 1 → Nat) = fun _ => 0 := funext fun a => by fin_cases a; rfl

theorem HS0_1_eq (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) :
    kernelRun0_C.sl.HS0_1 c arg2 harg2 arg5 harg5 arg12 harg12 x0 x3 xs0 = [(⟨Rect.unit ![0, 0] S512x4096.size inb_S512x4096_S512x4096_0_0, k0_pay24 x0 xs0 x3⟩ : View.Piece (Elt F) S512x4096 .f32)] := by
  unfold kernelRun0_C.sl.HS0_1
  simp only [View.readAt_eq_ld, harg2.read_unread, harg5.read_unread, harg12.read_unread, View.ld_unit_zero (S := S512x512) hz2, View.ld_unit_zero (S := S4096x512) hz2, View.ld_unit_zero (S := S512x4096) hz2]

theorem v32_eq (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) : kernelRun0_C.sl.v32 c arg2 harg2 arg3 harg3 arg13 harg13 x0 x1 xs1 = k0_pay22 x0 xs1 x1 := by
  unfold kernelRun0_C.sl.v32 kernelRun0_C.sl.HS1_1
  rw [View.readCov_unit_zero (S := S512x64) _ hz2]
  simp only [View.readAt_eq_ld, harg2.read_unread, harg3.read_unread, harg13.read_unread, View.ld_unit_zero (S := S512x512) hz2, View.ld_unit_zero (S := S64x512) hz2, View.ld_unit_zero (S := S512x64) hz2]

theorem v40_eq (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) : kernelRun0_C.sl.v40 c arg2 harg2 arg4 harg4 arg14 harg14 x0 x2 xs2 = k0_pay23 x0 xs2 x2 := by
  unfold kernelRun0_C.sl.v40 kernelRun0_C.sl.HS2_1
  rw [View.readCov_unit_zero (S := S512x64) _ hz2]
  simp only [View.readAt_eq_ld, harg2.read_unread, harg4.read_unread, harg14.read_unread, View.ld_unit_zero (S := S512x512) hz2, View.ld_unit_zero (S := S64x512) hz2, View.ld_unit_zero (S := S512x64) hz2]

/-- A column chunk of a [512,4096] array, at (b, d): the array at column offset + d. -/
theorem canon_chunk {α : EltTy → Type} [∀ e, Nonempty (α e)] {e : EltTy} (w : S512x4096.Idx → α e) (o : ℕ) (inb0) (inb : ∀ a, (![0, o] : Fin 2 → ℕ) a + S512x1024.size a ≤ S512x4096.size a) (b : Fin 512) (d : Fin 1024) (h : o + d.val < 4096) :
    View.canon [(⟨Rect.unit ![0, 0] S512x4096.size inb0, w⟩ : View.Piece α S512x4096 e)] ((Rect.unit (s := S512x4096) ![0, o] S512x1024.size inb).toLoadRect.idx (ix2 b d)) = w (ix2 b ⟨o + d.val, h⟩) := by
  rw [View.canon_unit_zero hz2]
  refine congrArg w (funext fun a => Fin.ext ?_)
  match a with
  | ⟨0, _⟩ => show 0 + 1 * b.val = b.val; omega
  | ⟨1, _⟩ => show o + 1 * d.val = o + d.val; omega

theorem v78_apply (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) (b : Fin 512) (d : Fin 1024) :
    kernelRun0_C.sl.v78 c i arg2 harg2 arg5 harg5 arg12 harg12 hc1 x0 x3 xs0 (ix2 b d) = k0_pay24 x0 xs0 x3 (ix2 b ⟨0 + d.val, by omega⟩) := by
  unfold kernelRun0_C.sl.v78
  rw [HS0_1_eq c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2, View.readCov_eq_canon']
  exact canon_chunk _ 0 _ _ b d _

theorem v96_apply (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) (b : Fin 512) (d : Fin 1024) :
    kernelRun0_C.sl.v96 c i arg2 harg2 arg5 harg5 arg12 harg12 hc1 x0 x3 xs0 (ix2 b d) = k0_pay24 x0 xs0 x3 (ix2 b ⟨1024 + d.val, by omega⟩) := by
  unfold kernelRun0_C.sl.v96
  rw [HS0_1_eq c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2, View.readCov_eq_canon']
  exact canon_chunk _ 1024 _ _ b d _

theorem v114_apply (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) (b : Fin 512) (d : Fin 1024) :
    kernelRun0_C.sl.v114 c i arg2 harg2 arg5 harg5 arg12 harg12 hc1 x0 x3 xs0 (ix2 b d) = k0_pay24 x0 xs0 x3 (ix2 b ⟨2048 + d.val, by omega⟩) := by
  unfold kernelRun0_C.sl.v114
  rw [HS0_1_eq c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2, View.readCov_eq_canon']
  exact canon_chunk _ 2048 _ _ b d _

theorem v132_apply (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec F S512x512 .f32) (x1 : Vec F S64x512 .bf16) (x2 : Vec F S64x512 .bf16) (x3 : Vec F S4096x512 .bf16) (x4 : Vec F S64 .f32) (x5 : Vec F S64 .f32) (x6 : Vec F S4096 .f32) (x7 : Vec F S4096 .f32) (x8 : Vec F S4096 .f32) (xs0 : Vec F S512x4096 .f32) (xs1 : Vec F S512x64 .f32) (xs2 : Vec F S512x64 .f32) (b : Fin 512) (d : Fin 1024) :
    kernelRun0_C.sl.v132 c i arg2 harg2 arg5 harg5 arg12 harg12 hc1 x0 x3 xs0 (ix2 b d) = k0_pay24 x0 xs0 x3 (ix2 b ⟨3072 + d.val, by omega⟩) := by
  unfold kernelRun0_C.sl.v132
  rw [HS0_1_eq c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2, View.readCov_eq_canon']
  exact canon_chunk _ 3072 _ _ b d _

/-! ### The last step's named intermediates, at an index -/

/-- A chunk's scaled values from its three readings. -/
theorem P_o (kp : FVec Ideal S512x64 .f32) (bk : FVec Ideal S64 .f32) (qp : FVec Ideal S512x64 .f32) (bq : FVec Ideal S64 .f32) (va : FVec Ideal S512x4096 .f32) (bv : FVec Ideal S4096 .f32) (b : Fin 512) (d : Fin 1024) (o : ℕ) (ho : o + 1024 ≤ 4096)
    (vch : S512x1024.Idx → EReal) (rd : S1024.Idx → EReal) (sc : S512x1.Idx → EReal)
    (hv : vch (ix2 b d) = va (ix2 b ⟨o + d.val, by omega⟩)) (hr : rd (ix1 d) = bv (ix1 ⟨o + d.val, by omega⟩))
    (hs : sc (ix2 b (0 : Fin 1)) = scaleB kp bk qp bq b) :
    (vch (ix2 b d) + rd (ix1 d)) * sc (ix2 b (0 : Fin 1)) = oB kp bk qp bq va bv b ⟨o + d.val, by omega⟩ := by
  unfold oB; rw [hv, hr, hs]

theorem r_apply (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec Ideal S512x512 .f32) (x1 : Vec Ideal S64x512 .bf16) (x2 : Vec Ideal S64x512 .bf16) (x3 : Vec Ideal S4096x512 .bf16) (x4 : Vec Ideal S64 .f32) (x5 : Vec Ideal S64 .f32) (x6 : Vec Ideal S4096 .f32) (x7 : Vec Ideal S4096 .f32) (x8 : Vec Ideal S4096 .f32) (xs0 : Vec Ideal S512x4096 .f32) (xs1 : Vec Ideal S512x64 .f32) (xs2 : Vec Ideal S512x64 .f32) (b : Fin 512) (u : Fin 1) :
    kernelRun0_C.sl.r (F := Ideal) c arg2 harg2 arg3 harg3 arg4 harg4 arg6 harg6 arg7 harg7 arg13 harg13 arg14 harg14 x0 x1 x2 x4 x5 xs1 xs2 (ix2 b u) = scaleB (k0_pay22 (F := Ideal) x0 xs1 x1) x4 (k0_pay23 (F := Ideal) x0 xs2 x2) x5 b := by
  unfold kernelRun0_C.sl.r
  refine (pay1_apply _ _ _ _ b u).trans ?_
  rw [v32_eq c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2, v40_eq c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2]
  simp only [View.readAt_eq_ld, harg6.read_unread, harg7.read_unread, View.ld_unit_zero (S := S64) hz1]

/-- A chunk of the bias, of the layer-norm gain, of the layer-norm shift, at d. -/
theorem bvc_apply (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec Ideal S512x512 .f32) (x1 : Vec Ideal S64x512 .bf16) (x2 : Vec Ideal S64x512 .bf16) (x3 : Vec Ideal S4096x512 .bf16) (x4 : Vec Ideal S64 .f32) (x5 : Vec Ideal S64 .f32) (x6 : Vec Ideal S4096 .f32) (x7 : Vec Ideal S4096 .f32) (x8 : Vec Ideal S4096 .f32) (xs0 : Vec Ideal S512x4096 .f32) (xs1 : Vec Ideal S512x64 .f32) (xs2 : Vec Ideal S512x64 .f32) (o : ℕ) (inb : ∀ a, (![o] : Fin 1 → ℕ) a + S1024.size a ≤ S4096.size a) (d : Fin 1024) (h : o + d.val < 4096) :
    View.readAt (Elt Ideal) arg8.view (Rect.unit (s := S4096) ![o] S1024.size inb).toLoadRect (harg8.unread x6) (ix1 d) = x6 (ix1 ⟨o + d.val, h⟩) := by
  rw [View.readAt_eq_ld, harg8.read_unread]; exact ld1_apply x6 o inb d h
theorem gc_apply (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec Ideal S512x512 .f32) (x1 : Vec Ideal S64x512 .bf16) (x2 : Vec Ideal S64x512 .bf16) (x3 : Vec Ideal S4096x512 .bf16) (x4 : Vec Ideal S64 .f32) (x5 : Vec Ideal S64 .f32) (x6 : Vec Ideal S4096 .f32) (x7 : Vec Ideal S4096 .f32) (x8 : Vec Ideal S4096 .f32) (xs0 : Vec Ideal S512x4096 .f32) (xs1 : Vec Ideal S512x64 .f32) (xs2 : Vec Ideal S512x64 .f32) (o : ℕ) (inb : ∀ a, (![o] : Fin 1 → ℕ) a + S1024.size a ≤ S4096.size a) (d : Fin 1024) (h : o + d.val < 4096) :
    View.readAt (Elt Ideal) arg9.view (Rect.unit (s := S4096) ![o] S1024.size inb).toLoadRect (harg9.unread x7) (ix1 d) = x7 (ix1 ⟨o + d.val, h⟩) := by
  rw [View.readAt_eq_ld, harg9.read_unread]; exact ld1_apply x7 o inb d h
theorem bc_apply (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec Ideal S512x512 .f32) (x1 : Vec Ideal S64x512 .bf16) (x2 : Vec Ideal S64x512 .bf16) (x3 : Vec Ideal S4096x512 .bf16) (x4 : Vec Ideal S64 .f32) (x5 : Vec Ideal S64 .f32) (x6 : Vec Ideal S4096 .f32) (x7 : Vec Ideal S4096 .f32) (x8 : Vec Ideal S4096 .f32) (xs0 : Vec Ideal S512x4096 .f32) (xs1 : Vec Ideal S512x64 .f32) (xs2 : Vec Ideal S512x64 .f32) (o : ℕ) (inb : ∀ a, (![o] : Fin 1 → ℕ) a + S1024.size a ≤ S4096.size a) (d : Fin 1024) (h : o + d.val < 4096) :
    View.readAt (Elt Ideal) arg10.view (Rect.unit (s := S4096) ![o] S1024.size inb).toLoadRect (harg10.unread x8) (ix1 d) = x8 (ix1 ⟨o + d.val, h⟩) := by
  rw [View.readAt_eq_ld, harg10.read_unread]; exact ld1_apply x8 o inb d h

/-- Chunk 2 of the scaled values. -/
theorem r_3_apply (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec Ideal S512x512 .f32) (x1 : Vec Ideal S64x512 .bf16) (x2 : Vec Ideal S64x512 .bf16) (x3 : Vec Ideal S4096x512 .bf16) (x4 : Vec Ideal S64 .f32) (x5 : Vec Ideal S64 .f32) (x6 : Vec Ideal S4096 .f32) (x7 : Vec Ideal S4096 .f32) (x8 : Vec Ideal S4096 .f32) (xs0 : Vec Ideal S512x4096 .f32) (xs1 : Vec Ideal S512x64 .f32) (xs2 : Vec Ideal S512x64 .f32) (b : Fin 512) (d : Fin 1024) :
    kernelRun0_C.sl.r_3 (F := Ideal) c i arg2 harg2 arg3 harg3 arg4 harg4 arg5 harg5 arg6 harg6 arg7 harg7 arg8 harg8 arg12 harg12 arg13 harg13 arg14 harg14 hc1 x0 x1 x2 x3 x4 x5 x6 xs0 xs1 xs2 (ix2 b d) = oB (k0_pay22 (F := Ideal) x0 xs1 x1) x4 (k0_pay23 (F := Ideal) x0 xs2 x2) x5 (k0_pay24 (F := Ideal) x0 xs0 x3) x6 b ⟨2048 + d.val, by omega⟩ := by
  unfold kernelRun0_C.sl.r_3
  refine (pay8_apply _ _ _ b d).trans ?_
  exact (P_o _ _ _ _ _ _ b d 2048 (by omega) _ _ _ (v114_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b d) (bvc_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 2048 _ d (by omega)) (r_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b 0))

/-- The sum after two chunks. -/
theorem r_1_apply (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec Ideal S512x512 .f32) (x1 : Vec Ideal S64x512 .bf16) (x2 : Vec Ideal S64x512 .bf16) (x3 : Vec Ideal S4096x512 .bf16) (x4 : Vec Ideal S64 .f32) (x5 : Vec Ideal S64 .f32) (x6 : Vec Ideal S4096 .f32) (x7 : Vec Ideal S4096 .f32) (x8 : Vec Ideal S4096 .f32) (xs0 : Vec Ideal S512x4096 .f32) (xs1 : Vec Ideal S512x64 .f32) (xs2 : Vec Ideal S512x64 .f32) (b : Fin 512) (u : Fin 1) :
    kernelRun0_C.sl.r_1 (F := Ideal) c i arg2 harg2 arg3 harg3 arg4 harg4 arg5 harg5 arg6 harg6 arg7 harg7 arg8 harg8 arg12 harg12 arg13 harg13 arg14 harg14 hc1 x0 x1 x2 x3 x4 x5 x6 xs0 xs1 xs2 (ix2 b u)
      = (0 + ∑ d : Fin 1024, oB (k0_pay22 (F := Ideal) x0 xs1 x1) x4 (k0_pay23 (F := Ideal) x0 xs2 x2) x5 (k0_pay24 (F := Ideal) x0 xs0 x3) x6 b ⟨0 + d.val, by omega⟩) + ∑ d : Fin 1024, oB (k0_pay22 (F := Ideal) x0 xs1 x1) x4 (k0_pay23 (F := Ideal) x0 xs2 x2) x5 (k0_pay24 (F := Ideal) x0 xs0 x3) x6 b ⟨1024 + d.val, by omega⟩ := by
  unfold kernelRun0_C.sl.r_1
  refine (pay6_apply _ _ _ _ _ _ b u).trans ?_
  exact congrArg₂ (· + ·) (congrArg₂ (· + ·) (pay2_apply _) (Finset.sum_congr rfl fun d _ => (P_o _ _ _ _ _ _ b d 0 (by omega) _ _ _ (v78_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b d) (bvc_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 0 _ d (by omega)) (r_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b 0))))
    (Finset.sum_congr rfl fun d _ => (P_o _ _ _ _ _ _ b d 1024 (by omega) _ _ _ (v96_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b d) (bvc_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 1024 _ d (by omega)) (r_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b 0)))

/-- The sum of squares after two chunks. -/
theorem r_2_apply (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec Ideal S512x512 .f32) (x1 : Vec Ideal S64x512 .bf16) (x2 : Vec Ideal S64x512 .bf16) (x3 : Vec Ideal S4096x512 .bf16) (x4 : Vec Ideal S64 .f32) (x5 : Vec Ideal S64 .f32) (x6 : Vec Ideal S4096 .f32) (x7 : Vec Ideal S4096 .f32) (x8 : Vec Ideal S4096 .f32) (xs0 : Vec Ideal S512x4096 .f32) (xs1 : Vec Ideal S512x64 .f32) (xs2 : Vec Ideal S512x64 .f32) (b : Fin 512) (u : Fin 1) :
    kernelRun0_C.sl.r_2 (F := Ideal) c i arg2 harg2 arg3 harg3 arg4 harg4 arg5 harg5 arg6 harg6 arg7 harg7 arg8 harg8 arg12 harg12 arg13 harg13 arg14 harg14 hc1 x0 x1 x2 x3 x4 x5 x6 xs0 xs1 xs2 (ix2 b u)
      = (0 + ∑ d : Fin 1024, oB (k0_pay22 (F := Ideal) x0 xs1 x1) x4 (k0_pay23 (F := Ideal) x0 xs2 x2) x5 (k0_pay24 (F := Ideal) x0 xs0 x3) x6 b ⟨0 + d.val, by omega⟩ * oB (k0_pay22 (F := Ideal) x0 xs1 x1) x4 (k0_pay23 (F := Ideal) x0 xs2 x2) x5 (k0_pay24 (F := Ideal) x0 xs0 x3) x6 b ⟨0 + d.val, by omega⟩) + ∑ d : Fin 1024, oB (k0_pay22 (F := Ideal) x0 xs1 x1) x4 (k0_pay23 (F := Ideal) x0 xs2 x2) x5 (k0_pay24 (F := Ideal) x0 xs0 x3) x6 b ⟨1024 + d.val, by omega⟩ * oB (k0_pay22 (F := Ideal) x0 xs1 x1) x4 (k0_pay23 (F := Ideal) x0 xs2 x2) x5 (k0_pay24 (F := Ideal) x0 xs0 x3) x6 b ⟨1024 + d.val, by omega⟩ := by
  unfold kernelRun0_C.sl.r_2
  refine (pay7_apply _ _ _ _ _ _ b u).trans ?_
  exact congrArg₂ (· + ·) (congrArg₂ (· + ·) (pay3_apply _) (Finset.sum_congr rfl fun d _ => congrArg₂ (· * ·) (P_o _ _ _ _ _ _ b d 0 (by omega) _ _ _ (v78_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b d) (bvc_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 0 _ d (by omega)) (r_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b 0)) (P_o _ _ _ _ _ _ b d 0 (by omega) _ _ _ (v78_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b d) (bvc_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 0 _ d (by omega)) (r_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b 0))))
    (Finset.sum_congr rfl fun d _ => congrArg₂ (· * ·) (P_o _ _ _ _ _ _ b d 1024 (by omega) _ _ _ (v96_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b d) (bvc_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 1024 _ d (by omega)) (r_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b 0)) (P_o _ _ _ _ _ _ b d 1024 (by omega) _ _ _ (v96_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b d) (bvc_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 1024 _ d (by omega)) (r_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b 0)))

/-- The last chunk's scaled values, as the mean and the variance read them. -/
theorem o3_apply (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec Ideal S512x512 .f32) (x1 : Vec Ideal S64x512 .bf16) (x2 : Vec Ideal S64x512 .bf16) (x3 : Vec Ideal S4096x512 .bf16) (x4 : Vec Ideal S64 .f32) (x5 : Vec Ideal S64 .f32) (x6 : Vec Ideal S4096 .f32) (x7 : Vec Ideal S4096 .f32) (x8 : Vec Ideal S4096 .f32) (xs0 : Vec Ideal S512x4096 .f32) (xs1 : Vec Ideal S512x64 .f32) (xs2 : Vec Ideal S512x64 .f32) (b : Fin 512) (d : Fin 1024) :
    (kernelRun0_C.sl.v132 (F := Ideal) c i arg2 harg2 arg5 harg5 arg12 harg12 hc1 x0 x3 xs0 (ix2 b d) + View.readAt (Elt Ideal) arg8.view (Rect.unit (s := S4096) ![3072] S1024.size (k0_off2_inb i hc1 3)).toLoadRect (harg8.unread x6) (ix1 d))
        * kernelRun0_C.sl.r (F := Ideal) c arg2 harg2 arg3 harg3 arg4 harg4 arg6 harg6 arg7 harg7 arg13 harg13 arg14 harg14 x0 x1 x2 x4 x5 xs1 xs2 (ix2 b (0 : Fin 1))
      = oB (k0_pay22 (F := Ideal) x0 xs1 x1) x4 (k0_pay23 (F := Ideal) x0 xs2 x2) x5 (k0_pay24 (F := Ideal) x0 xs0 x3) x6 b ⟨3072 + d.val, by omega⟩ :=
  (P_o _ _ _ _ _ _ b d 3072 (by omega) _ _ _ (v132_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b d) (bvc_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 3072 _ d (by omega)) (r_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b 0))

/-- The mean. -/
theorem r_4_apply (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec Ideal S512x512 .f32) (x1 : Vec Ideal S64x512 .bf16) (x2 : Vec Ideal S64x512 .bf16) (x3 : Vec Ideal S4096x512 .bf16) (x4 : Vec Ideal S64 .f32) (x5 : Vec Ideal S64 .f32) (x6 : Vec Ideal S4096 .f32) (x7 : Vec Ideal S4096 .f32) (x8 : Vec Ideal S4096 .f32) (xs0 : Vec Ideal S512x4096 .f32) (xs1 : Vec Ideal S512x64 .f32) (xs2 : Vec Ideal S512x64 .f32) (b : Fin 512) (u : Fin 1) :
    kernelRun0_C.sl.r_4 (F := Ideal) c i arg2 harg2 arg3 harg3 arg4 harg4 arg5 harg5 arg6 harg6 arg7 harg7 arg8 harg8 arg12 harg12 arg13 harg13 arg14 harg14 hc1 x0 x1 x2 x3 x4 x5 x6 xs0 xs1 xs2 (ix2 b u) = muB (k0_pay22 (F := Ideal) x0 xs1 x1) x4 (k0_pay23 (F := Ideal) x0 xs2 x2) x5 (k0_pay24 (F := Ideal) x0 xs0 x3) x6 b := by
  unfold kernelRun0_C.sl.r_4
  refine (pay10_apply _ _ _ _ _ b u).trans ?_
  exact congrArg (· * Cert.Spec.cInv4096) (congrArg₂ (· + ·) (congrArg₂ (· + ·) (r_1_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b u) (Finset.sum_congr rfl fun d _ => r_3_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b d))
    (Finset.sum_congr rfl fun d _ => o3_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b d))

/-- The reciprocal standard deviation. -/
theorem r_5_apply (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec Ideal S512x512 .f32) (x1 : Vec Ideal S64x512 .bf16) (x2 : Vec Ideal S64x512 .bf16) (x3 : Vec Ideal S4096x512 .bf16) (x4 : Vec Ideal S64 .f32) (x5 : Vec Ideal S64 .f32) (x6 : Vec Ideal S4096 .f32) (x7 : Vec Ideal S4096 .f32) (x8 : Vec Ideal S4096 .f32) (xs0 : Vec Ideal S512x4096 .f32) (xs1 : Vec Ideal S512x64 .f32) (xs2 : Vec Ideal S512x64 .f32) (b : Fin 512) (u : Fin 1) :
    kernelRun0_C.sl.r_5 (F := Ideal) c i arg2 harg2 arg3 harg3 arg4 harg4 arg5 harg5 arg6 harg6 arg7 harg7 arg8 harg8 arg12 harg12 arg13 harg13 arg14 harg14 hc1 x0 x1 x2 x3 x4 x5 x6 xs0 xs1 xs2 (ix2 b u) = rsB (k0_pay22 (F := Ideal) x0 xs1 x1) x4 (k0_pay23 (F := Ideal) x0 xs2 x2) x5 (k0_pay24 (F := Ideal) x0 xs0 x3) x6 b := by
  unfold kernelRun0_C.sl.r_5
  refine (pay11_apply _ _ _ _ _ _ b u).trans ?_
  exact congrArg (fun z => Ideal.rsqrt (z + Cert.Spec.cEps)) (congrArg₂ (· - ·)
    (congrArg (· * Cert.Spec.cInv4096) (congrArg₂ (· + ·) (congrArg₂ (· + ·) (r_2_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b u)
      (Finset.sum_congr rfl fun d _ => congrArg₂ (· * ·) (r_3_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b d) (r_3_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b d)))
      (Finset.sum_congr rfl fun d _ => congrArg₂ (· * ·) (o3_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b d) (o3_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b d))))
    (congrArg₂ (· * ·) (r_4_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b u) (r_4_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b u)))

/-- Chunk 0, centred. -/
theorem r_6_apply (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec Ideal S512x512 .f32) (x1 : Vec Ideal S64x512 .bf16) (x2 : Vec Ideal S64x512 .bf16) (x3 : Vec Ideal S4096x512 .bf16) (x4 : Vec Ideal S64 .f32) (x5 : Vec Ideal S64 .f32) (x6 : Vec Ideal S4096 .f32) (x7 : Vec Ideal S4096 .f32) (x8 : Vec Ideal S4096 .f32) (xs0 : Vec Ideal S512x4096 .f32) (xs1 : Vec Ideal S512x64 .f32) (xs2 : Vec Ideal S512x64 .f32) (b : Fin 512) (d : Fin 1024) :
    kernelRun0_C.sl.r_6 (F := Ideal) c i arg2 harg2 arg3 harg3 arg4 harg4 arg5 harg5 arg6 harg6 arg7 harg7 arg8 harg8 arg12 harg12 arg13 harg13 arg14 harg14 hc1 x0 x1 x2 x3 x4 x5 x6 xs0 xs1 xs2 (ix2 b d) = oB (k0_pay22 (F := Ideal) x0 xs1 x1) x4 (k0_pay23 (F := Ideal) x0 xs2 x2) x5 (k0_pay24 (F := Ideal) x0 xs0 x3) x6 b ⟨0 + d.val, by omega⟩ - muB (k0_pay22 (F := Ideal) x0 xs1 x1) x4 (k0_pay23 (F := Ideal) x0 xs2 x2) x5 (k0_pay24 (F := Ideal) x0 xs0 x3) x6 b := by
  unfold kernelRun0_C.sl.r_6
  refine (pay12_apply _ _ _ _ _ _ _ b d).trans ?_
  exact congrArg₂ (· - ·) (P_o _ _ _ _ _ _ b d 0 (by omega) _ _ _ (v78_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b d) (bvc_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 0 _ d (by omega)) (r_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b 0)) (r_4_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b 0)

/-! ### The block the last step stores -/

/-- One output chunk from its readings. -/
theorem P_norm (kp : FVec Ideal S512x64 .f32) (bk : FVec Ideal S64 .f32) (qp : FVec Ideal S512x64 .f32) (bq : FVec Ideal S64 .f32) (va : FVec Ideal S512x4096 .f32) (bv : FVec Ideal S4096 .f32) (lng lnb : FVec Ideal S4096 .f32) (b : Fin 512) (d : Fin 1024) (o : ℕ) (ho : o + 1024 ≤ 4096)
    (vch : S512x1024.Idx → EReal) (rd g bb : S1024.Idx → EReal) (sc mu rs : S512x1.Idx → EReal)
    (hv : vch (ix2 b d) = va (ix2 b ⟨o + d.val, by omega⟩)) (hr : rd (ix1 d) = bv (ix1 ⟨o + d.val, by omega⟩))
    (hs : sc (ix2 b (0 : Fin 1)) = scaleB kp bk qp bq b) (hmu : mu (ix2 b (0 : Fin 1)) = muB kp bk qp bq va bv b)
    (hrs : rs (ix2 b (0 : Fin 1)) = rsB kp bk qp bq va bv b)
    (hg : g (ix1 d) = lng (ix1 ⟨o + d.val, by omega⟩)) (hb : bb (ix1 d) = lnb (ix1 ⟨o + d.val, by omega⟩))
    (i : S512x4096.Idx) (hi0 : (i 0).val = b.val) (hi1 : (i 1).val = o + d.val) :
    ((((vch (ix2 b d) + rd (ix1 d)) * sc (ix2 b (0 : Fin 1)) - mu (ix2 b (0 : Fin 1))) * rs (ix2 b (0 : Fin 1))) * g (ix1 d)) + bb (ix1 d)
      = normB kp bk qp bq va bv lng lnb (i 0) (i 1) := by
  have e0 : i 0 = b := Fin.ext hi0
  have e1 : i 1 = ⟨o + d.val, by omega⟩ := Fin.ext hi1
  rw [e0, e1]; unfold normB
  rw [P_o kp bk qp bq va bv b d o ho vch rd sc hv hr hs, hmu, hrs, hg, hb]
  rfl

/-- The first output chunk from its readings (its scaled values arrive centred). -/
theorem P_norm0 (kp : FVec Ideal S512x64 .f32) (bk : FVec Ideal S64 .f32) (qp : FVec Ideal S512x64 .f32) (bq : FVec Ideal S64 .f32) (va : FVec Ideal S512x4096 .f32) (bv : FVec Ideal S4096 .f32) (lng lnb : FVec Ideal S4096 .f32) (b : Fin 512) (d : Fin 1024) (o : ℕ) (ho : o + 1024 ≤ 4096)
    (c0 : S512x1024.Idx → EReal) (g bb : S1024.Idx → EReal) (rs : S512x1.Idx → EReal)
    (hc : c0 (ix2 b d) = oB kp bk qp bq va bv b ⟨o + d.val, by omega⟩ - muB kp bk qp bq va bv b)
    (hrs : rs (ix2 b (0 : Fin 1)) = rsB kp bk qp bq va bv b)
    (hg : g (ix1 d) = lng (ix1 ⟨o + d.val, by omega⟩)) (hb : bb (ix1 d) = lnb (ix1 ⟨o + d.val, by omega⟩))
    (i : S512x4096.Idx) (hi0 : (i 0).val = b.val) (hi1 : (i 1).val = o + d.val) :
    ((c0 (ix2 b d) * rs (ix2 b (0 : Fin 1))) * g (ix1 d)) + bb (ix1 d) = normB kp bk qp bq va bv lng lnb (i 0) (i 1) := by
  have e0 : i 0 = b := Fin.ext hi0
  have e1 : i 1 = ⟨o + d.val, by omega⟩ := Fin.ext hi1
  rw [e0, e1]; unfold normB
  rw [hc, hrs, hg, hb]
  rfl

theorem r_7_apply (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec Ideal S512x512 .f32) (x1 : Vec Ideal S64x512 .bf16) (x2 : Vec Ideal S64x512 .bf16) (x3 : Vec Ideal S4096x512 .bf16) (x4 : Vec Ideal S64 .f32) (x5 : Vec Ideal S64 .f32) (x6 : Vec Ideal S4096 .f32) (x7 : Vec Ideal S4096 .f32) (x8 : Vec Ideal S4096 .f32) (xs0 : Vec Ideal S512x4096 .f32) (xs1 : Vec Ideal S512x64 .f32) (xs2 : Vec Ideal S512x64 .f32) (d : Fin 1024) :
    kernelRun0_C.sl.r_7 (F := Ideal) c i arg8 harg8 hc1 x6 (ix2 (0 : Fin 1) d) = x6 (ix1 ⟨2048 + d.val, by omega⟩) := by
  unfold kernelRun0_C.sl.r_7
  exact (pay15_apply _ d).trans (bvc_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 2048 _ d (by omega))

/-- THE STORED BLOCK: the epilogue of the three accumulators the step leaves, with the five parameter vectors. -/
theorem out_C_9_eq (c : Dev nD) (i : grid0.Coords) (arg2 : Memref sig .tc .vmem S512x512 .f32) (harg2 : arg2.IsWhole) (arg3 : Memref sig .tc .vmem S64x512 .bf16) (harg3 : arg3.IsWhole) (arg4 : Memref sig .tc .vmem S64x512 .bf16) (harg4 : arg4.IsWhole) (arg5 : Memref sig .tc .vmem S4096x512 .bf16) (harg5 : arg5.IsWhole) (arg6 : Memref sig .tc .vmem S64 .f32) (harg6 : arg6.IsWhole) (arg7 : Memref sig .tc .vmem S64 .f32) (harg7 : arg7.IsWhole) (arg8 : Memref sig .tc .vmem S4096 .f32) (harg8 : arg8.IsWhole) (arg9 : Memref sig .tc .vmem S4096 .f32) (harg9 : arg9.IsWhole) (arg10 : Memref sig .tc .vmem S4096 .f32) (harg10 : arg10.IsWhole) (arg11 : Memref sig .tc .vmem S512x4096 .bf16) (harg11 : arg11.IsWhole) (arg12 : Memref sig .tc .vmem S512x4096 .f32) (harg12 : arg12.IsWhole) (arg13 : Memref sig .tc .vmem S512x64 .f32) (harg13 : arg13.IsWhole) (arg14 : Memref sig .tc .vmem S512x64 .f32) (harg14 : arg14.IsWhole) (hc0 : ¬cond0_0 i) (hc1 : cond0_1 i)
    (x0 : Vec Ideal S512x512 .f32) (x1 : Vec Ideal S64x512 .bf16) (x2 : Vec Ideal S64x512 .bf16) (x3 : Vec Ideal S4096x512 .bf16) (x4 : Vec Ideal S64 .f32) (x5 : Vec Ideal S64 .f32) (x6 : Vec Ideal S4096 .f32) (x7 : Vec Ideal S4096 .f32) (x8 : Vec Ideal S4096 .f32) (xs0 : Vec Ideal S512x4096 .f32) (xs1 : Vec Ideal S512x64 .f32) (xs2 : Vec Ideal S512x64 .f32) :
    out0_C_9 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = fun y => normB (k0_pay22 (F := Ideal) x0 xs1 x1) x4 (k0_pay23 (F := Ideal) x0 xs2 x2) x5 (k0_pay24 (F := Ideal) x0 xs0 x3) x6 x7 x8 (y 0) (y 1) := by
  funext y
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  refine View.canon_apply_of_pieces (fun y => normB (k0_pay22 (F := Ideal) x0 xs1 x1) x4 (k0_pay23 (F := Ideal) x0 xs2 x2) x5 (k0_pay24 (F := Ideal) x0 xs0 x3) x6 x7 x8 (y 0) (y 1)) _ ?_ y (cover0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 y)
  unfold kernelRun0_C
  dsimp only
  intro p hp
  simp only [List.mem_cons, List.not_mem_nil, or_false] at hp
  rcases hp with rfl | rfl | rfl | rfl
  · intro x
    obtain ⟨b, d, rfl⟩ : ∃ (b : Fin 512) (d : Fin 1024), x = ix2 b d := ⟨x 0, x 1, eq_ix2 x⟩
    refine (pay17_apply _ _ _ _ _ _ _ b d).trans ?_
    exact P_norm _ _ _ _ _ _ x7 x8 b d 3072 (by omega) _ _ _ _ _ _ _ (v132_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b d) (bvc_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 3072 _ d (by omega)) (r_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b 0)
      (r_4_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b 0) (r_5_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b 0) (gc_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 3072 _ d (by omega)) (bc_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 3072 _ d (by omega)) _
      (by show 0 + 1 * b.val = b.val; omega) (by show 3072 + 1 * d.val = 3072 + d.val; omega)
  · intro x
    obtain ⟨b, d, rfl⟩ : ∃ (b : Fin 512) (d : Fin 1024), x = ix2 b d := ⟨x 0, x 1, eq_ix2 x⟩
    refine (pay16_apply _ _ _ _ _ _ _ b d).trans ?_
    exact P_norm _ _ _ _ _ _ x7 x8 b d 2048 (by omega) _ (fun j => kernelRun0_C.sl.r_7 (F := Ideal) c i arg8 harg8 hc1 x6 (ix2 (0 : Fin 1) (j 0))) _ _ _ _ _ (v114_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b d) (r_7_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 d) (r_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b 0)
      (r_4_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b 0) (r_5_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b 0) (gc_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 2048 _ d (by omega)) (bc_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 2048 _ d (by omega)) _
      (by show 0 + 1 * b.val = b.val; omega) (by show 2048 + 1 * d.val = 2048 + d.val; omega)
  · intro x
    obtain ⟨b, d, rfl⟩ : ∃ (b : Fin 512) (d : Fin 1024), x = ix2 b d := ⟨x 0, x 1, eq_ix2 x⟩
    refine (pay14_apply _ _ _ _ _ _ _ b d).trans ?_
    exact P_norm _ _ _ _ _ _ x7 x8 b d 1024 (by omega) _ _ _ _ _ _ _ (v96_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b d) (bvc_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 1024 _ d (by omega)) (r_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b 0)
      (r_4_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b 0) (r_5_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b 0) (gc_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 1024 _ d (by omega)) (bc_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 1024 _ d (by omega)) _
      (by show 0 + 1 * b.val = b.val; omega) (by show 1024 + 1 * d.val = 1024 + d.val; omega)
  · intro x
    obtain ⟨b, d, rfl⟩ : ∃ (b : Fin 512) (d : Fin 1024), x = ix2 b d := ⟨x 0, x 1, eq_ix2 x⟩
    refine (pay13_apply _ _ _ _ b d).trans ?_
    exact P_norm0 _ _ _ _ _ _ x7 x8 b d 0 (by omega) _ _ _ _ (r_6_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b d) (r_5_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 b 0)
      (gc_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 0 _ d (by omega)) (bc_apply c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 0 _ d (by omega)) _
      (by show 0 + 1 * b.val = b.val; omega) (by show 0 + 1 * d.val = 0 + d.val; omega)

/-! ### Tuples, and arrays read at natural-number coordinates -/

theorem tup1 {α β γ δ : Type} (x : α × β × γ × δ) (a a' : α) (b : β) (c : γ) (d : δ) (hx : x = (a, b, c, d)) (ha : a = a') : x.1 = a' := by
  subst hx ha; rfl
theorem tup2 {α β γ δ : Type} (x : α × β × γ × δ) (a : α) (b b' : β) (c : γ) (d : δ) (hx : x = (a, b, c, d)) (hb : b = b') : x.2.1 = b' := by
  subst hx hb; rfl
theorem tup3 {α β γ δ : Type} (x : α × β × γ × δ) (a : α) (b : β) (c c' : γ) (d : δ) (hx : x = (a, b, c, d)) (hc : c = c') : x.2.2.1 = c' := by
  subst hx hc; rfl
theorem tup4 {α β γ δ : Type} (x : α × β × γ × δ) (a : α) (b : β) (c : γ) (d d' : δ) (hx : x = (a, b, c, d)) (hd : d = d') : x.2.2.2 = d' := by
  subst hx hd; rfl

/-- A rank-2 array read at natural coordinates (zero outside the array). -/
def rd2 {m n : ℕ} (X : (⟨2, ![m, n]⟩ : Shape).Idx → EReal) (r e : ℕ) : EReal :=
  if h : r < m ∧ e < n then X (ix2 ⟨r, h.1⟩ ⟨e, h.2⟩) else 0
theorem rd2_val {m n : ℕ} (X : (⟨2, ![m, n]⟩ : Shape).Idx → EReal) (a : Fin m) (b : Fin n) :
    rd2 X a.val b.val = X (ix2 a b) := by
  unfold rd2; rw [dif_pos ⟨a.isLt, b.isLt⟩]
/-- An entry is the array read at its coordinates' values. -/
theorem rd2_of_val {m n : ℕ} (X : (⟨2, ![m, n]⟩ : Shape).Idx → EReal) (i : (⟨2, ![m, n]⟩ : Shape).Idx) (r e : ℕ)
    (h0 : (i 0).val = r) (h1 : (i 1).val = e) : X i = rd2 X r e := by
  subst h0 h1
  exact (congrArg X (eq_ix2 i)).trans (rd2_val X (i 0) (i 1)).symm

/-! ### The blocks the windows read -/

variable (V : (c : Dev nD) → (b : Ref sig .tc) → Buf (Elt Ideal) ((c : Thread nD τ).loc b))

/-- The activations, the three projection weights (bf16), their biases, and the layer-norm gain and shift, as the region finds them. -/
abbrev aX (c : Dev nD) : S8192x4096.Idx → EReal := V c main_arg0
abbrev aWk (c : Dev nD) : S64x4096.Idx → EReal := V c main_v0
abbrev aWq (c : Dev nD) : S64x4096.Idx → EReal := V c main_v1
abbrev aWv (c : Dev nD) : S4096x4096.Idx → EReal := V c main_v2
abbrev aBk (c : Dev nD) : S64.Idx → EReal := V c main_arg2
abbrev aBq (c : Dev nD) : S64.Idx → EReal := V c main_arg4
abbrev aBv (c : Dev nD) : S4096.Idx → EReal := V c main_arg6
abbrev aLg (c : Dev nD) : S4096.Idx → EReal := V c main_arg7
abbrev aLb (c : Dev nD) : S4096.Idx → EReal := V c main_arg8

/-- The block index of each window at point t = 8 i + k of the 16 × 8 grid. -/
theorem idx0_facts : ∀ t : Fin cfg0.N,
    win0_0.index t (0 : Fin 2) = t.val / 8 ∧ win0_0.index t (1 : Fin 2) = t.val % 8
    ∧ win0_1.index t (0 : Fin 2) = 0 ∧ win0_1.index t (1 : Fin 2) = t.val % 8
    ∧ win0_2.index t (0 : Fin 2) = 0 ∧ win0_2.index t (1 : Fin 2) = t.val % 8
    ∧ win0_3.index t (0 : Fin 2) = 0 ∧ win0_3.index t (1 : Fin 2) = t.val % 8
    ∧ win0_4.index t (0 : Fin 1) = 0 ∧ win0_5.index t (0 : Fin 1) = 0 ∧ win0_6.index t (0 : Fin 1) = 0
    ∧ win0_7.index t (0 : Fin 1) = 0 ∧ win0_8.index t (0 : Fin 1) = 0
    ∧ win0_9.index t (0 : Fin 2) = t.val / 8 ∧ win0_9.index t (1 : Fin 2) = 0 :=
  (by decide +kernel : ∀ t : Fin grid0.N, _)

theorem iblk0_0_apply (c : Dev nD) (t : Fin cfg0.N) (p : Fin 512) (k : Fin 512) :
    iblk0 V c 0 t (ix2 p k) = rd2 (m := 8192) (n := 4096) (aX V c) (512 * (t.val / 8) + p.val) (512 * (t.val % 8) + k.val) := by
  obtain ⟨e00, e01, e10, e11, e20, e21, e30, e31, -⟩ := idx0_facts t
  unfold iblk0
  rw [View.read_apply]
  show aX V c (((cfg0.win 0).blk t).view.emb (ix2 p k)) = _
  refine rd2_of_val (m := 8192) (n := 4096) (aX V c) _ _ _ ?_ ?_
  · show win0_0.index t (0 : Fin 2) * 512 + 1 * p.val = _
    rw [e00]; omega
  · show win0_0.index t (1 : Fin 2) * 512 + 1 * k.val = _
    rw [e01]; omega

theorem iblk0_1_apply (c : Dev nD) (t : Fin cfg0.N) (p : Fin 64) (k : Fin 512) :
    iblk0 V c 1 t (ix2 p k) = rd2 (m := 64) (n := 4096) (aWk V c) (p.val) (512 * (t.val % 8) + k.val) := by
  obtain ⟨e00, e01, e10, e11, e20, e21, e30, e31, -⟩ := idx0_facts t
  unfold iblk0
  rw [View.read_apply]
  show aWk V c (((cfg0.win 1).blk t).view.emb (ix2 p k)) = _
  refine rd2_of_val (m := 64) (n := 4096) (aWk V c) _ _ _ ?_ ?_
  · show win0_1.index t (0 : Fin 2) * 64 + 1 * p.val = _
    rw [e10]; omega
  · show win0_1.index t (1 : Fin 2) * 512 + 1 * k.val = _
    rw [e11]; omega

theorem iblk0_2_apply (c : Dev nD) (t : Fin cfg0.N) (p : Fin 64) (k : Fin 512) :
    iblk0 V c 2 t (ix2 p k) = rd2 (m := 64) (n := 4096) (aWq V c) (p.val) (512 * (t.val % 8) + k.val) := by
  obtain ⟨e00, e01, e10, e11, e20, e21, e30, e31, -⟩ := idx0_facts t
  unfold iblk0
  rw [View.read_apply]
  show aWq V c (((cfg0.win 2).blk t).view.emb (ix2 p k)) = _
  refine rd2_of_val (m := 64) (n := 4096) (aWq V c) _ _ _ ?_ ?_
  · show win0_2.index t (0 : Fin 2) * 64 + 1 * p.val = _
    rw [e20]; omega
  · show win0_2.index t (1 : Fin 2) * 512 + 1 * k.val = _
    rw [e21]; omega

theorem iblk0_3_apply (c : Dev nD) (t : Fin cfg0.N) (p : Fin 4096) (k : Fin 512) :
    iblk0 V c 3 t (ix2 p k) = rd2 (m := 4096) (n := 4096) (aWv V c) (p.val) (512 * (t.val % 8) + k.val) := by
  obtain ⟨e00, e01, e10, e11, e20, e21, e30, e31, -⟩ := idx0_facts t
  unfold iblk0
  rw [View.read_apply]
  show aWv V c (((cfg0.win 3).blk t).view.emb (ix2 p k)) = _
  refine rd2_of_val (m := 4096) (n := 4096) (aWv V c) _ _ _ ?_ ?_
  · show win0_3.index t (0 : Fin 2) * 4096 + 1 * p.val = _
    rw [e30]; omega
  · show win0_3.index t (1 : Fin 2) * 512 + 1 * k.val = _
    rw [e31]; omega

theorem iblk0_4_eq (c : Dev nD) (t : Fin cfg0.N) : (iblk0 V c 4 t : S64.Idx → EReal) = aBk V c := by
  obtain ⟨-, -, -, -, -, -, -, -, e4, e5, e6, e7, e8, -⟩ := idx0_facts t
  refine @funext S64.Idx _ _ _ fun y => ?_
  obtain ⟨p, rfl⟩ : ∃ p : Fin 64, y = ix1 p := ⟨y 0, eq_ix1 y⟩
  unfold iblk0
  rw [View.read_apply]
  show aBk V c (((cfg0.win 4).blk t).view.emb (ix1 p)) = aBk V c (ix1 p)
  refine congrArg (aBk V c) (funext fun a => Fin.ext ?_)
  match a with
  | ⟨0, _⟩ =>
    show win0_4.index t (0 : Fin 1) * 64 + 1 * p.val = p.val
    rw [e4]; omega

theorem iblk0_5_eq (c : Dev nD) (t : Fin cfg0.N) : (iblk0 V c 5 t : S64.Idx → EReal) = aBq V c := by
  obtain ⟨-, -, -, -, -, -, -, -, e4, e5, e6, e7, e8, -⟩ := idx0_facts t
  refine @funext S64.Idx _ _ _ fun y => ?_
  obtain ⟨p, rfl⟩ : ∃ p : Fin 64, y = ix1 p := ⟨y 0, eq_ix1 y⟩
  unfold iblk0
  rw [View.read_apply]
  show aBq V c (((cfg0.win 5).blk t).view.emb (ix1 p)) = aBq V c (ix1 p)
  refine congrArg (aBq V c) (funext fun a => Fin.ext ?_)
  match a with
  | ⟨0, _⟩ =>
    show win0_5.index t (0 : Fin 1) * 64 + 1 * p.val = p.val
    rw [e5]; omega

theorem iblk0_6_eq (c : Dev nD) (t : Fin cfg0.N) : (iblk0 V c 6 t : S4096.Idx → EReal) = aBv V c := by
  obtain ⟨-, -, -, -, -, -, -, -, e4, e5, e6, e7, e8, -⟩ := idx0_facts t
  refine @funext S4096.Idx _ _ _ fun y => ?_
  obtain ⟨p, rfl⟩ : ∃ p : Fin 4096, y = ix1 p := ⟨y 0, eq_ix1 y⟩
  unfold iblk0
  rw [View.read_apply]
  show aBv V c (((cfg0.win 6).blk t).view.emb (ix1 p)) = aBv V c (ix1 p)
  refine congrArg (aBv V c) (funext fun a => Fin.ext ?_)
  match a with
  | ⟨0, _⟩ =>
    show win0_6.index t (0 : Fin 1) * 4096 + 1 * p.val = p.val
    rw [e6]; omega

theorem iblk0_7_eq (c : Dev nD) (t : Fin cfg0.N) : (iblk0 V c 7 t : S4096.Idx → EReal) = aLg V c := by
  obtain ⟨-, -, -, -, -, -, -, -, e4, e5, e6, e7, e8, -⟩ := idx0_facts t
  refine @funext S4096.Idx _ _ _ fun y => ?_
  obtain ⟨p, rfl⟩ : ∃ p : Fin 4096, y = ix1 p := ⟨y 0, eq_ix1 y⟩
  unfold iblk0
  rw [View.read_apply]
  show aLg V c (((cfg0.win 7).blk t).view.emb (ix1 p)) = aLg V c (ix1 p)
  refine congrArg (aLg V c) (funext fun a => Fin.ext ?_)
  match a with
  | ⟨0, _⟩ =>
    show win0_7.index t (0 : Fin 1) * 4096 + 1 * p.val = p.val
    rw [e7]; omega

theorem iblk0_8_eq (c : Dev nD) (t : Fin cfg0.N) : (iblk0 V c 8 t : S4096.Idx → EReal) = aLb V c := by
  obtain ⟨-, -, -, -, -, -, -, -, e4, e5, e6, e7, e8, -⟩ := idx0_facts t
  refine @funext S4096.Idx _ _ _ fun y => ?_
  obtain ⟨p, rfl⟩ : ∃ p : Fin 4096, y = ix1 p := ⟨y 0, eq_ix1 y⟩
  unfold iblk0
  rw [View.read_apply]
  show aLb V c (((cfg0.win 8).blk t).view.emb (ix1 p)) = aLb V c (ix1 p)
  refine congrArg (aLb V c) (funext fun a => Fin.ext ?_)
  match a with
  | ⟨0, _⟩ =>
    show win0_8.index t (0 : Fin 1) * 4096 + 1 * p.val = p.val
    rw [e8]; omega

/-! ### What the three accumulators and the output hold after each point -/

theorem accV_A (c : Dev nD) (t : Fin cfg0.N) (h0 : t.val % 8 = 0) (h1 : ¬t.val % 8 = 7) :
    (outsAt0 (F := Ideal) V c t.val t.isLt).2.1 = k0_pay24 (F := Ideal) (iblk0 V c 0 t) (k0_pay18 (F := Ideal)) (iblk0 V c 3 t) :=
  tup2 _ _ _ _ _ _ (outsAt0_A V c t h0 h1) (sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t))
theorem accV_B (c : Dev nD) (t : Fin cfg0.N) (h0 : ¬t.val % 8 = 0) (h1 : ¬t.val % 8 = 7) :
    (outsAt0 (F := Ideal) V c t.val t.isLt).2.1 = k0_pay24 (F := Ideal) (iblk0 V c 0 t) (outsAt0 V c (t.val - 1) (Nat.lt_of_le_of_lt (Nat.sub_le _ _) t.isLt)).2.1 (iblk0 V c 3 t) :=
  tup2 _ _ _ _ _ _ (outsAt0_B V c t h0 h1) (sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2)
theorem accV_C (c : Dev nD) (t : Fin cfg0.N) (h0 : ¬t.val % 8 = 0) (h1 : t.val % 8 = 7) :
    (outsAt0 (F := Ideal) V c t.val t.isLt).2.1 = k0_pay24 (F := Ideal) (iblk0 V c 0 t) (outsAt0 V c (t.val - 1) (Nat.lt_of_le_of_lt (Nat.sub_le _ _) t.isLt)).2.1 (iblk0 V c 3 t) :=
  tup2 _ _ _ _ _ _ (outsAt0_C V c t h0 h1) (sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2)

theorem accK_A (c : Dev nD) (t : Fin cfg0.N) (h0 : t.val % 8 = 0) (h1 : ¬t.val % 8 = 7) :
    (outsAt0 (F := Ideal) V c t.val t.isLt).2.2.1 = k0_pay22 (F := Ideal) (iblk0 V c 0 t) (k0_pay19 (F := Ideal)) (iblk0 V c 1 t) :=
  tup3 _ _ _ _ _ _ (outsAt0_A V c t h0 h1) (sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t))
theorem accK_B (c : Dev nD) (t : Fin cfg0.N) (h0 : ¬t.val % 8 = 0) (h1 : ¬t.val % 8 = 7) :
    (outsAt0 (F := Ideal) V c t.val t.isLt).2.2.1 = k0_pay22 (F := Ideal) (iblk0 V c 0 t) (outsAt0 V c (t.val - 1) (Nat.lt_of_le_of_lt (Nat.sub_le _ _) t.isLt)).2.2.1 (iblk0 V c 1 t) :=
  tup3 _ _ _ _ _ _ (outsAt0_B V c t h0 h1) (sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2)
theorem accK_C (c : Dev nD) (t : Fin cfg0.N) (h0 : ¬t.val % 8 = 0) (h1 : t.val % 8 = 7) :
    (outsAt0 (F := Ideal) V c t.val t.isLt).2.2.1 = k0_pay22 (F := Ideal) (iblk0 V c 0 t) (outsAt0 V c (t.val - 1) (Nat.lt_of_le_of_lt (Nat.sub_le _ _) t.isLt)).2.2.1 (iblk0 V c 1 t) :=
  tup3 _ _ _ _ _ _ (outsAt0_C V c t h0 h1) (sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2)

theorem accQ_A (c : Dev nD) (t : Fin cfg0.N) (h0 : t.val % 8 = 0) (h1 : ¬t.val % 8 = 7) :
    (outsAt0 (F := Ideal) V c t.val t.isLt).2.2.2 = k0_pay23 (F := Ideal) (iblk0 V c 0 t) (k0_pay20 (F := Ideal)) (iblk0 V c 2 t) :=
  tup4 _ _ _ _ _ _ (outsAt0_A V c t h0 h1) (sout_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t))
theorem accQ_B (c : Dev nD) (t : Fin cfg0.N) (h0 : ¬t.val % 8 = 0) (h1 : ¬t.val % 8 = 7) :
    (outsAt0 (F := Ideal) V c t.val t.isLt).2.2.2 = k0_pay23 (F := Ideal) (iblk0 V c 0 t) (outsAt0 V c (t.val - 1) (Nat.lt_of_le_of_lt (Nat.sub_le _ _) t.isLt)).2.2.2 (iblk0 V c 2 t) :=
  tup4 _ _ _ _ _ _ (outsAt0_B V c t h0 h1) (sout_B_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2)
theorem accQ_C (c : Dev nD) (t : Fin cfg0.N) (h0 : ¬t.val % 8 = 0) (h1 : t.val % 8 = 7) :
    (outsAt0 (F := Ideal) V c t.val t.isLt).2.2.2 = k0_pay23 (F := Ideal) (iblk0 V c 0 t) (outsAt0 V c (t.val - 1) (Nat.lt_of_le_of_lt (Nat.sub_le _ _) t.isLt)).2.2.2 (iblk0 V c 2 t) :=
  tup4 _ _ _ _ _ _ (outsAt0_C V c t h0 h1) (sout_C_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2)

theorem normB_congr {kp kp' qp qp' : FVec Ideal S512x64 .f32} {va va' : FVec Ideal S512x4096 .f32} (bk bq : FVec Ideal S64 .f32) (bv lng lnb : FVec Ideal S4096 .f32)
    (h1 : kp = kp') (h2 : qp = qp') (h3 : va = va') : normB kp bk qp bq va bv lng lnb = normB kp' bk qp' bq va' bv lng lnb := by
  subst h1 h2 h3; rfl

/-- The block a last step stores: the epilogue of the accumulators it leaves. -/
theorem out_C_val (c : Dev nD) (t : Fin cfg0.N) (h0 : ¬t.val % 8 = 0) (h1 : t.val % 8 = 7) :
    (outsAt0 (F := Ideal) V c t.val t.isLt).1 = fun y => normB (outsAt0 (F := Ideal) V c t.val t.isLt).2.2.1 (iblk0 V c 4 t) (outsAt0 (F := Ideal) V c t.val t.isLt).2.2.2 (iblk0 V c 5 t)
      (outsAt0 (F := Ideal) V c t.val t.isLt).2.1 (iblk0 V c 6 t) (iblk0 V c 7 t) (iblk0 V c 8 t) (y 0) (y 1) :=
  (tup1 _ _ _ _ _ _ (outsAt0_C V c t h0 h1) (out_C_9_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2)).trans
    (funext fun y => congrFun (congrFun (normB_congr (iblk0 V c 4 t) (iblk0 V c 5 t) (iblk0 V c 6 t) (iblk0 V c 7 t) (iblk0 V c 8 t)
      (accK_C V c t h0 h1).symm (accQ_C V c t h0 h1).symm (accV_C V c t h0 h1).symm) (y 0)) (y 1))

/-! ### The three folds over a run of eight reduction steps -/

/-- The K accumulator after point n, read at (b, p). -/
def accK (c : Dev nD) (n : ℕ) (h : n < cfg0.N) : Fin 512 × Fin 64 → EReal :=
  fun bp => (outsAt0 (F := Ideal) V c n h).2.2.1 (ix2 bp.1 bp.2)

/-- Point n's addend at (b, p): row b of its x block against row p of its weight block. -/
def addK (c : Dev nD) (n : ℕ) : Fin 512 × Fin 64 → EReal := fun bp =>
  ∑ k : Fin 512, rd2 (m := 8192) (n := 4096) (aX V c) (512 * (n / 8) + bp.1.val) (512 * (n % 8) + k.val)
    * rd2 (m := 64) (n := 4096) (aWk V c) bp.2.val (512 * (n % 8) + k.val)

theorem stepK_apply (c : Dev nD) (t : Fin cfg0.N) (acc : FVec Ideal S512x64 .f32) (b : Fin 512) (p : Fin 64) :
    k0_pay22 (F := Ideal) (iblk0 V c 0 t) acc (iblk0 V c 1 t) (ix2 b p) = acc (ix2 b p) + addK V c t.val (b, p) := by
  refine (pay22_apply (iblk0 V c 0 t) acc (iblk0 V c 1 t) b p).trans ?_
  refine congrArg (acc (ix2 b p) + ·) (Finset.sum_congr rfl fun k _ => ?_)
  exact congrArg₂ (· * ·) (iblk0_0_apply V c t b k) (iblk0_1_apply V c t p k)

theorem accK_reset (c : Dev nD) (n : ℕ) (h : n < cfg0.N) (h0 : n % 8 = 0) :
    accK V c n h = fun bp => 0 + addK V c n bp := by
  funext bp
  obtain ⟨b, p⟩ := bp
  show (outsAt0 (F := Ideal) V c n h).2.2.1 (ix2 b p) = _
  refine (congrFun (accK_A V c ⟨n, h⟩ h0 (by show ¬n % 8 = 7; omega)) (ix2 b p)).trans ?_
  refine (stepK_apply V c ⟨n, h⟩ (k0_pay19 (F := Ideal)) b p).trans ?_
  exact congrArg (· + addK V c n (b, p)) (pay19_apply (ix2 b p))

theorem accK_step (c : Dev nD) (n : ℕ) (h : n + 1 < cfg0.N) (h0 : ¬(n + 1) % 8 = 0) :
    accK V c (n + 1) h = fun bp => accK V c n (Nat.lt_of_succ_lt h) bp + addK V c (n + 1) bp := by
  funext bp
  obtain ⟨b, p⟩ := bp
  show (outsAt0 (F := Ideal) V c (n + 1) h).2.2.1 (ix2 b p) = (outsAt0 (F := Ideal) V c n (Nat.lt_of_succ_lt h)).2.2.1 (ix2 b p) + addK V c (n + 1) (b, p)
  by_cases h7 : (n + 1) % 8 = 7
  · refine (congrFun (accK_C V c ⟨n + 1, h⟩ h0 h7) (ix2 b p)).trans ?_
    exact stepK_apply V c ⟨n + 1, h⟩ (outsAt0 (F := Ideal) V c n (Nat.lt_of_succ_lt h)).2.2.1 b p
  · refine (congrFun (accK_B V c ⟨n + 1, h⟩ h0 h7) (ix2 b p)).trans ?_
    exact stepK_apply V c ⟨n + 1, h⟩ (outsAt0 (F := Ideal) V c n (Nat.lt_of_succ_lt h)).2.2.1 b p

/-- At a last step the accumulator is the sum of the run's eight addends. -/
theorem accK_last (c : Dev nD) (t : ℕ) (ht : t < cfg0.N) (h7 : t % 8 = 7) (bp : Fin 512 × Fin 64) :
    accK V c t ht bp = ∑ s : Fin 8, addK V c (8 * (t / 8) + s.val) bp := by
  have hb : 8 * (t / 8) + t % 8 < cfg0.N := by rw [Nat.div_add_mod]; exact ht
  rw [Pipeline.eq_accAt_of_mod (accK V c) 8 (fun n _ bp => 0 + addK V c n bp) (fun n _ acc bp => acc bp + addK V c n bp)
    (accK_reset V c) (accK_step V c) (by decide) t ht hb]
  rw [Pipeline.accAt_add_apply (fun n _ bp => 0 + addK V c n bp) (fun n _ acc bp => acc bp + addK V c n bp)
    (fun _ => (0 : EReal)) (addK V c) (8 * (t / 8)) 7 (fun _ _ => rfl) (fun _ _ _ _ _ _ => rfl) (t % 8) (by omega) hb bp]
  rw [h7, zero_add, Finset.sum_range]

/-- So at a last step it holds row R = 512 (t / 8) + b of x against row p of the weight, over all 4096 columns. -/
theorem accK_full (c : Dev nD) (t : ℕ) (ht : t < cfg0.N) (h7 : t % 8 = 7) (b : Fin 512) (p : Fin 64) (R : Fin 8192) (hR : R.val = 512 * (t / 8) + b.val) :
    (outsAt0 (F := Ideal) V c t ht).2.2.1 (ix2 b p) = ∑ k : Fin 4096, aX V c (ix2 R k) * aWk V c (ix2 p k) := by
  show accK V c t ht (b, p) = _
  rw [accK_last V c t ht h7]
  refine Eq.symm (Eq.trans (b := ∑ e : Fin 4096, (fun r => rd2 (m := 8192) (n := 4096) (aX V c) (512 * (t / 8) + b.val) r
      * rd2 (m := 64) (n := 4096) (aWk V c) p.val r) e.val) ?_ ?_)
  · refine Finset.sum_congr rfl fun k _ => ?_
    exact congrArg₂ (· * ·) (rd2_of_val (m := 8192) (n := 4096) (aX V c) (ix2 R k) _ _ hR rfl)
      (rd2_of_val (m := 64) (n := 4096) (aWk V c) (ix2 p k) _ _ rfl rfl)
  · refine (sum_eight_blocks (fun r => rd2 (m := 8192) (n := 4096) (aX V c) (512 * (t / 8) + b.val) r
      * rd2 (m := 64) (n := 4096) (aWk V c) p.val r)).trans ?_
    refine Finset.sum_congr rfl fun s _ => ?_
    have hs : s.val < 8 := s.isLt
    have a0 : (8 * (t / 8) + s.val) / 8 = t / 8 := by omega
    have a1 : (8 * (t / 8) + s.val) % 8 = s.val := by omega
    unfold addK
    rw [a0, a1]

/-- The Q accumulator after point n, read at (b, p). -/
def accQ (c : Dev nD) (n : ℕ) (h : n < cfg0.N) : Fin 512 × Fin 64 → EReal :=
  fun bp => (outsAt0 (F := Ideal) V c n h).2.2.2 (ix2 bp.1 bp.2)

/-- Point n's addend at (b, p): row b of its x block against row p of its weight block. -/
def addQ (c : Dev nD) (n : ℕ) : Fin 512 × Fin 64 → EReal := fun bp =>
  ∑ k : Fin 512, rd2 (m := 8192) (n := 4096) (aX V c) (512 * (n / 8) + bp.1.val) (512 * (n % 8) + k.val)
    * rd2 (m := 64) (n := 4096) (aWq V c) bp.2.val (512 * (n % 8) + k.val)

theorem stepQ_apply (c : Dev nD) (t : Fin cfg0.N) (acc : FVec Ideal S512x64 .f32) (b : Fin 512) (p : Fin 64) :
    k0_pay23 (F := Ideal) (iblk0 V c 0 t) acc (iblk0 V c 2 t) (ix2 b p) = acc (ix2 b p) + addQ V c t.val (b, p) := by
  refine (pay23_apply (iblk0 V c 0 t) acc (iblk0 V c 2 t) b p).trans ?_
  refine congrArg (acc (ix2 b p) + ·) (Finset.sum_congr rfl fun k _ => ?_)
  exact congrArg₂ (· * ·) (iblk0_0_apply V c t b k) (iblk0_2_apply V c t p k)

theorem accQ_reset (c : Dev nD) (n : ℕ) (h : n < cfg0.N) (h0 : n % 8 = 0) :
    accQ V c n h = fun bp => 0 + addQ V c n bp := by
  funext bp
  obtain ⟨b, p⟩ := bp
  show (outsAt0 (F := Ideal) V c n h).2.2.2 (ix2 b p) = _
  refine (congrFun (accQ_A V c ⟨n, h⟩ h0 (by show ¬n % 8 = 7; omega)) (ix2 b p)).trans ?_
  refine (stepQ_apply V c ⟨n, h⟩ (k0_pay20 (F := Ideal)) b p).trans ?_
  exact congrArg (· + addQ V c n (b, p)) (pay20_apply (ix2 b p))

theorem accQ_step (c : Dev nD) (n : ℕ) (h : n + 1 < cfg0.N) (h0 : ¬(n + 1) % 8 = 0) :
    accQ V c (n + 1) h = fun bp => accQ V c n (Nat.lt_of_succ_lt h) bp + addQ V c (n + 1) bp := by
  funext bp
  obtain ⟨b, p⟩ := bp
  show (outsAt0 (F := Ideal) V c (n + 1) h).2.2.2 (ix2 b p) = (outsAt0 (F := Ideal) V c n (Nat.lt_of_succ_lt h)).2.2.2 (ix2 b p) + addQ V c (n + 1) (b, p)
  by_cases h7 : (n + 1) % 8 = 7
  · refine (congrFun (accQ_C V c ⟨n + 1, h⟩ h0 h7) (ix2 b p)).trans ?_
    exact stepQ_apply V c ⟨n + 1, h⟩ (outsAt0 (F := Ideal) V c n (Nat.lt_of_succ_lt h)).2.2.2 b p
  · refine (congrFun (accQ_B V c ⟨n + 1, h⟩ h0 h7) (ix2 b p)).trans ?_
    exact stepQ_apply V c ⟨n + 1, h⟩ (outsAt0 (F := Ideal) V c n (Nat.lt_of_succ_lt h)).2.2.2 b p

/-- At a last step the accumulator is the sum of the run's eight addends. -/
theorem accQ_last (c : Dev nD) (t : ℕ) (ht : t < cfg0.N) (h7 : t % 8 = 7) (bp : Fin 512 × Fin 64) :
    accQ V c t ht bp = ∑ s : Fin 8, addQ V c (8 * (t / 8) + s.val) bp := by
  have hb : 8 * (t / 8) + t % 8 < cfg0.N := by rw [Nat.div_add_mod]; exact ht
  rw [Pipeline.eq_accAt_of_mod (accQ V c) 8 (fun n _ bp => 0 + addQ V c n bp) (fun n _ acc bp => acc bp + addQ V c n bp)
    (accQ_reset V c) (accQ_step V c) (by decide) t ht hb]
  rw [Pipeline.accAt_add_apply (fun n _ bp => 0 + addQ V c n bp) (fun n _ acc bp => acc bp + addQ V c n bp)
    (fun _ => (0 : EReal)) (addQ V c) (8 * (t / 8)) 7 (fun _ _ => rfl) (fun _ _ _ _ _ _ => rfl) (t % 8) (by omega) hb bp]
  rw [h7, zero_add, Finset.sum_range]

/-- So at a last step it holds row R = 512 (t / 8) + b of x against row p of the weight, over all 4096 columns. -/
theorem accQ_full (c : Dev nD) (t : ℕ) (ht : t < cfg0.N) (h7 : t % 8 = 7) (b : Fin 512) (p : Fin 64) (R : Fin 8192) (hR : R.val = 512 * (t / 8) + b.val) :
    (outsAt0 (F := Ideal) V c t ht).2.2.2 (ix2 b p) = ∑ k : Fin 4096, aX V c (ix2 R k) * aWq V c (ix2 p k) := by
  show accQ V c t ht (b, p) = _
  rw [accQ_last V c t ht h7]
  refine Eq.symm (Eq.trans (b := ∑ e : Fin 4096, (fun r => rd2 (m := 8192) (n := 4096) (aX V c) (512 * (t / 8) + b.val) r
      * rd2 (m := 64) (n := 4096) (aWq V c) p.val r) e.val) ?_ ?_)
  · refine Finset.sum_congr rfl fun k _ => ?_
    exact congrArg₂ (· * ·) (rd2_of_val (m := 8192) (n := 4096) (aX V c) (ix2 R k) _ _ hR rfl)
      (rd2_of_val (m := 64) (n := 4096) (aWq V c) (ix2 p k) _ _ rfl rfl)
  · refine (sum_eight_blocks (fun r => rd2 (m := 8192) (n := 4096) (aX V c) (512 * (t / 8) + b.val) r
      * rd2 (m := 64) (n := 4096) (aWq V c) p.val r)).trans ?_
    refine Finset.sum_congr rfl fun s _ => ?_
    have hs : s.val < 8 := s.isLt
    have a0 : (8 * (t / 8) + s.val) / 8 = t / 8 := by omega
    have a1 : (8 * (t / 8) + s.val) % 8 = s.val := by omega
    unfold addQ
    rw [a0, a1]

/-- The V accumulator after point n, read at (b, p). -/
def accV (c : Dev nD) (n : ℕ) (h : n < cfg0.N) : Fin 512 × Fin 4096 → EReal :=
  fun bp => (outsAt0 (F := Ideal) V c n h).2.1 (ix2 bp.1 bp.2)

/-- Point n's addend at (b, p): row b of its x block against row p of its weight block. -/
def addV (c : Dev nD) (n : ℕ) : Fin 512 × Fin 4096 → EReal := fun bp =>
  ∑ k : Fin 512, rd2 (m := 8192) (n := 4096) (aX V c) (512 * (n / 8) + bp.1.val) (512 * (n % 8) + k.val)
    * rd2 (m := 4096) (n := 4096) (aWv V c) bp.2.val (512 * (n % 8) + k.val)

theorem stepV_apply (c : Dev nD) (t : Fin cfg0.N) (acc : FVec Ideal S512x4096 .f32) (b : Fin 512) (p : Fin 4096) :
    k0_pay24 (F := Ideal) (iblk0 V c 0 t) acc (iblk0 V c 3 t) (ix2 b p) = acc (ix2 b p) + addV V c t.val (b, p) := by
  refine (pay24_apply (iblk0 V c 0 t) acc (iblk0 V c 3 t) b p).trans ?_
  refine congrArg (acc (ix2 b p) + ·) (Finset.sum_congr rfl fun k _ => ?_)
  exact congrArg₂ (· * ·) (iblk0_0_apply V c t b k) (iblk0_3_apply V c t p k)

theorem accV_reset (c : Dev nD) (n : ℕ) (h : n < cfg0.N) (h0 : n % 8 = 0) :
    accV V c n h = fun bp => 0 + addV V c n bp := by
  funext bp
  obtain ⟨b, p⟩ := bp
  show (outsAt0 (F := Ideal) V c n h).2.1 (ix2 b p) = _
  refine (congrFun (accV_A V c ⟨n, h⟩ h0 (by show ¬n % 8 = 7; omega)) (ix2 b p)).trans ?_
  refine (stepV_apply V c ⟨n, h⟩ (k0_pay18 (F := Ideal)) b p).trans ?_
  exact congrArg (· + addV V c n (b, p)) (pay18_apply (ix2 b p))

theorem accV_step (c : Dev nD) (n : ℕ) (h : n + 1 < cfg0.N) (h0 : ¬(n + 1) % 8 = 0) :
    accV V c (n + 1) h = fun bp => accV V c n (Nat.lt_of_succ_lt h) bp + addV V c (n + 1) bp := by
  funext bp
  obtain ⟨b, p⟩ := bp
  show (outsAt0 (F := Ideal) V c (n + 1) h).2.1 (ix2 b p) = (outsAt0 (F := Ideal) V c n (Nat.lt_of_succ_lt h)).2.1 (ix2 b p) + addV V c (n + 1) (b, p)
  by_cases h7 : (n + 1) % 8 = 7
  · refine (congrFun (accV_C V c ⟨n + 1, h⟩ h0 h7) (ix2 b p)).trans ?_
    exact stepV_apply V c ⟨n + 1, h⟩ (outsAt0 (F := Ideal) V c n (Nat.lt_of_succ_lt h)).2.1 b p
  · refine (congrFun (accV_B V c ⟨n + 1, h⟩ h0 h7) (ix2 b p)).trans ?_
    exact stepV_apply V c ⟨n + 1, h⟩ (outsAt0 (F := Ideal) V c n (Nat.lt_of_succ_lt h)).2.1 b p

/-- At a last step the accumulator is the sum of the run's eight addends. -/
theorem accV_last (c : Dev nD) (t : ℕ) (ht : t < cfg0.N) (h7 : t % 8 = 7) (bp : Fin 512 × Fin 4096) :
    accV V c t ht bp = ∑ s : Fin 8, addV V c (8 * (t / 8) + s.val) bp := by
  have hb : 8 * (t / 8) + t % 8 < cfg0.N := by rw [Nat.div_add_mod]; exact ht
  rw [Pipeline.eq_accAt_of_mod (accV V c) 8 (fun n _ bp => 0 + addV V c n bp) (fun n _ acc bp => acc bp + addV V c n bp)
    (accV_reset V c) (accV_step V c) (by decide) t ht hb]
  rw [Pipeline.accAt_add_apply (fun n _ bp => 0 + addV V c n bp) (fun n _ acc bp => acc bp + addV V c n bp)
    (fun _ => (0 : EReal)) (addV V c) (8 * (t / 8)) 7 (fun _ _ => rfl) (fun _ _ _ _ _ _ => rfl) (t % 8) (by omega) hb bp]
  rw [h7, zero_add, Finset.sum_range]

/-- So at a last step it holds row R = 512 (t / 8) + b of x against row p of the weight, over all 4096 columns. -/
theorem accV_full (c : Dev nD) (t : ℕ) (ht : t < cfg0.N) (h7 : t % 8 = 7) (b : Fin 512) (p : Fin 4096) (R : Fin 8192) (hR : R.val = 512 * (t / 8) + b.val) :
    (outsAt0 (F := Ideal) V c t ht).2.1 (ix2 b p) = ∑ k : Fin 4096, aX V c (ix2 R k) * aWv V c (ix2 p k) := by
  show accV V c t ht (b, p) = _
  rw [accV_last V c t ht h7]
  refine Eq.symm (Eq.trans (b := ∑ e : Fin 4096, (fun r => rd2 (m := 8192) (n := 4096) (aX V c) (512 * (t / 8) + b.val) r
      * rd2 (m := 4096) (n := 4096) (aWv V c) p.val r) e.val) ?_ ?_)
  · refine Finset.sum_congr rfl fun k _ => ?_
    exact congrArg₂ (· * ·) (rd2_of_val (m := 8192) (n := 4096) (aX V c) (ix2 R k) _ _ hR rfl)
      (rd2_of_val (m := 4096) (n := 4096) (aWv V c) (ix2 p k) _ _ rfl rfl)
  · refine (sum_eight_blocks (fun r => rd2 (m := 8192) (n := 4096) (aX V c) (512 * (t / 8) + b.val) r
      * rd2 (m := 4096) (n := 4096) (aWv V c) p.val r)).trans ?_
    refine Finset.sum_congr rfl fun s _ => ?_
    have hs : s.val < 8 := s.isLt
    have a0 : (8 * (t / 8) + s.val) / 8 = t / 8 := by omega
    have a1 : (8 * (t / 8) + s.val) % 8 = s.val := by omega
    unfold addV
    rw [a0, a1]

/-! ### From blocks to the array -/

/-- The normalised activations, index by index. -/
def G0 (c : Dev nD) : S8192x4096.Idx → EReal := fun j =>
  Cert.Spec.normedK (aX V c) (aWk V c) (aBk V c) (aWq V c) (aBq V c) (aWv V c) (aBv V c) (aLg V c) (aLb V c) (j 0) (j 1)

/-- What a last step writes back is its block of the normalised activations. -/
theorem flushed0_9_eq (c : Dev nD) (t : Fin cfg0.N) (hf : (cfg0.win 9).flush t = true) :
    (dat0 (F := Ideal) V c).flushed 9 t = ((cfg0.win 9).blk t).view.read (Elt Ideal) (G0 V c) := by
  have h7 : t.val % 8 = 7 := (flush0_9 t).mp hf
  have h0 : ¬t.val % 8 = 0 := by omega
  obtain ⟨-, -, -, -, -, -, -, -, -, -, -, -, -, e0, e1⟩ := idx0_facts t
  show (cfg0.win 9).cut (grid0.coords t) ((dat0 V c).after 9 t) = _
  rw [after0_9, out_C_val V c t h0 h7, iblk0_4_eq V c t, iblk0_5_eq V c t, iblk0_6_eq V c t, iblk0_7_eq V c t, iblk0_8_eq V c t]
  refine @funext S512x4096.Idx _ _ _ fun y => ?_
  obtain ⟨b, d, rfl⟩ : ∃ (b : Fin 512) (d : Fin 4096), y = ix2 b d := ⟨y 0, y 1, eq_ix2 y⟩
  rw [View.read_apply]
  have hR : ((((cfg0.win 9).blk t).view.emb (ix2 b d)) 0).val = 512 * (t.val / 8) + b.val := by
    show win0_9.index t (0 : Fin 2) * 512 + 1 * b.val = _
    rw [e0]; omega
  have hD : (((cfg0.win 9).blk t).view.emb (ix2 b d)) 1 = d := Fin.ext (by
    show win0_9.index t (1 : Fin 2) * 4096 + 1 * d.val = d.val
    rw [e1]; omega)
  show normB _ _ _ _ _ _ _ _ b d = G0 V c (((cfg0.win 9).blk t).view.emb (ix2 b d))
  refine (normB_eq _ _ _ (aX V c) (aWk V c) (aBk V c) (aWq V c) (aBq V c) (aWv V c) (aBv V c) (aLg V c) (aLb V c) _ b
    (fun p => accK_full V c t.val t.isLt h7 b p _ hR) (fun p => accQ_full V c t.val t.isLt h7 b p _ hR)
    (fun d' => accV_full V c t.val t.isLt h7 b d' _ hR) d).trans ?_
  exact congrArg (Cert.Spec.normedK (aX V c) (aWk V c) (aBk V c) (aWq V c) (aBq V c) (aWv V c) (aBv V c) (aLg V c) (aLb V c) _) hD.symm

/-- Every element of the array is in the block of some last step: the one of grid row i₀ / 512. -/
theorem covers0_9 (i : S8192x4096.Idx) :
    ∃ t : Fin cfg0.N, (cfg0.win 9).flush t = true ∧ i ∈ ((cfg0.win 9).blk t).view.set := by
  have h0 : (i 0).val < 8192 := idx2_lt0 i
  have h1 : (i 1).val < 4096 := idx2_lt1 i
  have hN : cfg0.N = 128 := N_0
  obtain ⟨t, ht⟩ : ∃ t : Fin cfg0.N, t.val = 8 * ((i 0).val / 512) + 7 :=
    ⟨⟨8 * ((i 0).val / 512) + 7, by rw [hN]; omega⟩, rfl⟩
  obtain ⟨-, -, -, -, -, -, -, -, -, -, -, -, -, e0, e1⟩ := idx0_facts t
  refine ⟨t, (flush0_9 t).mpr (by omega), ?_⟩
  show i ∈ ((View.whole main_v4).slice (win0_9.rect t)).set
  rw [View.set_slice_whole, Rect.mem_set_unit]
  intro a
  match a with
  | ⟨0, _⟩ =>
    show win0_9.index t (0 : Fin 2) * 512 ≤ (i 0).val ∧ (i 0).val < win0_9.index t (0 : Fin 2) * 512 + 512
    rw [e0]; omega
  | ⟨1, _⟩ =>
    show win0_9.index t (1 : Fin 2) * 4096 ≤ (i 1).val ∧ (i 1).val < win0_9.index t (1 : Fin 2) * 4096 + 4096
    rw [e1]; omega

/-- THE VALUE OF THE PHASOR REGION: after its last point the normalised-activation array holds the specification's
    kernel-grouped value, index by index, of the arrays as the region finds them. -/
theorem arrAt0_eq (c : Dev nD) :
    (dat0 (F := Ideal) V c).arrAt 9 cfg0.N = fun j : S8192x4096.Idx =>
      Cert.Spec.normedK (aX V c) (aWk V c) (aBk V c) (aWq V c) (aBq V c) (aWv V c) (aBv V c) (aLg V c) (aLb V c) (j 0) (j 1) :=
  (dat0 (F := Ideal) V c).arrAt_eq_of_cover 9 (G0 V c) (flushed0_9_eq V c) covers0_9

end Cert.KernelIdeal.Hand

end
-- ==== Proof.KIVal.lean ====
import proofs.«112781_j3195455668476_2_alg».proof.Proof.KIBound
import proofs.«112781_j3195455668476_2_alg».proof.Proof.KIR1Val
import proofs.«112781_j3195455668476_2_alg».proof.Proof.KIR0Val
import proofs.«112781_j3195455668476_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- Region 1's closed form over named operands: residual plus the normed rows against `Wo`'s rows plus the bias. -/
def outOf (x : Cert.Spec.SBD.Idx → EReal) (N : Cert.Spec.SBD.Idx → EReal) (Wo : Cert.Spec.SDD.Idx → EReal) (bo : Cert.Spec.SD.Idx → EReal) :
    Cert.Spec.SBD.Idx → EReal := fun j =>
  (x (ix2 (j 0) (j 1)) + ∑ d : Fin 4096, N (ix2 (j 0) d) * Wo (ix2 (j 1) d)) + bo (ix1 (j 1))

variable (m : (ℓ : Loc nD τ sig) → Buf (Elt Ideal) ℓ) (ρ : Dev nD → PrngReg)

/-- The result array from the normed array: region 1's closed form, its operands read back to the launch memory. -/
theorem result_eq_of (c : Dev nD) (N : Cert.Spec.SBD.Idx → EReal)
    (hN : (dat0 (F := Ideal) (V1 m ρ) c).arrAt 9 cfg0.N = N) :
    W3 m ρ c (Proc.devRef .tc main_v5) = outOf (m ((c : Thread nD τ).loc main_arg0)) N (m ((c : Thread nD τ).loc main_arg9)) (m ((c : Thread nD τ).loc main_arg10)) := by
  rw [W3_main_v5, arrAt1_eq]
  funext j
  simp only [arrX, arrN, arrW, arrB]
  rw [V2_main_arg0, V2_main_v3, V2_main_arg10, V2_main_v4, hN]
  unfold outOf
  refine congrArg₂ (· + ·) (congrArg₂ (· + ·) ?_ rfl) rfl
  exact congrArg _ (eq_ix2 j)

/-- The normed array region 0 leaves, over the launch memory: its closed form, the operands read back through the host
    conversions (identities on the extended reals). -/
theorem normed_eq (c : Dev nD) :
    (dat0 (F := Ideal) (V1 m ρ) c).arrAt 9 cfg0.N = fun j : S8192x4096.Idx =>
      Cert.Spec.normedK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (j 0) (j 1) := by
  rw [arrAt0_eq (V1 m ρ) c]
  simp only [aX, aWk, aBk, aWq, aBq, aWv, aBv, aLg, aLb]
  rw [V1_arg m ρ c main_arg0 (by decide), V1_main_v0, V1_arg m ρ c main_arg2 (by decide), V1_main_v1,
    V1_arg m ρ c main_arg4 (by decide), V1_main_v2, V1_arg m ρ c main_arg6 (by decide), V1_arg m ρ c main_arg7 (by decide),
    V1_arg m ρ c main_arg8 (by decide)]

/-- THE KERNEL'S RESULT: the result array ends at the specification's function of the launch contents of the arguments. -/
theorem result_eq (c : Dev nD) :
    W3 m ρ c (Proc.devRef .tc main_v5) = Cert.Spec.GK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (result_eq_of m ρ c _ (normed_eq m ρ c)).trans rfl

end Cert.KernelIdeal.Hand

end
-- ==== Proof.RefValue.lean ====
import proofs.«112781_j3195455668476_2_alg».proof.Proof.Gen.ReferenceIdeal.Read
import proofs.«112781_j3195455668476_2_alg».proof.Proof.Spec
import Idealize.ShloMosaic.Lib.ValueIdx
import Idealize.ShloMosaic.PureOps.Ideal.Laws

/-!
The reference's result, read one operation at a time, is the specification's `GR`.

Every stage of the reference is read at an index built from literal coordinates: a stage of shape `[8192, 64]` at
`ix2 b p`, of shape `[8192, 4096]` at `ix2 b d`, a keep-dims column `[8192, 1]` at `ix2 b 0`, a row vector at `ix1 b`.
Layout operations (transposes, broadcasts) only move the index; each contraction and each row sum is a finite sum over the
contracted coordinate, a row sum starting from the zero word; the comparison `t ≠ t` guarding the softplus is never true on
the extended reals, so the select takes the branch `max t 0 + log1p (exp (-|t - 0|))`.
-/

noncomputable section

namespace Cert.RefSide

open Idealize.ShloMosaic Idealize.ShloMosaic.ValueIdx Cert.ReferenceIdeal Cert.ReferenceIdeal.Read Cert.Spec

/-- Two index functions of rank two agree when their coordinates do. -/
local macro "idx2" : tactic =>
  `(tactic| exact funext fun a => Fin.ext (by match a with | ⟨0, _⟩ => rfl | ⟨1, _⟩ => rfl))
/-- Two index functions of rank one agree when their coordinate does. -/
local macro "idx1" : tactic =>
  `(tactic| exact funext fun a => Fin.ext (by match a with | ⟨0, _⟩ => rfl))

variable (x : (⟨S8192x4096, .f32⟩ : BufTy).Contents (Elt Ideal))
  (Wk : (⟨S64x4096, .f32⟩ : BufTy).Contents (Elt Ideal)) (bk : (⟨S64, .f32⟩ : BufTy).Contents (Elt Ideal))
  (Wq : (⟨S64x4096, .f32⟩ : BufTy).Contents (Elt Ideal)) (bq : (⟨S64, .f32⟩ : BufTy).Contents (Elt Ideal))
  (Wv : (⟨S4096x4096, .f32⟩ : BufTy).Contents (Elt Ideal)) (bv : (⟨S4096, .f32⟩ : BufTy).Contents (Elt Ideal))
  (lng lnb : (⟨S4096, .f32⟩ : BufTy).Contents (Elt Ideal))
  (Wo : (⟨S4096x4096, .f32⟩ : BufTy).Contents (Elt Ideal)) (bo : (⟨S4096, .f32⟩ : BufTy).Contents (Elt Ideal))

/-! ### The two phases -/

/-- The key projection: row `b` of `x` against row `p` of `Wk`. -/
theorem v1_at (b : Fin 8192) (p : Fin 64) :
    val_main_v1 (F := Ideal) x Wk (ix2 b p) = proj x Wk b p := by
  rw [val_main_v1_apply]
  show _ = ∑ k : Fin 4096, x (ix2 b k) * Wk (ix2 p k)
  refine Finset.sum_congr rfl fun k _ => ?_
  have e1 : lidx_main_v1 (ix2 b p) k = ix2 b k := by idx2
  have e2 : idx_main_v0 (ridx_main_v1 (ix2 b p) k) = ix2 p k := by idx2
  rw [val_main_v0_apply, e1, e2]

/-- The key phase. -/
theorem v7_at (b : Fin 8192) (p : Fin 64) :
    val_main_v7 (F := Ideal) x Wk bk (ix2 b p) = phase x Wk bk b p := by
  rw [val_main_v7_apply, val_main_v5_apply, val_main_v4_apply, v1_at, val_main_v3_apply, val_main_v2_apply,
    val_main_v6_apply, val_main_cst_apply]
  have e : idx_main_v2 (idx_main_v3 (ix2 b p)) = ix1 p := by idx1
  rw [e]
  rfl

/-- The query projection. -/
theorem v9_at (b : Fin 8192) (p : Fin 64) :
    val_main_v9 (F := Ideal) x Wq (ix2 b p) = proj x Wq b p := by
  rw [val_main_v9_apply]
  show _ = ∑ k : Fin 4096, x (ix2 b k) * Wq (ix2 p k)
  refine Finset.sum_congr rfl fun k _ => ?_
  have e1 : lidx_main_v9 (ix2 b p) k = ix2 b k := by idx2
  have e2 : idx_main_v8 (ridx_main_v9 (ix2 b p) k) = ix2 p k := by idx2
  rw [val_main_v8_apply, e1, e2]

/-- The query phase. -/
theorem v15_at (b : Fin 8192) (p : Fin 64) :
    val_main_v15 (F := Ideal) x Wq bq (ix2 b p) = phase x Wq bq b p := by
  rw [val_main_v15_apply, val_main_v13_apply, val_main_v12_apply, v9_at, val_main_v11_apply, val_main_v10_apply,
    val_main_v14_apply, val_main_cst_0_apply]
  have e : idx_main_v10 (idx_main_v11 (ix2 b p)) = ix1 p := by idx1
  rw [e]
  rfl

/-! ### The alignment and the gain -/

/-- The row sum of the cosines starts from the zero word. -/
theorem v18_at (b : Fin 8192) :
    val_main_v18 (F := Ideal) x Wk bk Wq bq (ix1 b) = align x Wk bk Wq bq b := by
  rw [val_main_v18_apply, val_main_cst_1_apply, Ideal.ofBits_def, Ideal.ofBits_zero_f32, zero_add]
  show _ = ∑ p : Fin 64, Ideal.cos (phase x Wk bk b p - phase x Wq bq b p)
  refine Finset.sum_congr rfl fun p _ => ?_
  have e : idx_main_v18 (ix1 b) p = ix2 b p := by idx2
  rw [e, val_main_v17_apply, val_main_v16_apply, v7_at, v15_at]
  rfl

/-- The alignment as a keep-dims column. -/
theorem v19_at (b : Fin 8192) :
    val_main_v19 (F := Ideal) x Wk bk Wq bq (ix2 b (0 : Fin 1)) = align x Wk bk Wq bq b := by
  have e : idx_main_v19 (ix2 b (0 : Fin 1)) = ix1 b := by idx1
  rw [val_main_v19_apply, e, v18_at]

/-- The softplus's argument `a / 64 + 1/2`. -/
theorem v28_at (b : Fin 8192) :
    val_main_v28 (F := Ideal) x Wk bk Wq bq (ix2 b (0 : Fin 1)) = Ideal.div (align x Wk bk Wq bq b) c64 + cHalf := by
  rw [val_main_v28_apply, val_main_v26_apply, v19_at, val_main_v25_apply, val_main_cst_2_apply, val_main_v27_apply,
    val_main_cst_3_apply]
  rfl

/-- On the extended reals nothing differs from itself. -/
theorem cmp_une_self (t : EReal) : Ideal.cmp .une t t = 0#1 := by
  simp [Ideal.cmp]

/-- The gain: the guard never fires, so the select takes the softplus body. -/
theorem v29_at (b : Fin 8192) :
    val_main_v29 (F := Ideal) x Wk bk Wq bq (ix2 b (0 : Fin 1)) = gainR x Wk bk Wq bq b := by
  rw [val_main_v29_apply, val_main_call0_v4_apply, Ideal.cmpf_def, cmp_une_self, select_zero,
    val_main_call0_v11_apply, val_main_call0_v1_apply, val_main_call0_v10_apply, val_main_call0_v9_apply,
    val_main_call0_v8_apply, val_main_call0_v7_apply, val_main_call0_v3_apply, val_main_call0_v0_apply,
    val_main_call0_v2_apply, v28_at]
  rfl

/-! ### The scaled values -/

/-- The value projection plus its bias. -/
theorem v24_at (b : Fin 8192) (d : Fin 4096) :
    val_main_v24 (F := Ideal) x Wv bv (ix2 b d) = vals x Wv bv b d := by
  have hs : val_main_v21 (F := Ideal) x Wv (ix2 b d) = ∑ k : Fin 4096, x (ix2 b k) * Wv (ix2 d k) := by
    rw [val_main_v21_apply]
    refine Finset.sum_congr rfl fun k _ => ?_
    have e1 : lidx_main_v21 (ix2 b d) k = ix2 b k := by idx2
    have e2 : idx_main_v20 (ridx_main_v21 (ix2 b d) k) = ix2 d k := by idx2
    rw [val_main_v20_apply, e1, e2]
  have e : idx_main_v22 (idx_main_v23 (ix2 b d)) = ix1 d := by idx1
  rw [val_main_v24_apply, hs, val_main_v23_apply, val_main_v22_apply, e]
  rfl

/-- The scaled value `((V · a) · g) / 64`. -/
theorem v35_at (b : Fin 8192) (d : Fin 4096) :
    val_main_v35 (F := Ideal) x Wk bk Wq bq Wv bv (ix2 b d) = outR x Wk bk Wq bq Wv bv b d := by
  have e1 : idx_main_v30 (ix2 b d) = ix2 b (0 : Fin 1) := by idx2
  have e2 : idx_main_v32 (ix2 b d) = ix2 b (0 : Fin 1) := by idx2
  rw [val_main_v35_apply, val_main_v33_apply, val_main_v31_apply, v24_at, val_main_v30_apply, e1, v19_at,
    val_main_v32_apply, e2, v29_at, val_main_v34_apply, val_main_cst_4_apply]
  rfl

/-! ### The layer normalisation -/

/-- The row mean. -/
theorem v39_at (b : Fin 8192) :
    val_main_v39 (F := Ideal) x Wk bk Wq bq Wv bv (ix2 b (0 : Fin 1)) = muR x Wk bk Wq bq Wv bv b := by
  have hs : val_main_v36 (F := Ideal) x Wk bk Wq bq Wv bv (ix1 b) = ∑ d : Fin 4096, outR x Wk bk Wq bq Wv bv b d := by
    rw [val_main_v36_apply, val_main_cst_5_apply, Ideal.ofBits_def, Ideal.ofBits_zero_f32, zero_add]
    refine Finset.sum_congr rfl fun d _ => ?_
    have e : idx_main_v36 (ix1 b) d = ix2 b d := by idx2
    rw [e, v35_at]
  have e : idx_main_v37 (ix2 b (0 : Fin 1)) = ix1 b := by idx1
  rw [val_main_v39_apply, val_main_v37_apply, e, hs, val_main_v38_apply, val_main_cst_6_apply]
  rfl

/-- The row variance, the mean of the squared deviations. -/
theorem v46_at (b : Fin 8192) :
    val_main_v46 (F := Ideal) x Wk bk Wq bq Wv bv (ix2 b (0 : Fin 1)) = varR x Wk bk Wq bq Wv bv b := by
  have hs : val_main_v43 (F := Ideal) x Wk bk Wq bq Wv bv (ix1 b)
      = ∑ d : Fin 4096, (outR x Wk bk Wq bq Wv bv b d - muR x Wk bk Wq bq Wv bv b)
          * (outR x Wk bk Wq bq Wv bv b d - muR x Wk bk Wq bq Wv bv b) := by
    rw [val_main_v43_apply, val_main_cst_7_apply, Ideal.ofBits_def, Ideal.ofBits_zero_f32, zero_add]
    refine Finset.sum_congr rfl fun d _ => ?_
    have e : idx_main_v43 (ix1 b) d = ix2 b d := by idx2
    have e' : idx_main_v40 (ix2 b d) = ix2 b (0 : Fin 1) := by idx2
    rw [e, val_main_v42_apply, val_main_v41_apply, v35_at, val_main_v40_apply, e', v39_at]
    rfl
  have e : idx_main_v44 (ix2 b (0 : Fin 1)) = ix1 b := by idx1
  rw [val_main_v46_apply, val_main_v44_apply, e, hs, val_main_v45_apply, val_main_cst_8_apply]
  rfl

/-- The normalised, scaled and shifted value. -/
theorem v59_at (b : Fin 8192) (d : Fin 4096) :
    val_main_v59 (F := Ideal) x Wk bk Wq bq Wv bv lng lnb (ix2 b d) = normedR x Wk bk Wq bq Wv bv lng lnb b d := by
  have e1 : idx_main_v47 (ix2 b d) = ix2 b (0 : Fin 1) := by idx2
  have e2 : idx_main_v52 (ix2 b d) = ix2 b (0 : Fin 1) := by idx2
  have e3 : idx_main_v54 (idx_main_v55 (ix2 b d)) = ix1 d := by idx1
  have e4 : idx_main_v57 (idx_main_v58 (ix2 b d)) = ix1 d := by idx1
  rw [val_main_v59_apply, val_main_v56_apply, val_main_v53_apply, val_main_v48_apply, v35_at, val_main_v47_apply, e1,
    v39_at, val_main_v52_apply, e2, val_main_v51_apply, val_main_v50_apply, v46_at, val_main_v49_apply,
    val_main_cst_9_apply, val_main_v55_apply, val_main_v54_apply, e3, val_main_v58_apply, val_main_v57_apply, e4]
  rfl

/-! ### The output projection and the residual -/

/-- The reference's result at row `b`, feature `n`. -/
theorem v65_at (b : Fin 8192) (n : Fin 4096) :
    val_main_v65 (F := Ideal) x Wk bk Wq bq Wv bv lng lnb Wo bo (ix2 b n)
      = (x (ix2 b n) + ∑ d : Fin 4096, normedR x Wk bk Wq bq Wv bv lng lnb b d * Wo (ix2 n d)) + bo (ix1 n) := by
  have hs : val_main_v61 (F := Ideal) x Wk bk Wq bq Wv bv lng lnb Wo (ix2 b n)
      = ∑ d : Fin 4096, normedR x Wk bk Wq bq Wv bv lng lnb b d * Wo (ix2 n d) := by
    rw [val_main_v61_apply]
    refine Finset.sum_congr rfl fun k _ => ?_
    have e1 : lidx_main_v61 (ix2 b n) k = ix2 b k := by idx2
    have e2 : idx_main_v60 (ridx_main_v61 (ix2 b n) k) = ix2 n k := by idx2
    rw [val_main_v60_apply, e1, e2, v59_at]
  have e : idx_main_v63 (idx_main_v64 (ix2 b n)) = ix1 n := by idx1
  rw [val_main_v65_apply, val_main_v62_apply, hs, val_main_v64_apply, val_main_v63_apply, e]
  rfl

/-- The reference's result is the specification's `GR` of the eleven argument arrays. -/
theorem result_eq (x0 : (⟨S8192x4096, .f32⟩ : BufTy).Contents (Elt Ideal))
    (x1 : (⟨S64x4096, .f32⟩ : BufTy).Contents (Elt Ideal)) (x2 : (⟨S64, .f32⟩ : BufTy).Contents (Elt Ideal))
    (x3 : (⟨S64x4096, .f32⟩ : BufTy).Contents (Elt Ideal)) (x4 : (⟨S64, .f32⟩ : BufTy).Contents (Elt Ideal))
    (x5 : (⟨S4096x4096, .f32⟩ : BufTy).Contents (Elt Ideal)) (x6 x7 x8 : (⟨S4096, .f32⟩ : BufTy).Contents (Elt Ideal))
    (x9 : (⟨S4096x4096, .f32⟩ : BufTy).Contents (Elt Ideal)) (x10 : (⟨S4096, .f32⟩ : BufTy).Contents (Elt Ideal)) :
    val_main_v65 (F := Ideal) x0 x1 x2 x3 x4 x5 x6 x7 x8 x9 x10 = Cert.Spec.GR x0 x1 x2 x3 x4 x5 x6 x7 x8 x9 x10 := by
  funext i
  obtain ⟨b, n, rfl⟩ : ∃ (b : Fin 8192) (n : Fin 4096), i = ix2 b n := ⟨i 0, i 1, eq_ix2 i⟩
  exact v65_at x0 x1 x2 x3 x4 x5 x6 x7 x8 x9 x10 b n

end Cert.RefSide

end
-- ==== Proof.LibPhasorNorm.lean ====
import proofs.«112781_j3195455668476_2_alg».proof.Proof.Spec
import Idealize.ShloMosaic.PureOps.Ideal
import proofs.«112781_j3195455668476_2_alg».proof.Pre_finite_inputs
import Idealize.ShloMosaic.Lib.ValueIdx
import Idealize.ShloMosaic.Lib.ReduceAll
import Mathlib.Tactic.Ring
import Mathlib.Tactic.LinearCombination
import Mathlib.Tactic.Positivity
import Mathlib.Tactic.NormNum

/-!
The kernel's result and the reference's result are the same function of real-valued argument arrays.

General facts first: the coercion `ℝ → EReal` commutes with finite sums; the operations both programs use send real
numbers to real numbers; the variance identity `mean (o²) − μ² = mean ((o − μ)²)` for a real-valued family on the
extended reals. Then the two programs' intermediates, one equation each, and last the reading of the finiteness
predicate: every entry of every argument array is a real number.
-/

noncomputable section

namespace Cert.SpecLaw

open Idealize.ShloMosaic Idealize.ShloMosaic.ValueIdx
open scoped BigOperators

/-! ### Real numbers inside the extended reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is a real number. -/
def IsReal (a : EReal) : Prop := ∃ r : ℝ, a = (r : EReal)

theorem isReal_coe (r : ℝ) : IsReal (r : EReal) := ⟨r, rfl⟩

theorem isReal_add {a b : EReal} (ha : IsReal a) (hb : IsReal b) : IsReal (a + b) := by
  obtain ⟨r, rfl⟩ := ha; obtain ⟨s, rfl⟩ := hb; exact ⟨r + s, (EReal.coe_add r s).symm⟩

theorem isReal_sub {a b : EReal} (ha : IsReal a) (hb : IsReal b) : IsReal (a - b) := by
  obtain ⟨r, rfl⟩ := ha; obtain ⟨s, rfl⟩ := hb; exact ⟨r - s, (EReal.coe_sub r s).symm⟩

theorem isReal_mul {a b : EReal} (ha : IsReal a) (hb : IsReal b) : IsReal (a * b) := by
  obtain ⟨r, rfl⟩ := ha; obtain ⟨s, rfl⟩ := hb; exact ⟨r * s, (EReal.coe_mul r s).symm⟩

theorem isReal_neg {a : EReal} (ha : IsReal a) : IsReal (-a) := by
  obtain ⟨r, rfl⟩ := ha; exact ⟨-r, (EReal.coe_neg r).symm⟩

theorem isReal_max {a b : EReal} (ha : IsReal a) (hb : IsReal b) : IsReal (max a b) := by
  rcases max_choice a b with h | h <;> rw [h] <;> assumption

/-- A finite sum of real numbers is a real number. -/
theorem isReal_sum {ι : Type*} (s : Finset ι) {f : ι → EReal} (h : ∀ i, IsReal (f i)) : IsReal (∑ i ∈ s, f i) := by
  choose r hr using h
  exact ⟨∑ i ∈ s, r i, by rw [coe_sum]; exact Finset.sum_congr rfl fun i _ => hr i⟩

/-- The hyperbolic tangent of a real number is a real number. -/
theorem isReal_tanh {a : EReal} (ha : IsReal a) : IsReal (Ideal.tanh a) := by
  obtain ⟨r, rfl⟩ := ha; exact ⟨Real.tanh r, rfl⟩

/-- The cosine of a real number is a real number. -/
theorem isReal_cos {a : EReal} (ha : IsReal a) : IsReal (Ideal.cos a) := by
  obtain ⟨r, rfl⟩ := ha; exact ⟨Real.cos r, rfl⟩

/-- The exponential of a real number is a real number. -/
theorem isReal_exp {a : EReal} (ha : IsReal a) : IsReal (Ideal.exp a) := by
  obtain ⟨r, rfl⟩ := ha; exact ⟨Real.exp r, rfl⟩

/-- `log (1 + eʳ)` is a real number: its argument is positive. -/
theorem isReal_log1p_exp {a : EReal} (ha : IsReal a) : IsReal (Ideal.log1p (Ideal.exp a)) := by
  obtain ⟨r, rfl⟩ := ha
  refine ⟨Real.log (1 + Real.exp r), ?_⟩
  have h : ¬ (1 + Real.exp r ≤ 0) := not_le.2 (by positivity)
  show Ideal.log (1 + ((Real.exp r : ℝ) : EReal)) = _
  rw [← EReal.coe_one, ← EReal.coe_add, Ideal.log_coe, if_neg h]

/-! ### The variance identity -/

/-- With `m = S·c` and `N·c = 1`: `S₂·c − m² = (S₂ − 2·m·S + N·m²)·c`. -/
theorem variance_arith (S₂ S N c m : ℝ) (hm : m = S * c) (hc : N * c = 1) :
    S₂ * c - m * m = (S₂ - 2 * m * S + N * (m * m)) * c := by
  linear_combination (-2 * m) * hm + (-(m * m)) * hc

/-- `mean (r²) − μ² = mean ((r − μ)²)` over a finite family of reals, the mean being the sum times `c` with `|s|·c = 1`. -/
theorem real_variance {ι : Type*} (s : Finset ι) (r : ι → ℝ) (c : ℝ) (hc : (s.card : ℝ) * c = 1) :
    (∑ d ∈ s, r d * r d) * c - ((∑ d ∈ s, r d) * c) * ((∑ d ∈ s, r d) * c)
      = (∑ d ∈ s, (r d - (∑ d ∈ s, r d) * c) * (r d - (∑ d ∈ s, r d) * c)) * c := by
  generalize hm : (∑ d ∈ s, r d) * c = m
  have h1 : ∑ d ∈ s, (r d - m) * (r d - m)
      = (∑ d ∈ s, r d * r d) - 2 * m * (∑ d ∈ s, r d) + s.card * (m * m) := by
    have e : ∀ d, (r d - m) * (r d - m) = r d * r d - 2 * m * r d + m * m := fun d => by ring
    simp only [e, Finset.sum_add_distrib, Finset.sum_sub_distrib, ← Finset.mul_sum, Finset.sum_const, nsmul_eq_mul]
    ring
  rw [h1]
  exact variance_arith _ _ _ _ _ hm.symm hc

/-- The same identity on the extended reals, for a family all of whose members are real numbers. -/
theorem ereal_variance {ι : Type*} (s : Finset ι) (o : ι → EReal) (ho : ∀ d, IsReal (o d)) (c : ℝ)
    (hc : (s.card : ℝ) * c = 1) :
    (∑ d ∈ s, o d * o d) * (c : EReal) - ((∑ d ∈ s, o d) * (c : EReal)) * ((∑ d ∈ s, o d) * (c : EReal))
      = (∑ d ∈ s, (o d - (∑ d ∈ s, o d) * (c : EReal)) * (o d - (∑ d ∈ s, o d) * (c : EReal))) * (c : EReal) := by
  choose r hr using ho
  obtain rfl : o = fun d => (r d : EReal) := funext hr
  simp only [← EReal.coe_mul, ← coe_sum, ← EReal.coe_sub]
  exact congrArg _ (real_variance s r c hc)

/-! ### The literal words -/

open Cert.Spec

/-- The word of `64.0` denotes the real `64`. -/
theorem c64_eq : c64 = ((64 : ℝ) : EReal) := by
  simp [Ideal.ofBits, Ideal.ieee, -EReal.coe_mul]; norm_num

/-- The word of `4096.0` denotes the real `4096`. -/
theorem c4096_eq : c4096 = ((4096 : ℝ) : EReal) := by
  simp [Ideal.ofBits, Ideal.ieee, -EReal.coe_mul]; norm_num

/-- The word of `0.015625` denotes the real `1/64` exactly. -/
theorem cInv64_eq : cInv64 = ((1 / 64 : ℝ) : EReal) := by
  simp [Ideal.ofBits, Ideal.ieee, -EReal.coe_mul]; norm_num

/-- The word of `2⁻¹²` denotes the real `1/4096` exactly. -/
theorem cInv4096_eq : cInv4096 = ((1 / 4096 : ℝ) : EReal) := by
  simp [Ideal.ofBits, Ideal.ieee, -EReal.coe_mul]; norm_num

/-- The zero word denotes a real number. -/
theorem isReal_cZero : IsReal cZero := by
  unfold IsReal; simp [Ideal.ofBits, Ideal.ieee, -EReal.coe_mul]; exact ⟨0, rfl⟩

/-- The word of `0.5` denotes a real number. -/
theorem isReal_cHalf : IsReal cHalf := by
  unfold IsReal; simp [Ideal.ofBits, Ideal.ieee, -EReal.coe_mul]

/-- The word of `π` rounded denotes a real number. -/
theorem isReal_cPi : IsReal cPi := by
  unfold IsReal; simp [Ideal.ofBits, Ideal.ieee, -EReal.coe_mul]

theorem isReal_cInv64 : IsReal cInv64 := ⟨_, cInv64_eq⟩

/-- Dividing by the word of `64.0` is multiplying by the word of `1/64`, at the infinities too. -/
theorem div_c64 (t : EReal) : Ideal.div t c64 = t * cInv64 := by
  rw [c64_eq, cInv64_eq, Ideal.div_coe (by norm_num)]

/-- Dividing by the word of `4096.0` is multiplying by the word of `1/4096`, at the infinities too. -/
theorem div_c4096 (t : EReal) : Ideal.div t c4096 = t * cInv4096 := by
  rw [c4096_eq, cInv4096_eq, Ideal.div_coe (by norm_num)]

/-! ### The intermediates are real numbers on real-valued arrays -/

section Reals

variable {x : FVec Ideal SBD .f32} {Wk : FVec Ideal SPD .f32} {bk : FVec Ideal SP .f32} {Wq : FVec Ideal SPD .f32}
  {bq : FVec Ideal SP .f32} {Wv : FVec Ideal SDD .f32} {bv : FVec Ideal SD .f32}

theorem isReal_proj (hx : ∀ i, IsReal (x i)) {W : FVec Ideal SPD .f32} (hW : ∀ i, IsReal (W i)) (b : Fin 8192) (p : Fin 64) :
    IsReal (proj x W b p) := by
  unfold proj; exact isReal_sum _ fun k => isReal_mul (hx _) (hW _)

theorem isReal_phase (hx : ∀ i, IsReal (x i)) {W : FVec Ideal SPD .f32} (hW : ∀ i, IsReal (W i))
    {bias : FVec Ideal SP .f32} (hb : ∀ i, IsReal (bias i)) (b : Fin 8192) (p : Fin 64) : IsReal (phase x W bias b p) := by
  unfold phase; exact isReal_mul (isReal_tanh (isReal_add (isReal_proj hx hW b p) (hb _))) isReal_cPi

theorem isReal_align (hx : ∀ i, IsReal (x i)) (hWk : ∀ i, IsReal (Wk i)) (hbk : ∀ i, IsReal (bk i))
    (hWq : ∀ i, IsReal (Wq i)) (hbq : ∀ i, IsReal (bq i)) (b : Fin 8192) : IsReal (align x Wk bk Wq bq b) := by
  unfold align
  exact isReal_sum _ fun p => isReal_cos (isReal_sub (isReal_phase hx hWk hbk b p) (isReal_phase hx hWq hbq b p))

/-- The softplus of a real number, as both programs spell it, is a real number. -/
theorem isReal_softplusBody {t : EReal} (ht : IsReal t) : IsReal (softplusBody t) := by
  unfold softplusBody
  exact isReal_add (isReal_max ht isReal_cZero)
    (isReal_log1p_exp (isReal_neg (isReal_max (isReal_sub ht isReal_cZero) (isReal_neg (isReal_sub ht isReal_cZero)))))

theorem isReal_vals (hx : ∀ i, IsReal (x i)) (hWv : ∀ i, IsReal (Wv i)) (hbv : ∀ i, IsReal (bv i))
    (b : Fin 8192) (d : Fin 4096) : IsReal (vals x Wv bv b d) := by
  unfold vals; exact isReal_add (isReal_sum _ fun k => isReal_mul (hx _) (hWv _)) (hbv _)

theorem isReal_gainR (hx : ∀ i, IsReal (x i)) (hWk : ∀ i, IsReal (Wk i)) (hbk : ∀ i, IsReal (bk i))
    (hWq : ∀ i, IsReal (Wq i)) (hbq : ∀ i, IsReal (bq i)) (b : Fin 8192) : IsReal (gainR x Wk bk Wq bq b) := by
  unfold gainR; rw [div_c64]
  exact isReal_softplusBody (isReal_add (isReal_mul (isReal_align hx hWk hbk hWq hbq b) isReal_cInv64) isReal_cHalf)

/-- Every scaled value is a real number. -/
theorem isReal_outR (hx : ∀ i, IsReal (x i)) (hWk : ∀ i, IsReal (Wk i)) (hbk : ∀ i, IsReal (bk i))
    (hWq : ∀ i, IsReal (Wq i)) (hbq : ∀ i, IsReal (bq i)) (hWv : ∀ i, IsReal (Wv i)) (hbv : ∀ i, IsReal (bv i))
    (b : Fin 8192) (d : Fin 4096) : IsReal (outR x Wk bk Wq bq Wv bv b d) := by
  unfold outR; rw [div_c64]
  exact isReal_mul (isReal_mul (isReal_mul (isReal_vals hx hWv hbv b d) (isReal_align hx hWk hbk hWq hbq b))
    (isReal_gainR hx hWk hbk hWq hbq b)) isReal_cInv64

end Reals

/-! ### The kernel's intermediates are the reference's -/

section Law

variable (x : FVec Ideal SBD .f32) (Wk : FVec Ideal SPD .f32) (bk : FVec Ideal SP .f32) (Wq : FVec Ideal SPD .f32)
  (bq : FVec Ideal SP .f32) (Wv : FVec Ideal SDD .f32) (bv : FVec Ideal SD .f32) (lng : FVec Ideal SD .f32)
  (lnb : FVec Ideal SD .f32) (Wo : FVec Ideal SDD .f32) (bo : FVec Ideal SD .f32)

/-- The gains agree: dividing by `64` is multiplying by `1/64`. -/
theorem gainK_eq_gainR (b : Fin 8192) : gainK x Wk bk Wq bq b = gainR x Wk bk Wq bq b := by
  unfold gainK gainR; rw [div_c64]

/-- The scaled values agree: the products are the same up to association. -/
theorem outK_eq_outR (b : Fin 8192) (d : Fin 4096) :
    outK x Wk bk Wq bq Wv bv b d = outR x Wk bk Wq bq Wv bv b d := by
  unfold outK outR scaleK; rw [gainK_eq_gainR, div_c64]; simp only [mul_assoc]

/-- The means agree. -/
theorem muK_eq_muR (b : Fin 8192) : muK x Wk bk Wq bq Wv bv b = muR x Wk bk Wq bq Wv bv b := by
  unfold muK muR; rw [div_c4096]; simp only [outK_eq_outR]

/-- The variances agree when every scaled value of the row is a real number: `mean (o²) − μ² = mean ((o − μ)²)`. -/
theorem varK_eq_varR (b : Fin 8192) (ho : ∀ d, IsReal (outR x Wk bk Wq bq Wv bv b d)) :
    varK x Wk bk Wq bq Wv bv b = varR x Wk bk Wq bq Wv bv b := by
  unfold varK varR
  rw [muK_eq_muR]
  simp only [outK_eq_outR]
  unfold muR
  simp only [div_c4096]
  rw [cInv4096_eq]
  exact ereal_variance Finset.univ (fun d => outR x Wk bk Wq bq Wv bv b d) ho (1 / 4096)
    (by rw [Finset.card_univ, Fintype.card_fin]; norm_num)

/-- The normalised values agree. -/
theorem normedK_eq_normedR (b : Fin 8192) (d : Fin 4096) (ho : ∀ d, IsReal (outR x Wk bk Wq bq Wv bv b d)) :
    normedK x Wk bk Wq bq Wv bv lng lnb b d = normedR x Wk bk Wq bq Wv bv lng lnb b d := by
  unfold normedK normedR; rw [varK_eq_varR x Wk bk Wq bq Wv bv b ho, muK_eq_muR, outK_eq_outR]

/-- The kernel's result is the reference's result on real-valued argument arrays. -/
theorem GK_eq_GR (hx : ∀ i, ∃ r : ℝ, x i = (r : EReal)) (hWk : ∀ i, ∃ r : ℝ, Wk i = (r : EReal))
    (hbk : ∀ i, ∃ r : ℝ, bk i = (r : EReal)) (hWq : ∀ i, ∃ r : ℝ, Wq i = (r : EReal))
    (hbq : ∀ i, ∃ r : ℝ, bq i = (r : EReal)) (hWv : ∀ i, ∃ r : ℝ, Wv i = (r : EReal))
    (hbv : ∀ i, ∃ r : ℝ, bv i = (r : EReal)) :
    GK x Wk bk Wq bq Wv bv lng lnb Wo bo = GR x Wk bk Wq bq Wv bv lng lnb Wo bo := by
  funext j
  have ho : ∀ b d, IsReal (outR x Wk bk Wq bq Wv bv b d) := isReal_outR hx hWk hbk hWq hbq hWv hbv
  unfold GK GR
  simp only [fun d => normedK_eq_normedR x Wk bk Wq bq Wv bv lng lnb (j 0) d (ho (j 0))]

end Law

/-! ### From the finiteness predicate to real-valued arrays -/

/-- An extended real whose absolute value is below the word of `+∞` is a real number. -/
theorem isReal_of_abs_lt_inf (a : EReal)
    (h : Ideal.cmp .olt (max a (-a)) (Ideal.ofBits .f32 0x7F800000#32) = 1#1) : IsReal a := by
  have hinf : Ideal.ofBits .f32 0x7F800000#32 = ⊤ := by simp [Ideal.ofBits, Ideal.ieee]
  rw [hinf] at h
  induction a using EReal.rec with
  | bot => simp [Ideal.cmp] at h
  | top => simp [Ideal.cmp] at h
  | coe r => exact ⟨r, rfl⟩

/-- Pointwise conjunction of one-bit words is `1` at an index exactly when both are. -/
theorem andi_apply_eq_one {s : Shape} (X Y : IVec s 1) (j : s.Idx) :
    andi X Y j = 1#1 ↔ X j = 1#1 ∧ Y j = 1#1 := IntOp.andi_eq_one

/-- If the conjunction over all entries of `|a| < +∞` is `1`, every entry of `a` is a real number. -/
theorem isReal_of_all_abs_lt_inf {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi
        (cmpf .olt (Host.absf a) (broadcastInDim s ![] hb (constant (F := Ideal) ⟨0, ![]⟩ .f32 0x7F800000#32)))
        init hr hu ix0 = 1#1) (i : s.Idx) : IsReal (a i) := by
  haveI : Subsingleton (⟨0, ![]⟩ : Shape).Idx := ⟨fun a b => funext fun d => d.elim0⟩
  exact isReal_of_abs_lt_inf (a i) (Host.reduce_andi_all _ init hr hu ix0 e i)

/-- The finiteness predicate of the eleven argument arrays gives that every entry of each is a real number. -/
theorem finite_of_pre [Cert.Pre_finite_inputs.Facts]
    (a0 : FVec Ideal SBD .f32) (a1 : FVec Ideal SPD .f32) (a2 : FVec Ideal SP .f32) (a3 : FVec Ideal SPD .f32)
    (a4 : FVec Ideal SP .f32) (a5 : FVec Ideal SDD .f32) (a6 : FVec Ideal SD .f32) (a7 : FVec Ideal SD .f32)
    (a8 : FVec Ideal SD .f32) (a9 : FVec Ideal SDD .f32) (a10 : FVec Ideal SD .f32)
    (h : Cert.Pre_finite_inputs.fn (F := Ideal) a0 a1 a2 a3 a4 a5 a6 a7 a8 a9 a10 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal))
      ∧ (∀ i, ∃ r : ℝ, a9 i = (r : EReal)) ∧ (∀ i, ∃ r : ℝ, a10 i = (r : EReal)) := by
  have h0 := congrFun h ix0
  dsimp only [Cert.Pre_finite_inputs.fn, Cert.Pre_finite_inputs.fn_part1, Cert.Pre_finite_inputs.fn_part2,
    Cert.Pre_finite_inputs.fn_part3] at h0
  simp only [andi_apply_eq_one] at h0
  obtain ⟨⟨⟨⟨⟨⟨⟨⟨⟨⟨e0, e1⟩, e2⟩, e3⟩, e4⟩, e5⟩, e6⟩, e7⟩, e8⟩, e9⟩, e10⟩ := h0
  exact ⟨isReal_of_all_abs_lt_inf a0 _ _ _ _ e0, isReal_of_all_abs_lt_inf a1 _ _ _ _ e1,
    isReal_of_all_abs_lt_inf a2 _ _ _ _ e2, isReal_of_all_abs_lt_inf a3 _ _ _ _ e3,
    isReal_of_all_abs_lt_inf a4 _ _ _ _ e4, isReal_of_all_abs_lt_inf a5 _ _ _ _ e5,
    isReal_of_all_abs_lt_inf a6 _ _ _ _ e6, isReal_of_all_abs_lt_inf a7 _ _ _ _ e7,
    isReal_of_all_abs_lt_inf a8 _ _ _ _ e8, isReal_of_all_abs_lt_inf a9 _ _ _ _ e9,
    isReal_of_all_abs_lt_inf a10 _ _ _ _ e10⟩

end Cert.SpecLaw

end
-- ==== Proof.lean ====
/-
  The certificate: both kernel programs (the printed one at the word level, its idealization on the extended reals) run to
  the end without a fault and leave their argument arrays unchanged; so does the reference; the idealization rewrote
  nothing; and on the extended reals, for finite inputs, the idealized kernel and the reference end with equal results.

  The kernel is two pipelined regions. Region 0 accumulates, over eight column blocks of the input, the three products
  x·Wkᵀ, x·Wqᵀ, x·Wvᵀ in scratch accumulators and, at the last block, turns them into the layer-normalised rows; region 1
  accumulates normed·Woᵀ over four column blocks and adds the residual and the bias. Each region's frame is proved from the
  symbolic run of its body in each of its three control cases (first, middle, last reduction step), the accumulators'
  contents tracked from point to point. Read at an index, the result is `Cert.Spec.GK` of the arguments; the reference's
  is `Cert.Spec.GR`; the two differ by regrouped sums, by multiplying with 1/64 and 1/4096 where the reference divides,
  and by the variance spelt mean(o²) − μ² against mean((o − μ)²) — equal because every intermediate is a real number when
  the inputs are finite.
-/
import proofs.«112781_j3195455668476_2_alg».proof.Defs
import proofs.«112781_j3195455668476_2_alg».proof.Proof.Gen.Kernel
import proofs.«112781_j3195455668476_2_alg».proof.Proof.Gen.KernelIdeal
import proofs.«112781_j3195455668476_2_alg».proof.Proof.Gen.ReferenceIdeal
import proofs.«112781_j3195455668476_2_alg».proof.Proof.Gen.Pre_finite_inputs
import proofs.«112781_j3195455668476_2_alg».proof.Proof.Gen.ReferenceIdeal.Run
import proofs.«112781_j3195455668476_2_alg».proof.Proof.Gen.ReferenceIdeal.Read
import proofs.«112781_j3195455668476_2_alg».proof.Proof.KRun
import proofs.«112781_j3195455668476_2_alg».proof.Proof.KIVal
import proofs.«112781_j3195455668476_2_alg».proof.Proof.RefValue
import proofs.«112781_j3195455668476_2_alg».proof.Proof.LibPhasorNorm
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- On the extended reals the idealized kernel's result array ends at `Cert.Spec.GK` of the arguments and the reference's at
    `Cert.Spec.GR` of arguments that agree; for finite inputs the two are one function. -/
theorem algebraic : Cert.algebraic_KernelIdeal_ReferenceIdeal := by
  intro m ρ m' ρ' hpre hagree
  refine ⟨fun c => Cert.Spec.GK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c =>
      ⟨(h c _ (Cert.KernelIdeal.Hand.mem_uc Cert.KernelIdeal.main_v5 (by decide))).trans (Cert.KernelIdeal.Hand.result_eq m ρ c),
       (h c _ (Cert.KernelIdeal.Hand.mem_uc Cert.KernelIdeal.main_arg0 (by decide))).trans (Cert.KernelIdeal.Hand.W3_main_arg0 m ρ c),
       (h c _ (Cert.KernelIdeal.Hand.mem_uc Cert.KernelIdeal.main_arg1 (by decide))).trans (Cert.KernelIdeal.Hand.W3_main_arg1 m ρ c),
       (h c _ (Cert.KernelIdeal.Hand.mem_uc Cert.KernelIdeal.main_arg2 (by decide))).trans (Cert.KernelIdeal.Hand.W3_main_arg2 m ρ c),
       (h c _ (Cert.KernelIdeal.Hand.mem_uc Cert.KernelIdeal.main_arg3 (by decide))).trans (Cert.KernelIdeal.Hand.W3_main_arg3 m ρ c),
       (h c _ (Cert.KernelIdeal.Hand.mem_uc Cert.KernelIdeal.main_arg4 (by decide))).trans (Cert.KernelIdeal.Hand.W3_main_arg4 m ρ c),
       (h c _ (Cert.KernelIdeal.Hand.mem_uc Cert.KernelIdeal.main_arg5 (by decide))).trans (Cert.KernelIdeal.Hand.W3_main_arg5 m ρ c),
       (h c _ (Cert.KernelIdeal.Hand.mem_uc Cert.KernelIdeal.main_arg6 (by decide))).trans (Cert.KernelIdeal.Hand.W3_main_arg6 m ρ c),
       (h c _ (Cert.KernelIdeal.Hand.mem_uc Cert.KernelIdeal.main_arg7 (by decide))).trans (Cert.KernelIdeal.Hand.W3_main_arg7 m ρ c),
       (h c _ (Cert.KernelIdeal.Hand.mem_uc Cert.KernelIdeal.main_arg8 (by decide))).trans (Cert.KernelIdeal.Hand.W3_main_arg8 m ρ c),
       (h c _ (Cert.KernelIdeal.Hand.mem_uc Cert.KernelIdeal.main_arg9 (by decide))).trans (Cert.KernelIdeal.Hand.W3_main_arg9 m ρ c),
       (h c _ (Cert.KernelIdeal.Hand.mem_uc Cert.KernelIdeal.main_arg10 (by decide))).trans (Cert.KernelIdeal.Hand.W3_main_arg10 m ρ c)⟩)
      (Cert.KernelIdeal.Hand.run_main (F := Ideal) m ρ)
  · refine (θ_run Cert.ReferenceIdeal.defs _ _).mono (fun r h c => ⟨?_, (h c).2⟩) (Cert.ReferenceIdeal.Value.run (F := Ideal) m' ρ')
    obtain ⟨e0, e1, e2, e3, e4, e5, e6, e7, e8, e9, e10⟩ := hagree c
    obtain ⟨h0, h1, h2, h3, h4, h5, h6, _, _, _, _⟩ := Cert.SpecLaw.finite_of_pre _ _ _ _ _ _ _ _ _ _ _ (hpre c)
    rw [(h c).1, Cert.ReferenceIdeal.Read.val_main_v65_eq, Cert.RefSide.result_eq, e0, e1, e2, e3, e4, e5, e6, e7, e8, e9, e10]
    exact (Cert.SpecLaw.GK_eq_GR _ _ _ _ _ _ _ _ _ _ _ h0 h1 h2 h3 h4 h5 h6).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
